-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024x1024 .f32) (main_arg6 : FVec F S1024x1024 .f32) (main_arg7 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S2x2048x1024 .f32) (main_arg1 : FVec F S2x2048x1024 .f32) (main_arg2 : FVec F S2x2048x1024 .f32) (main_arg3 : FVec F S1024x1024 .f32) (main_arg4 : FVec F S1024x1024 .f32) (main_arg5 : FVec F S1024x1024 .f32) (main_arg6 : FVec F S1024x1024 .f32) (main_arg7 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S2x2048x16x64 : Shape := ⟨4, ![2, 2048, 16, 64]⟩
abbrev S1x64x16x64 : Shape := ⟨4, ![1, 64, 16, 64]⟩
abbrev S1x2048x16x64 : Shape := ⟨4, ![1, 2048, 16, 64]⟩
abbrev S1x64x1x64 : Shape := ⟨4, ![1, 64, 1, 64]⟩
abbrev S64x64 : Shape := ⟨2, ![64, 64]⟩
abbrev S1x2048x1x64 : Shape := ⟨4, ![1, 2048, 1, 64]⟩
abbrev S2048x64 : Shape := ⟨2, ![2048, 64]⟩
abbrev S64x2048 : Shape := ⟨2, ![64, 2048]⟩
abbrev S64 : Shape := ⟨1, ![64]⟩
abbrev S64x1 : Shape := ⟨2, ![64, 1]⟩
abbrev S1x64x2x64 : Shape := ⟨4, ![1, 64, 2, 64]⟩
abbrev S1x1024 : Shape := ⟨2, ![1, 1024]⟩

abbrev nBuf : Space → Nat
  | .hbm => 26
  | .vmem => 27
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S2x2048x16x64, .bf16⟩
  | .hbm, ⟨19, _⟩ => ⟨S2x2048x16x64, .bf16⟩
  | .hbm, ⟨20, _⟩ => ⟨S2x2048x16x64, .bf16⟩
  | .hbm, ⟨21, _⟩ => ⟨S2x2048x16x64, .bf16⟩
  | .hbm, ⟨22, _⟩ => ⟨S4096x1024, .bf16⟩
  | .hbm, ⟨23, _⟩ => ⟨S1x1024, .f32⟩
  | .hbm, ⟨24, _⟩ => ⟨S4096x1024, .f32⟩
  | .hbm, ⟨25, _⟩ => ⟨S2x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x64x16x64, .bf16⟩
  | .local _ .vmem, ⟨16, _⟩ => ⟨S1x64x16x64, .bf16⟩
  | .local _ .vmem, ⟨17, _⟩ => ⟨S1x2048x16x64, .bf16⟩
  | .local _ .vmem, ⟨18, _⟩ => ⟨S1x2048x16x64, .bf16⟩
  | .local _ .vmem, ⟨19, _⟩ => ⟨S1x64x16x64, .bf16⟩
  | .local _ .vmem, ⟨20, _⟩ => ⟨S1x64x16x64, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1x1024, .f32⟩
  | .local _ .vmem, ⟨25, _⟩ => ⟨S1024x1024, .f32⟩
  | .local _ .vmem, ⟨26, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg3_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc4_stg3_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem3_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem3_0 : DmaSem sig := 25
abbrev cc4_sem3_1 : DmaSem sig := 26

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![2, 32], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_3 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x64x16x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1x2048x16x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 1 → Memref sig .tc .vmem S1x2048x16x64 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, false]

abbrev stage3_3 : Fin 2 → Memref sig .tc .vmem S1x64x16x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S2x2048x1024_S4096x1024 : S2x2048x1024.ShapeCasts S4096x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S4096x1024_S2x2048x16x64 : S4096x1024.ShapeCasts S2x2048x16x64
  inb_S1x64x16x64_S1x64x1x64_0_0_0_0 : ∀ a, (![0, 0, 0, 0] : Fin 4 → Nat) a + S1x64x1x64.size a ≤ S1x64x16x64.size a
  h_S1x64x1x64 : 0 < S1x64x1x64.numel
  shapeCasts_S1x64x1x64_S64x64 : S1x64x1x64.ShapeCasts S64x64
  inb_S1x2048x16x64_S1x2048x1x64_0_0_0_0 : ∀ a, (![0, 0, 0, 0] : Fin 4 → Nat) a + S1x2048x1x64.size a ≤ S1x2048x16x64.size a
  h_S1x2048x1x64 : 0 < S1x2048x1x64.numel
  shapeCasts_S1x2048x1x64_S2048x64 : S1x2048x1x64.ShapeCasts S2048x64
  reduces_S64x2048_S64 : S64x2048.Reduces [1] S64
  shapeCasts_S64_S64x1 : S64.ShapeCasts S64x1
  broadcasts_S64x1_S64x2048 : S64x1.Broadcasts S64x2048
  shapeCasts_S64x64_S1x64x1x64 : S64x64.ShapeCasts S1x64x1x64
  inb_S1x64x16x64_S1x64x2x64_0_0_0_0 : ∀ a, (![0, 0, 0, 0] : Fin 4 → Nat) a + S1x64x2x64.size a ≤ S1x64x16x64.size a
  h_S1x64x2x64 : 0 < S1x64x2x64.numel
  slices_S1x64x2x64_S1x64x1x64_0_0_0_0 : S1x64x2x64.Slices ![0, 0, 0, 0] S1x64x1x64
  packedbf16_S1x64x16x64_S1x64x2x64_0_0_0_0 : (Rect.unit (s := S1x64x16x64) ![0, 0, 0, 0] S1x64x2x64.size inb_S1x64x16x64_S1x64x2x64_0_0_0_0).PackedRows (EltTy.packing .bf16)
  inb_S1x64x16x64_S1x64x1x64_0_0_1_0 : ∀ a, (![0, 0, 1, 0] : Fin 4 → Nat) a + S1x64x1x64.size a ≤ S1x64x16x64.size a
  inb_S1x2048x16x64_S1x2048x1x64_0_0_1_0 : ∀ a, (![0, 0, 1, 0] : Fin 4 → Nat) a + S1x2048x1x64.size a ≤ S1x2048x16x64.size a
  slices_S1x64x2x64_S1x64x1x64_0_0_1_0 : S1x64x2x64.Slices ![0, 0, 1, 0] S1x64x1x64
  inb_S1x64x16x64_S1x64x1x64_0_0_2_0 : ∀ a, (![0, 0, 2, 0] : Fin 4 → Nat) a + S1x64x1x64.size a ≤ S1x64x16x64.size a
  inb_S1x2048x16x64_S1x2048x1x64_0_0_2_0 : ∀ a, (![0, 0, 2, 0] : Fin 4 → Nat) a + S1x2048x1x64.size a ≤ S1x2048x16x64.size a
  inb_S1x64x16x64_S1x64x2x64_0_0_2_0 : ∀ a, (![0, 0, 2, 0] : Fin 4 → Nat) a + S1x64x2x64.size a ≤ S1x64x16x64.size a
  packedbf16_S1x64x16x64_S1x64x2x64_0_0_2_0 : (Rect.unit (s := S1x64x16x64) ![0, 0, 2, 0] S1x64x2x64.size inb_S1x64x16x64_S1x64x2x64_0_0_2_0).PackedRows (EltTy.packing .bf16)
  inb_S1x64x16x64_S1x64x1x64_0_0_3_0 : ∀ a, (![0, 0, 3, 0] : Fin 4 → Nat) a + S1x64x1x64.size a ≤ S1x64x16x64.size a
  inb_S1x2048x16x64_S1x2048x1x64_0_0_3_0 : ∀ a, (![0, 0, 3, 0] : Fin 4 → Nat) a + S1x2048x1x64.size a ≤ S1x2048x16x64.size a
  inb_S1x64x16x64_S1x64x1x64_0_0_4_0 : ∀ a, (![0, 0, 4, 0] : Fin 4 → Nat) a + S1x64x1x64.size a ≤ S1x64x16x64.size a
  inb_S1x2048x16x64_S1x2048x1x64_0_0_4_0 : ∀ a, (![0, 0, 4, 0] : Fin 4 → Nat) a + S1x2048x1x64.size a ≤ S1x2048x16x64.size a
  inb_S1x64x16x64_S1x64x2x64_0_0_4_0 : ∀ a, (![0, 0, 4, 0] : Fin 4 → Nat) a + S1x64x2x64.size a ≤ S1x64x16x64.size a
  packedbf16_S1x64x16x64_S1x64x2x64_0_0_4_0 : (Rect.unit (s := S1x64x16x64) ![0, 0, 4, 0] S1x64x2x64.size inb_S1x64x16x64_S1x64x2x64_0_0_4_0).PackedRows (EltTy.packing .bf16)
  inb_S1x64x16x64_S1x64x1x64_0_0_5_0 : ∀ a, (![0, 0, 5, 0] : Fin 4 → Nat) a + S1x64x1x64.size a ≤ S1x64x16x64.size a
  inb_S1x2048x16x64_S1x2048x1x64_0_0_5_0 : ∀ a, (![0, 0, 5, 0] : Fin 4 → Nat) a + S1x2048x1x64.size a ≤ S1x2048x16x64.size a
  inb_S1x64x16x64_S1x64x1x64_0_0_6_0 : ∀ a, (![0, 0, 6, 0] : Fin 4 → Nat) a + S1x64x1x64.size a ≤ S1x64x16x64.size a
  inb_S1x2048x16x64_S1x2048x1x64_0_0_6_0 : ∀ a, (![0, 0, 6, 0] : Fin 4 → Nat) a + S1x2048x1x64.size a ≤ S1x2048x16x64.size a
  inb_S1x64x16x64_S1x64x2x64_0_0_6_0 : ∀ a, (![0, 0, 6, 0] : Fin 4 → Nat) a + S1x64x2x64.size a ≤ S1x64x16x64.size a
  packedbf16_S1x64x16x64_S1x64x2x64_0_0_6_0 : (Rect.unit (s := S1x64x16x64) ![0, 0, 6, 0] S1x64x2x64.size inb_S1x64x16x64_S1x64x2x64_0_0_6_0).PackedRows (EltTy.packing .bf16)
  inb_S1x64x16x64_S1x64x1x64_0_0_7_0 : ∀ a, (![0, 0, 7, 0] : Fin 4 → Nat) a + S1x64x1x64.size a ≤ S1x64x16x64.size a
  inb_S1x2048x16x64_S1x2048x1x64_0_0_7_0 : ∀ a, (![0, 0, 7, 0] : Fin 4 → Nat) a + S1x2048x1x64.size a ≤ S1x2048x16x64.size a
  inb_S1x64x16x64_S1x64x1x64_0_0_8_0 : ∀ a, (![0, 0, 8, 0] : Fin 4 → Nat) a + S1x64x1x64.size a ≤ S1x64x16x64.size a
  inb_S1x2048x16x64_S1x2048x1x64_0_0_8_0 : ∀ a, (![0, 0, 8, 0] : Fin 4 → Nat) a + S1x2048x1x64.size a ≤ S1x2048x16x64.size a
  inb_S1x64x16x64_S1x64x2x64_0_0_8_0 : ∀ a, (![0, 0, 8, 0] : Fin 4 → Nat) a + S1x64x2x64.size a ≤ S1x64x16x64.size a
  packedbf16_S1x64x16x64_S1x64x2x64_0_0_8_0 : (Rect.unit (s := S1x64x16x64) ![0, 0, 8, 0] S1x64x2x64.size inb_S1x64x16x64_S1x64x2x64_0_0_8_0).PackedRows (EltTy.packing .bf16)
  inb_S1x64x16x64_S1x64x1x64_0_0_9_0 : ∀ a, (![0, 0, 9, 0] : Fin 4 → Nat) a + S1x64x1x64.size a ≤ S1x64x16x64.size a
  inb_S1x2048x16x64_S1x2048x1x64_0_0_9_0 : ∀ a, (![0, 0, 9, 0] : Fin 4 → Nat) a + S1x2048x1x64.size a ≤ S1x2048x16x64.size a
  inb_S1x64x16x64_S1x64x1x64_0_0_10_0 : ∀ a, (![0, 0, 10, 0] : Fin 4 → Nat) a + S1x64x1x64.size a ≤ S1x64x16x64.size a
  inb_S1x2048x16x64_S1x2048x1x64_0_0_10_0 : ∀ a, (![0, 0, 10, 0] : Fin 4 → Nat) a + S1x2048x1x64.size a ≤ S1x2048x16x64.size a
  inb_S1x64x16x64_S1x64x2x64_0_0_10_0 : ∀ a, (![0, 0, 10, 0] : Fin 4 → Nat) a + S1x64x2x64.size a ≤ S1x64x16x64.size a
  packedbf16_S1x64x16x64_S1x64x2x64_0_0_10_0 : (Rect.unit (s := S1x64x16x64) ![0, 0, 10, 0] S1x64x2x64.size inb_S1x64x16x64_S1x64x2x64_0_0_10_0).PackedRows (EltTy.packing .bf16)
  inb_S1x64x16x64_S1x64x1x64_0_0_11_0 : ∀ a, (![0, 0, 11, 0] : Fin 4 → Nat) a + S1x64x1x64.size a ≤ S1x64x16x64.size a
  inb_S1x2048x16x64_S1x2048x1x64_0_0_11_0 : ∀ a, (![0, 0, 11, 0] : Fin 4 → Nat) a + S1x2048x1x64.size a ≤ S1x2048x16x64.size a
  inb_S1x64x16x64_S1x64x1x64_0_0_12_0 : ∀ a, (![0, 0, 12, 0] : Fin 4 → Nat) a + S1x64x1x64.size a ≤ S1x64x16x64.size a
  inb_S1x2048x16x64_S1x2048x1x64_0_0_12_0 : ∀ a, (![0, 0, 12, 0] : Fin 4 → Nat) a + S1x2048x1x64.size a ≤ S1x2048x16x64.size a
  inb_S1x64x16x64_S1x64x2x64_0_0_12_0 : ∀ a, (![0, 0, 12, 0] : Fin 4 → Nat) a + S1x64x2x64.size a ≤ S1x64x16x64.size a
  packedbf16_S1x64x16x64_S1x64x2x64_0_0_12_0 : (Rect.unit (s := S1x64x16x64) ![0, 0, 12, 0] S1x64x2x64.size inb_S1x64x16x64_S1x64x2x64_0_0_12_0).PackedRows (EltTy.packing .bf16)
  inb_S1x64x16x64_S1x64x1x64_0_0_13_0 : ∀ a, (![0, 0, 13, 0] : Fin 4 → Nat) a + S1x64x1x64.size a ≤ S1x64x16x64.size a
  inb_S1x2048x16x64_S1x2048x1x64_0_0_13_0 : ∀ a, (![0, 0, 13, 0] : Fin 4 → Nat) a + S1x2048x1x64.size a ≤ S1x2048x16x64.size a
  inb_S1x64x16x64_S1x64x1x64_0_0_14_0 : ∀ a, (![0, 0, 14, 0] : Fin 4 → Nat) a + S1x64x1x64.size a ≤ S1x64x16x64.size a
  inb_S1x2048x16x64_S1x2048x1x64_0_0_14_0 : ∀ a, (![0, 0, 14, 0] : Fin 4 → Nat) a + S1x2048x1x64.size a ≤ S1x2048x16x64.size a
  inb_S1x64x16x64_S1x64x2x64_0_0_14_0 : ∀ a, (![0, 0, 14, 0] : Fin 4 → Nat) a + S1x64x2x64.size a ≤ S1x64x16x64.size a
  packedbf16_S1x64x16x64_S1x64x2x64_0_0_14_0 : (Rect.unit (s := S1x64x16x64) ![0, 0, 14, 0] S1x64x2x64.size inb_S1x64x16x64_S1x64x2x64_0_0_14_0).PackedRows (EltTy.packing .bf16)
  inb_S1x64x16x64_S1x64x1x64_0_0_15_0 : ∀ a, (![0, 0, 15, 0] : Fin 4 → Nat) a + S1x64x1x64.size a ≤ S1x64x16x64.size a
  inb_S1x2048x16x64_S1x2048x1x64_0_0_15_0 : ∀ a, (![0, 0, 15, 0] : Fin 4 → Nat) a + S1x2048x1x64.size a ≤ S1x2048x16x64.size a
  shapeCasts_S2x2048x16x64_S4096x1024 : S2x2048x16x64.ShapeCasts S4096x1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S4096x1024_S2x2048x1024 : S4096x1024.ShapeCasts S2x2048x1024
  dot_S1024x1024_S1024x1024_S1024x1024_1_1_0_0_n_n_wf : DotDims.WF S1024x1024 S1024x1024 S1024x1024 [1] [1] [0] [0] [] []
  dot_S64x64_S2048x64_S64x2048_1_1_0_0_n_n_wf : DotDims.WF S64x64 S2048x64 S64x2048 [1] [1] [0] [0] [] []
  dot_S64x2048_S2048x64_S64x64_1_0_0_1_n_n_wf : DotDims.WF S64x2048 S2048x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x1024.size a
  hwx0_2 : ∀ i : grid0.Coords, EltTy.bits .bf16 = 32 ∨ (Rect.block (s := S4096x1024) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x1024.size a
  hwx1_2 : ∀ i : grid1.Coords, EltTy.bits .bf16 = 32 ∨ (Rect.block (s := S4096x1024) S1024x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .f32 = 32 ∨ (Rect.block (s := S4096x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x1024.size a
  hwx2_2 : ∀ i : grid2.Coords, EltTy.bits .bf16 = 32 ∨ (Rect.block (s := S4096x1024) S1024x1024.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x64x16x64.size a ≤ S2x2048x16x64.size a
  hwx3_0 : ∀ i : grid3.Coords, EltTy.bits .bf16 = 32 ∨ (Rect.block (s := S2x2048x16x64) S1x64x16x64.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2048x16x64.size a ≤ S2x2048x16x64.size a
  hwx3_1 : ∀ i : grid3.Coords, EltTy.bits .bf16 = 32 ∨ (Rect.block (s := S2x2048x16x64) S1x2048x16x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2048x16x64.size a ≤ S2x2048x16x64.size a
  hwx3_2 : ∀ i : grid3.Coords, EltTy.bits .bf16 = 32 ∨ (Rect.block (s := S2x2048x16x64) S1x2048x16x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x64x16x64.size a ≤ S2x2048x16x64.size a
  hwx3_3 : ∀ i : grid3.Coords, EltTy.bits .bf16 = 32 ∨ (Rect.block (s := S2x2048x16x64) S1x64x16x64.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S4096x1024.size a
  hwx4_0 : ∀ i : grid4.Coords, EltTy.bits .bf16 = 32 ∨ (Rect.block (s := S4096x1024) S1024x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1024.size a ≤ S4096x1024.size a
  hwx4_3 : ∀ i : grid4.Coords, EltTy.bits .f32 = 32 ∨ (Rect.block (s := S4096x1024) S1024x1024.size (cc4_transform_3 i) (hinb4_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S64x64_S2048x64_S64x2048_1_1_0_0_n_n : DotDims S64x64 S2048x64 S64x2048 where
  lhsContracting := [1]
  rhsContracting := [1]
  lhsNonContracting := [0]
  rhsNonContracting := [0]
  lhsBatch := []
  rhsBatch := []
  wf := dot_S64x64_S2048x64_S64x2048_1_1_0_0_n_n_wf
def dot_S64x2048_S2048x64_S64x64_1_0_0_1_n_n : DotDims S64x2048 S2048x64 S64x64 where
  lhsContracting := [1]
  rhsContracting := [0]
  lhsNonContracting := [0]
  rhsNonContracting := [1]
  lhsBatch := []
  rhsBatch := []
  wf := dot_S64x2048_S2048x64_S64x64_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v10) S1x64x16x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S1x2048x16x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v12) S1x2048x16x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v13) S1x64x16x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v14) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v6) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v15) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v16) S1024x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S2x2048x1024, .f32⟩
  | .hbm, ⟨9, _⟩ => ⟨S2x2048x1024, .f32⟩
  | .hbm, ⟨10, _⟩ => ⟨S2x2048x1024, .f32⟩
  | .hbm, ⟨11, _⟩ => ⟨S2x2048x16x64, .f32⟩
  | .hbm, ⟨12, _⟩ => ⟨S2x16x2048x64, .f32⟩
  | .hbm, ⟨13, _⟩ => ⟨S2x2048x16x64, .f32⟩
  | .hbm, ⟨14, _⟩ => ⟨S2x16x2048x64, .f32⟩
  | .hbm, ⟨15, _⟩ => ⟨S2x2048x16x64, .f32⟩
  | .hbm, ⟨16, _⟩ => ⟨S2x16x2048x64, .f32⟩
  | .hbm, ⟨17, _⟩ => ⟨S2x16x2048x2048, .f32⟩
  | .hbm, ⟨18, _⟩ => ⟨S_, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S_, .f32⟩
  | .hbm, ⟨24, _⟩ => ⟨S2x16x2048, .f32⟩
  | .hbm, ⟨25, _⟩ => ⟨S2x16x2048, .f32⟩
  | .hbm, ⟨26, _⟩ => ⟨S2x16x2048x1, .f32⟩
  | .hbm, ⟨27, _⟩ => ⟨S2x16x2048x2048, .f32⟩
  | .hbm, ⟨28, _⟩ => ⟨S2x16x2048x2048, .f32⟩
  | .hbm, ⟨29, _⟩ => ⟨S2x16x2048x2048, .f32⟩
  | .hbm, ⟨30, _⟩ => ⟨S_, .f32⟩
  | .hbm, ⟨31, _⟩ => ⟨S2x16x2048, .f32⟩
  | .hbm, ⟨32, _⟩ => ⟨S2x16x2048x1, .f32⟩
  | .hbm, ⟨33, _⟩ => ⟨S2x16x2048x2048, .f32⟩
  | .hbm, ⟨34, _⟩ => ⟨S2x16x2048x2048, .f32⟩
  | .hbm, ⟨35, _⟩ => ⟨S2x16x2048x64, .f32⟩
  | .hbm, ⟨36, _⟩ => ⟨S2x2048x16x64, .f32⟩
  | .hbm, ⟨37, _⟩ => ⟨S2x2048x1024, .f32⟩
  | .hbm, ⟨38, _⟩ => ⟨S2x2048x1024, .f32⟩
  | .hbm, ⟨39, _⟩ => ⟨S1x1x1024, .f32⟩
  | .hbm, ⟨40, _⟩ => ⟨S2x2048x1024, .f32⟩
  | .hbm, ⟨41, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.K.Reg0.lean ====
/-
  Region 0 of @main — a linear projection y = x · wᵀ on [4096, 1024] rows in four row blocks of 1024 — at the
  buffers' contents `V` the region is entered with: each window's block at a grid point, what the body leaves in the
  output block as a function of the two input blocks (the one store's value, the product's payload of the loaded
  blocks), the body's triple, and the pipeline's proof data with its body obligation. Stated at any float
  instance.
-/
import proofs.«119720_j50723563765938_2_alg».proof.Proof.Gen.Kernel.Launch
import proofs.«119720_j50723563765938_2_alg».proof.Proof.Gen.Kernel.Skeleton
import proofs.«119720_j50723563765938_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' window: its staging buffer holds the point's row block, fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' window: fetched at the first point only, its block index never moves, so its staging buffer holds
    the whole weight matrix at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole [1024, 1024] rectangle: what every load and the store of the body go through. -/
abbrev r0_0 : Rect S1024x1024 := Rect.unit (s := S1024x1024) ![0, 0] S1024x1024.size inb_S1024x1024_S1024x1024_0_0

/-- The output block after the body: the one store's value, the payload of the two loaded blocks. -/
def out0_2 (x0 : Vec F S1024x1024 .f32) (x1 : Vec F S1024x1024 .bf16) : Vec F S1024x1024 .bf16 :=
  View.canon [⟨r0_0, k0_pay1 (View.ld x0 r0_0) (View.ld x1 r0_0)⟩]

/-- The one store covers the block. -/
theorem cover0_2 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

set_option maxHeartbeats 1000000 in
/-- The body on whole staging buffers, the inputs' at `x0`, `x1` and the output's at anything, runs to the
    continuation with the inputs as they were and the output at `out0_2 x0 x1`. -/
theorem sound_kernel0 (c : Dev nD) (E : Set ℕ) (i : grid0.Coords) (arg1 : Memref sig .tc .vmem S1024x1024 .f32) (harg1 : arg1.IsWhole)
    (arg2 : Memref sig .tc .vmem S1024x1024 .bf16) (harg2 : arg2.IsWhole) (arg3 : Memref sig .tc .vmem S1024x1024 .bf16) (harg3 : arg3.IsWhole)
    (x0 : Vec F S1024x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0: the arrays as the region finds them; after the body each input's buffer at its
    block and the output's at `out0_2` of the input blocks; the scoped rest and the generator register pass through;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the rest passes
    through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  Region 1 of @main — a linear projection y = x · wᵀ on [4096, 1024] rows in four row blocks of 1024 — at the
  buffers' contents `V` the region is entered with: each window's block at a grid point, what the body leaves in the
  output block as a function of the two input blocks (the one store's value, the product's payload of the loaded
  blocks), the body's triple, and the pipeline's proof data with its body obligation. Stated at any float
  instance.
-/
import proofs.«119720_j50723563765938_2_alg».proof.Proof.Gen.Kernel.Launch
import proofs.«119720_j50723563765938_2_alg».proof.Proof.Gen.Kernel.Skeleton
import proofs.«119720_j50723563765938_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' window: its staging buffer holds the point's row block, fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weights' window: fetched at the first point only, its block index never moves, so its staging buffer holds
    the whole weight matrix at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole [1024, 1024] rectangle: what every load and the store of the body go through. -/
abbrev r1_0 : Rect S1024x1024 := Rect.unit (s := S1024x1024) ![0, 0] S1024x1024.size inb_S1024x1024_S1024x1024_0_0

/-- The output block after the body: the one store's value, the payload of the two loaded blocks. -/
def out1_2 (x0 : Vec F S1024x1024 .f32) (x1 : Vec F S1024x1024 .bf16) : Vec F S1024x1024 .bf16 :=
  View.canon [⟨r1_0, k1_pay1 (View.ld x0 r1_0) (View.ld x1 r1_0)⟩]

/-- The one store covers the block. -/
theorem cover1_2 (p0 : Vec F S1024x1024 .bf16) (y : S1024x1024.Idx) :
    ∃ pc ∈ ([⟨r1_0, p0⟩] : List (View.Piece (Elt F) S1024x1024 .bf16)), y ∈ pc.1.set :=
  View.cover_of_tiled [⟨r1_0, p0⟩] S1024x1024.size (by rfl) y

set_option maxHeartbeats 1000000 in
/-- The body on whole staging buffers, the inputs' at `x0`, `x1` and the output's at anything, runs to the
    continuation with the inputs as they were and the output at `out1_2 x0 x1`. -/
theorem sound_kernel1 (c : Dev nD) (E : Set ℕ) (i : grid1.Coords) (arg1 : Memref sig .tc .vmem S1024x1024 .f32) (harg1 : arg1.IsWhole)
    (arg2 : Memref sig .tc .vmem S1024x1024 .bf16) (harg2 : arg2.IsWhole) (arg3 : Memref sig .tc .vmem S1024x1024 .bf16) (harg3 : arg3.IsWhole)
    (x0 : Vec F S1024x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1: the arrays as the region finds them; after the body each input's buffer at its
    block and the output's at `out1_2` of the input blocks; the scoped rest and the generator register pass through;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the rest passes
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  Region 2 of @main — a linear projection y = x · wᵀ on [4096, 1024] rows in four row blocks of 1024 — at the
  buffers' contents `V` the region is entered with: each window's block at a grid point, what the body leaves in the
  output block as a function of the two input blocks (the one store's value, the product's payload of the loaded
  blocks), the body's triple, and the pipeline's proof data with its body obligation. Stated at any float
  instance.
-/
import proofs.«119720_j50723563765938_2_alg».proof.Proof.Gen.Kernel.Launch
import proofs.«119720_j50723563765938_2_alg».proof.Proof.Gen.Kernel.Skeleton
import proofs.«119720_j50723563765938_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' window: its staging buffer holds the point's row block, fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weights' window: fetched at the first point only, its block index never moves, so its staging buffer holds
    the whole weight matrix at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole [1024, 1024] rectangle: what every load and the store of the body go through. -/
abbrev r2_0 : Rect S1024x1024 := Rect.unit (s := S1024x1024) ![0, 0] S1024x1024.size inb_S1024x1024_S1024x1024_0_0

/-- The output block after the body: the one store's value, the payload of the two loaded blocks. -/
def out2_2 (x0 : Vec F S1024x1024 .f32) (x1 : Vec F S1024x1024 .bf16) : Vec F S1024x1024 .bf16 :=
  View.canon [⟨r2_0, k2_pay1 (View.ld x0 r2_0) (View.ld x1 r2_0)⟩]

/-- The one store covers the block. -/
theorem cover2_2 (p0 : Vec F S1024x1024 .bf16) (y : S1024x1024.Idx) :
    ∃ pc ∈ ([⟨r2_0, p0⟩] : List (View.Piece (Elt F) S1024x1024 .bf16)), y ∈ pc.1.set :=
  View.cover_of_tiled [⟨r2_0, p0⟩] S1024x1024.size (by rfl) y

set_option maxHeartbeats 1000000 in
/-- The body on whole staging buffers, the inputs' at `x0`, `x1` and the output's at anything, runs to the
    continuation with the inputs as they were and the output at `out2_2 x0 x1`. -/
theorem sound_kernel2 (c : Dev nD) (E : Set ℕ) (i : grid2.Coords) (arg1 : Memref sig .tc .vmem S1024x1024 .f32) (harg1 : arg1.IsWhole)
    (arg2 : Memref sig .tc .vmem S1024x1024 .bf16) (harg2 : arg2.IsWhole) (arg3 : Memref sig .tc .vmem S1024x1024 .bf16) (harg3 : arg3.IsWhole)
    (x0 : Vec F S1024x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2: the arrays as the region finds them; after the body each input's buffer at its
    block and the output's at `out2_2` of the input blocks; the scoped rest and the generator register pass through;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the rest passes
    through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3Data.lean ====
/-
  Region 3 of @main — the attention kernel on the grid of 2 batches by 32 query tiles of 64 rows, all 16 heads in one
  body — at the buffers' contents `V` the region is entered with: each window's block at a grid point, the
  rectangles of one head in a block, what the body leaves in the output block as a function of the three input
  blocks — head by head, the attention of that head's query rows against that head's keys and values —, and the
  pipeline's proof data. Stated at any float instance.
-/
import proofs.«119720_j50723563765938_2_alg».proof.Proof.Gen.Kernel.Launch
import proofs.«119720_j50723563765938_2_alg».proof.Proof.Gen.Kernel.Skeleton
import proofs.«119720_j50723563765938_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## One head's rectangles -/

/-- Head 0's rows of a query or output block: every row, sub-row 0, every lane. -/
abbrev r3q_0 : Rect S1x64x16x64 := Rect.unit (s := S1x64x16x64) ![0, 0, 0, 0] S1x64x1x64.size inb_S1x64x16x64_S1x64x1x64_0_0_0_0
/-- Head 0's rows of a key or value block. -/
abbrev r3k_0 : Rect S1x2048x16x64 := Rect.unit (s := S1x2048x16x64) ![0, 0, 0, 0] S1x2048x1x64.size inb_S1x2048x16x64_S1x2048x1x64_0_0_0_0
/-- Head 1's rows of a query or output block: every row, sub-row 1, every lane. -/
abbrev r3q_1 : Rect S1x64x16x64 := Rect.unit (s := S1x64x16x64) ![0, 0, 1, 0] S1x64x1x64.size inb_S1x64x16x64_S1x64x1x64_0_0_1_0
/-- Head 1's rows of a key or value block. -/
abbrev r3k_1 : Rect S1x2048x16x64 := Rect.unit (s := S1x2048x16x64) ![0, 0, 1, 0] S1x2048x1x64.size inb_S1x2048x16x64_S1x2048x1x64_0_0_1_0
/-- Head 2's rows of a query or output block: every row, sub-row 2, every lane. -/
abbrev r3q_2 : Rect S1x64x16x64 := Rect.unit (s := S1x64x16x64) ![0, 0, 2, 0] S1x64x1x64.size inb_S1x64x16x64_S1x64x1x64_0_0_2_0
/-- Head 2's rows of a key or value block. -/
abbrev r3k_2 : Rect S1x2048x16x64 := Rect.unit (s := S1x2048x16x64) ![0, 0, 2, 0] S1x2048x1x64.size inb_S1x2048x16x64_S1x2048x1x64_0_0_2_0
/-- Head 3's rows of a query or output block: every row, sub-row 3, every lane. -/
abbrev r3q_3 : Rect S1x64x16x64 := Rect.unit (s := S1x64x16x64) ![0, 0, 3, 0] S1x64x1x64.size inb_S1x64x16x64_S1x64x1x64_0_0_3_0
/-- Head 3's rows of a key or value block. -/
abbrev r3k_3 : Rect S1x2048x16x64 := Rect.unit (s := S1x2048x16x64) ![0, 0, 3, 0] S1x2048x1x64.size inb_S1x2048x16x64_S1x2048x1x64_0_0_3_0
/-- Head 4's rows of a query or output block: every row, sub-row 4, every lane. -/
abbrev r3q_4 : Rect S1x64x16x64 := Rect.unit (s := S1x64x16x64) ![0, 0, 4, 0] S1x64x1x64.size inb_S1x64x16x64_S1x64x1x64_0_0_4_0
/-- Head 4's rows of a key or value block. -/
abbrev r3k_4 : Rect S1x2048x16x64 := Rect.unit (s := S1x2048x16x64) ![0, 0, 4, 0] S1x2048x1x64.size inb_S1x2048x16x64_S1x2048x1x64_0_0_4_0
/-- Head 5's rows of a query or output block: every row, sub-row 5, every lane. -/
abbrev r3q_5 : Rect S1x64x16x64 := Rect.unit (s := S1x64x16x64) ![0, 0, 5, 0] S1x64x1x64.size inb_S1x64x16x64_S1x64x1x64_0_0_5_0
/-- Head 5's rows of a key or value block. -/
abbrev r3k_5 : Rect S1x2048x16x64 := Rect.unit (s := S1x2048x16x64) ![0, 0, 5, 0] S1x2048x1x64.size inb_S1x2048x16x64_S1x2048x1x64_0_0_5_0
/-- Head 6's rows of a query or output block: every row, sub-row 6, every lane. -/
abbrev r3q_6 : Rect S1x64x16x64 := Rect.unit (s := S1x64x16x64) ![0, 0, 6, 0] S1x64x1x64.size inb_S1x64x16x64_S1x64x1x64_0_0_6_0
/-- Head 6's rows of a key or value block. -/
abbrev r3k_6 : Rect S1x2048x16x64 := Rect.unit (s := S1x2048x16x64) ![0, 0, 6, 0] S1x2048x1x64.size inb_S1x2048x16x64_S1x2048x1x64_0_0_6_0
/-- Head 7's rows of a query or output block: every row, sub-row 7, every lane. -/
abbrev r3q_7 : Rect S1x64x16x64 := Rect.unit (s := S1x64x16x64) ![0, 0, 7, 0] S1x64x1x64.size inb_S1x64x16x64_S1x64x1x64_0_0_7_0
/-- Head 7's rows of a key or value block. -/
abbrev r3k_7 : Rect S1x2048x16x64 := Rect.unit (s := S1x2048x16x64) ![0, 0, 7, 0] S1x2048x1x64.size inb_S1x2048x16x64_S1x2048x1x64_0_0_7_0
/-- Head 8's rows of a query or output block: every row, sub-row 8, every lane. -/
abbrev r3q_8 : Rect S1x64x16x64 := Rect.unit (s := S1x64x16x64) ![0, 0, 8, 0] S1x64x1x64.size inb_S1x64x16x64_S1x64x1x64_0_0_8_0
/-- Head 8's rows of a key or value block. -/
abbrev r3k_8 : Rect S1x2048x16x64 := Rect.unit (s := S1x2048x16x64) ![0, 0, 8, 0] S1x2048x1x64.size inb_S1x2048x16x64_S1x2048x1x64_0_0_8_0
/-- Head 9's rows of a query or output block: every row, sub-row 9, every lane. -/
abbrev r3q_9 : Rect S1x64x16x64 := Rect.unit (s := S1x64x16x64) ![0, 0, 9, 0] S1x64x1x64.size inb_S1x64x16x64_S1x64x1x64_0_0_9_0
/-- Head 9's rows of a key or value block. -/
abbrev r3k_9 : Rect S1x2048x16x64 := Rect.unit (s := S1x2048x16x64) ![0, 0, 9, 0] S1x2048x1x64.size inb_S1x2048x16x64_S1x2048x1x64_0_0_9_0
/-- Head 10's rows of a query or output block: every row, sub-row 10, every lane. -/
abbrev r3q_10 : Rect S1x64x16x64 := Rect.unit (s := S1x64x16x64) ![0, 0, 10, 0] S1x64x1x64.size inb_S1x64x16x64_S1x64x1x64_0_0_10_0
/-- Head 10's rows of a key or value block. -/
abbrev r3k_10 : Rect S1x2048x16x64 := Rect.unit (s := S1x2048x16x64) ![0, 0, 10, 0] S1x2048x1x64.size inb_S1x2048x16x64_S1x2048x1x64_0_0_10_0
/-- Head 11's rows of a query or output block: every row, sub-row 11, every lane. -/
abbrev r3q_11 : Rect S1x64x16x64 := Rect.unit (s := S1x64x16x64) ![0, 0, 11, 0] S1x64x1x64.size inb_S1x64x16x64_S1x64x1x64_0_0_11_0
/-- Head 11's rows of a key or value block. -/
abbrev r3k_11 : Rect S1x2048x16x64 := Rect.unit (s := S1x2048x16x64) ![0, 0, 11, 0] S1x2048x1x64.size inb_S1x2048x16x64_S1x2048x1x64_0_0_11_0
/-- Head 12's rows of a query or output block: every row, sub-row 12, every lane. -/
abbrev r3q_12 : Rect S1x64x16x64 := Rect.unit (s := S1x64x16x64) ![0, 0, 12, 0] S1x64x1x64.size inb_S1x64x16x64_S1x64x1x64_0_0_12_0
/-- Head 12's rows of a key or value block. -/
abbrev r3k_12 : Rect S1x2048x16x64 := Rect.unit (s := S1x2048x16x64) ![0, 0, 12, 0] S1x2048x1x64.size inb_S1x2048x16x64_S1x2048x1x64_0_0_12_0
/-- Head 13's rows of a query or output block: every row, sub-row 13, every lane. -/
abbrev r3q_13 : Rect S1x64x16x64 := Rect.unit (s := S1x64x16x64) ![0, 0, 13, 0] S1x64x1x64.size inb_S1x64x16x64_S1x64x1x64_0_0_13_0
/-- Head 13's rows of a key or value block. -/
abbrev r3k_13 : Rect S1x2048x16x64 := Rect.unit (s := S1x2048x16x64) ![0, 0, 13, 0] S1x2048x1x64.size inb_S1x2048x16x64_S1x2048x1x64_0_0_13_0
/-- Head 14's rows of a query or output block: every row, sub-row 14, every lane. -/
abbrev r3q_14 : Rect S1x64x16x64 := Rect.unit (s := S1x64x16x64) ![0, 0, 14, 0] S1x64x1x64.size inb_S1x64x16x64_S1x64x1x64_0_0_14_0
/-- Head 14's rows of a key or value block. -/
abbrev r3k_14 : Rect S1x2048x16x64 := Rect.unit (s := S1x2048x16x64) ![0, 0, 14, 0] S1x2048x1x64.size inb_S1x2048x16x64_S1x2048x1x64_0_0_14_0
/-- Head 15's rows of a query or output block: every row, sub-row 15, every lane. -/
abbrev r3q_15 : Rect S1x64x16x64 := Rect.unit (s := S1x64x16x64) ![0, 0, 15, 0] S1x64x1x64.size inb_S1x64x16x64_S1x64x1x64_0_0_15_0
/-- Head 15's rows of a key or value block. -/
abbrev r3k_15 : Rect S1x2048x16x64 := Rect.unit (s := S1x2048x16x64) ![0, 0, 15, 0] S1x2048x1x64.size inb_S1x2048x16x64_S1x2048x1x64_0_0_15_0

/-! ## What the body leaves in the output block -/

/-- The output block after the body, from the three input blocks alone: sixteen pieces, one per head, the last
    head first; head `h`'s piece is the attention payload of the query block's, the key block's and the value
    block's rows of head `h`. Nothing of what the output block held before is left in it. -/
def out3_3 (x0 : Vec F S1x64x16x64 .bf16) (x1 x2 : Vec F S1x2048x16x64 .bf16) : Vec F S1x64x16x64 .bf16 :=
  View.canon [
    ⟨r3q_15, k3_pay2 (View.ld x0 r3q_15) (View.ld x1 r3k_15) (View.ld x2 r3k_15)⟩,
    ⟨r3q_14, k3_pay2 (View.ld x0 r3q_14) (View.ld x1 r3k_14) (View.ld x2 r3k_14)⟩,
    ⟨r3q_13, k3_pay2 (View.ld x0 r3q_13) (View.ld x1 r3k_13) (View.ld x2 r3k_13)⟩,
    ⟨r3q_12, k3_pay2 (View.ld x0 r3q_12) (View.ld x1 r3k_12) (View.ld x2 r3k_12)⟩,
    ⟨r3q_11, k3_pay2 (View.ld x0 r3q_11) (View.ld x1 r3k_11) (View.ld x2 r3k_11)⟩,
    ⟨r3q_10, k3_pay2 (View.ld x0 r3q_10) (View.ld x1 r3k_10) (View.ld x2 r3k_10)⟩,
    ⟨r3q_9, k3_pay2 (View.ld x0 r3q_9) (View.ld x1 r3k_9) (View.ld x2 r3k_9)⟩,
    ⟨r3q_8, k3_pay2 (View.ld x0 r3q_8) (View.ld x1 r3k_8) (View.ld x2 r3k_8)⟩,
    ⟨r3q_7, k3_pay2 (View.ld x0 r3q_7) (View.ld x1 r3k_7) (View.ld x2 r3k_7)⟩,
    ⟨r3q_6, k3_pay2 (View.ld x0 r3q_6) (View.ld x1 r3k_6) (View.ld x2 r3k_6)⟩,
    ⟨r3q_5, k3_pay2 (View.ld x0 r3q_5) (View.ld x1 r3k_5) (View.ld x2 r3k_5)⟩,
    ⟨r3q_4, k3_pay2 (View.ld x0 r3q_4) (View.ld x1 r3k_4) (View.ld x2 r3k_4)⟩,
    ⟨r3q_3, k3_pay2 (View.ld x0 r3q_3) (View.ld x1 r3k_3) (View.ld x2 r3k_3)⟩,
    ⟨r3q_2, k3_pay2 (View.ld x0 r3q_2) (View.ld x1 r3k_2) (View.ld x2 r3k_2)⟩,
    ⟨r3q_1, k3_pay2 (View.ld x0 r3q_1) (View.ld x1 r3k_1) (View.ld x2 r3k_1)⟩,
    ⟨r3q_0, k3_pay2 (View.ld x0 r3q_0) (View.ld x1 r3k_0) (View.ld x2 r3k_0)⟩]

/-! ## The pipeline's proof data -/

/-- The proof data of pipeline 3: the arrays as the region finds them; after the body each input's buffer at its
    block and the output's at `out3_3` of the input blocks; the scoped rest and the generator register pass
    through; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

end Cert.Kernel.Hand

end
-- ==== Proof.LibPackedPairStore.lean ====
/-
  Writes of a packed pair of heads, as pieces of one head each.

  The attention body stores head `h` of its output block by reading the two-head block of rows `2⌊h/2⌋, 2⌊h/2⌋ + 1`
  that holds it, replacing head `h`'s rows in what it read, and writing the two-head block back. Here: such a
  write is the block written and then the replaced rows written over it (`canon_cons_updateSlice_list`); writing
  back what a read through the same rectangle returns changes nothing (`canon_cons_readCov`); hence the second
  store of a pair is one head's rows written (`canon_second_store`), the first store is the pair's old block and
  then one head's rows written (`canon_first_store`), and after both stores the pair's old block is under the two
  heads' rows entirely and can be dropped (`overlay_drop_pair`). What eight pairs of such stores leave is
  therefore sixteen one-head pieces over nothing of the block's earlier contents.
-/
import Idealize.ShloMosaic.Lib.Pipeline.FrameBody
import Idealize.ShloMosaic.Lib.Pipeline.Value

noncomputable section

namespace Cert.PackedPair

open Idealize.ShloMosaic

section General

variable {sig : RefSig} {κ : Kind} {sp : Space} {Val : EltTy → Type} [∀ e, Nonempty (Val e)] {s : Shape} {e : EltTy}

/-- Two overlays on one rectangle agree when their backgrounds agree off the rectangle. -/
theorem overlay_congr_off {α : Type} (r : Rect s) {X X' : s.Idx → α} (G : r.shape.Idx → α)
    (h : ∀ y, y ∉ r.set → X y = X' y) : r.overlay X G = r.overlay X' G := by
  funext y
  by_cases hy : y ∈ r.set
  · obtain ⟨x, rfl⟩ := r.exists_idx_of_mem hy
    show r.overlay X G (r.emb x) = r.overlay X' G (r.emb x)
    rw [Rect.overlay_emb, Rect.overlay_emb]
  · rw [Rect.overlay_of_not_mem r X G hy, Rect.overlay_of_not_mem r X' G hy]; exact h y hy

/-- A block written with a sub-block replaced is the block written and then the sub-block written over it. -/
theorem canon_cons_updateSlice_list (off size st usize off' : Fin s.rank → Nat)
    (inb : ∀ a, off a + size a ≤ s.size a)
    (h : (⟨s.rank, size⟩ : Shape).Slices st ⟨s.rank, usize⟩)
    (inb' : ∀ a, off' a + usize a ≤ s.size a) (hoff : ∀ a, off' a = off a + st a)
    (d : (⟨s.rank, size⟩ : Shape).Idx → Val e) (upd : (⟨s.rank, usize⟩ : Shape).Idx → Val e)
    (L : List (View.Piece Val s e)) :
    View.canon (⟨Rect.unit off size inb, updateSlice d upd st h⟩ :: L)
      = View.canon (⟨Rect.unit off' usize inb', upd⟩ :: ⟨Rect.unit off size inb, d⟩ :: L) := by
  have hsz : ∀ a, st a + usize a ≤ size a := h.2
  funext y
  by_cases hy : y ∈ (Rect.unit off size inb).set
  · obtain ⟨x, rfl⟩ := (Rect.unit off size inb).exists_idx_of_mem hy
    rw [show (Rect.unit off size inb).idx x = (Rect.unit off size inb).emb x from rfl,
      View.canon_cons_emb (Rect.unit off size inb) (updateSlice d upd st h) L x]
    unfold updateSlice
    split
    · next hin =>
      have hin' : ∀ a, st a ≤ (x a).val ∧ (x a).val < st a + usize a := hin
      have hemb : (Rect.unit off size inb).emb x
          = (Rect.unit off' usize inb').emb (fun b => (⟨(x b).val - st b, by
              show (x b).val - st b < usize b
              have := hin' b; omega⟩ : Fin (usize b))) := by
        funext a; apply Fin.ext
        rw [Rect.emb_apply, Rect.emb_apply]
        have h1 := hin' a; have h2 := hoff a
        show off a + 1 * (x a).val = off' a + 1 * ((x a).val - st a)
        omega
      rw [hemb, View.canon_cons_emb (Rect.unit off' usize inb') upd]
      rfl
    · next hout =>
      have hnm : (Rect.unit off size inb).emb x ∉ (Rect.unit off' usize inb').set := by
        intro hm
        apply hout
        intro a
        have h1 := (Rect.mem_set_unit.mp hm) a
        rw [Rect.emb_apply] at h1
        have h2 := hoff a
        have h4 : off' a ≤ off a + 1 * (x a).val ∧ off a + 1 * (x a).val < off' a + usize a := h1
        show st a ≤ (x a).val ∧ (x a).val < st a + usize a
        omega
      rw [View.canon_cons_of_not_mem ⟨Rect.unit off' usize inb', upd⟩ (⟨Rect.unit off size inb, d⟩ :: L) hnm,
        View.canon_cons_emb (Rect.unit off size inb) d L x]
  · have hnm : y ∉ (Rect.unit off' usize inb').set := by
      intro hm; apply hy
      rw [Rect.mem_set_unit] at hm ⊢
      intro a
      have h1 := hm a; have h2 := hoff a; have h3 := hsz a
      omega
    rw [View.canon_cons_of_not_mem ⟨Rect.unit off size inb, updateSlice d upd st h⟩ L hy,
      View.canon_cons_of_not_mem ⟨Rect.unit off' usize inb', upd⟩ (⟨Rect.unit off size inb, d⟩ :: L) hnm,
      View.canon_cons_of_not_mem ⟨Rect.unit off size inb, d⟩ L hy]

/-- Writing back over a list of writes what a load through the same rectangle reads of them changes nothing. -/
theorem canon_cons_readCov (v : View sig κ sp s e) (r : Rect s) (M : List (View.Piece Val s e)) :
    View.canon (⟨r, v.readCov M r.toLoadRect⟩ :: M) = View.canon M := by
  funext y
  by_cases hy : y ∈ r.set
  · obtain ⟨x, rfl⟩ := r.exists_idx_of_mem hy
    rw [show r.idx x = r.emb x from rfl, View.canon_cons_emb r (v.readCov M r.toLoadRect) M x, View.readCov_eq_canon']
    rfl
  · rw [View.canon_cons_of_not_mem ⟨r, v.readCov M r.toLoadRect⟩ M hy]

end General

section Attention

variable {sig : RefSig} {κ : Kind} {sp : Space} {Val : EltTy → Type} [∀ e, Nonempty (Val e)] {e : EltTy}

/-- Pointwise: two overlays on one rectangle agree at an index when their backgrounds agree there, if it is off the rectangle. -/
theorem overlay_apply_congr {s : Shape} {α : Type} (r : Rect s) {X X' : s.Idx → α} (G : r.shape.Idx → α) (y : s.Idx)
    (h : y ∉ r.set → X y = X' y) : r.overlay X G y = r.overlay X' G y := by
  by_cases hy : y ∈ r.set
  · obtain ⟨x, rfl⟩ := r.exists_idx_of_mem hy
    show r.overlay X G (r.emb x) = r.overlay X' G (r.emb x)
    rw [Rect.overlay_emb, Rect.overlay_emb]
  · rw [Rect.overlay_of_not_mem r X G hy, Rect.overlay_of_not_mem r X' G hy]; exact h hy

/-- The block of 64 query rows by 16 heads by 64 lanes, a pair of heads of it, one head of it. -/
abbrev SO : Shape := ⟨4, ![1, 64, 16, 64]⟩
abbrev SP : Shape := ⟨4, ![1, 64, 2, 64]⟩
abbrev SH : Shape := ⟨4, ![1, 64, 1, 64]⟩

/-- The SECOND store of a pair of heads: the pair's block as read back from the writes so far (`M`), with its
    second head replaced by `B`, written over `M`, is `B` written at the second head's rows over `M`. -/
theorem canon_second_store (v : View sig κ sp SO e) (offP off1 : Fin SO.rank → Nat)
    (inbP : ∀ a, offP a + SP.size a ≤ SO.size a) (inb1 : ∀ a, off1 a + SH.size a ≤ SO.size a)
    (h1 : SP.Slices ![0, 0, 1, 0] SH) (hoff : ∀ a, off1 a = offP a + ![0, 0, 1, 0] a)
    (B : SH.Idx → Val e) (M : List (View.Piece Val SO e)) :
    View.canon (⟨Rect.unit (s := SO) offP SP.size inbP,
        updateSlice (v.readCov M (Rect.unit (s := SO) offP SP.size inbP).toLoadRect) B ![0, 0, 1, 0] h1⟩ :: M)
      = (Rect.unit (s := SO) off1 SH.size inb1).overlay (View.canon M) B := by
  refine (canon_cons_updateSlice_list offP SP.size ![0, 0, 1, 0] SH.size off1 inbP h1 inb1 hoff _ B M).trans ?_
  rw [View.canon_cons, canon_cons_readCov]

/-- The FIRST store of a pair of heads: the pair's block `d` with its first head replaced by `A`, written over `L`,
    is `d` written at the pair's rows and then `A` at the first head's rows. -/
theorem canon_first_store (offP off0 : Fin SO.rank → Nat)
    (inbP : ∀ a, offP a + SP.size a ≤ SO.size a) (inb0 : ∀ a, off0 a + SH.size a ≤ SO.size a)
    (h0 : SP.Slices ![0, 0, 0, 0] SH) (hoff : ∀ a, off0 a = offP a + ![0, 0, 0, 0] a)
    (d : SP.Idx → Val e) (A : SH.Idx → Val e) (L : List (View.Piece Val SO e)) :
    View.canon (⟨Rect.unit (s := SO) offP SP.size inbP, updateSlice d A ![0, 0, 0, 0] h0⟩ :: L)
      = (Rect.unit (s := SO) off0 SH.size inb0).overlay
          ((Rect.unit (s := SO) offP SP.size inbP).overlay (View.canon L) d) A := by
  refine (canon_cons_updateSlice_list offP SP.size ![0, 0, 0, 0] SH.size off0 inbP h0 inb0 hoff d A L).trans ?_
  rw [View.canon_cons, View.canon_cons]

/-- Once both heads of a pair are written, nothing of what the pair's rows held before is left: the two heads' rows
    are the pair's rows. -/
theorem overlay_drop_pair {α : Type} (o o1 : Nat) (ho : o1 = o + 1)
    (inbP : ∀ a, (![0, 0, o, 0] : Fin SO.rank → Nat) a + SP.size a ≤ SO.size a)
    (inb0 : ∀ a, (![0, 0, o, 0] : Fin SO.rank → Nat) a + SH.size a ≤ SO.size a)
    (inb1 : ∀ a, (![0, 0, o1, 0] : Fin SO.rank → Nat) a + SH.size a ≤ SO.size a)
    (X : SO.Idx → α) (d : SP.Idx → α) (A B : SH.Idx → α) :
    (Rect.unit (s := SO) ![0, 0, o1, 0] SH.size inb1).overlay
        ((Rect.unit (s := SO) ![0, 0, o, 0] SH.size inb0).overlay
          ((Rect.unit (s := SO) ![0, 0, o, 0] SP.size inbP).overlay X d) A) B
      = (Rect.unit (s := SO) ![0, 0, o1, 0] SH.size inb1).overlay
          ((Rect.unit (s := SO) ![0, 0, o, 0] SH.size inb0).overlay X A) B := by
  subst ho
  funext y
  apply overlay_apply_congr; intro hy1
  apply overlay_apply_congr; intro hy0
  refine Rect.overlay_of_not_mem (Rect.unit (s := SO) ![0, 0, o, 0] SP.size inbP) X d fun hP => ?_
  rw [Rect.mem_set_unit] at hP hy0 hy1
  have p0 : 0 ≤ (y 0).val ∧ (y 0).val < 0 + 1 := hP 0
  have p1 : 0 ≤ (y 1).val ∧ (y 1).val < 0 + 64 := hP 1
  have p2 : o ≤ (y 2).val ∧ (y 2).val < o + 2 := hP 2
  have p3 : 0 ≤ (y 3).val ∧ (y 3).val < 0 + 64 := hP 3
  by_cases hc : (y 2).val = o
  · exact hy0 fun (a : Fin 4) => match a with
      | ⟨0, _⟩ => p0
      | ⟨1, _⟩ => p1
      | ⟨2, _⟩ => (show o ≤ (y 2).val ∧ (y 2).val < o + 1 from ⟨by omega, by omega⟩)
      | ⟨3, _⟩ => p3
  · exact hy1 fun (a : Fin 4) => match a with
      | ⟨0, _⟩ => p0
      | ⟨1, _⟩ => p1
      | ⟨2, _⟩ => (show o + 1 ≤ (y 2).val ∧ (y 2).val < o + 1 + 1 from ⟨by omega, by omega⟩)
      | ⟨3, _⟩ => p3

end Attention

end Cert.PackedPair

end
-- ==== Proof.K.Reg3Body.lean ====
/-
  Region 3 of @main, the attention kernel: the body's triple and the body at a grid point.

  The body handles the sixteen heads one after another. For head `h` it reads the head's rows of the query, key and
  value blocks, computes the head's attention, and stores it into the output block by reading the two-head block of
  rows that holds head `h`, replacing head `h`'s rows in it and writing the two-head block back. After the two
  stores of a pair of heads nothing of what the pair's rows held before is left, and the eight pairs are the whole
  block: so the output block ends at `out3_3` of the three input blocks — sixteen one-head pieces, each the
  attention payload of that head's rows — whatever it held when the body started. Stated at any float instance.
-/
import proofs.«119720_j50723563765938_2_alg».proof.Proof.K.Reg3Data
import proofs.«119720_j50723563765938_2_alg».proof.Proof.LibPackedPairStore

set_option maxRecDepth 16384

noncomputable section

namespace Cert.Kernel.Hand

open Cert.Kernel Cert.Kernel.Gen Cert.PackedPair
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers at a point -/

/-- The query window: fetched at every point, its staging buffer holds the point's block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The key window: fetched when the batch changes only; between fetches its block index does not move, so its
    staging buffer holds the point's block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The value window: as the key window. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's triple -/

open Lean Elab Tactic Meta in
/-- In the goal, replace once by its definition each intermediate value of the body's run whose name ends in the
    given word, and contract the applied functions this exposes. -/
elab "unfold_run_value " s:str : tactic => do
  let g ← getMainGoal
  let key := s.getString
  let isName (n : Name) : Bool :=
    n.components.dropLast.any (· == `sl) && (match n with | .str _ l => l == key | _ => false)
  let t ← instantiateMVars (← g.getType)
  let t' ← Meta.deltaExpand t isName
  let t'' ← Core.betaReduce t'
  replaceMainGoal [← g.replaceTargetDefEq t'']

set_option maxHeartbeats 4000000 in
/-- The body on whole staging buffers, the inputs' at `x0`, `x1`, `x2` and the output's at anything, runs to the
    continuation with the inputs as they were and the output at `out3_3 x0 x1 x2`. The run leaves the output buffer
    as sixteen two-head writes, each the block read back with one head replaced; pair by pair, from the last, these
    are one-head writes (`canon_second_store`, `canon_first_store`, `overlay_drop_pair`), and head by head the
    written rows are the attention payload of the head's loaded rows. -/
theorem sound_kernel3 (c : Dev nD) (E : Set ℕ) (i : grid3.Coords)
    (arg2 : Memref sig .tc .vmem S1x64x16x64 .bf16) (harg2 : arg2.IsWhole)
    (arg3 : Memref sig .tc .vmem S1x2048x16x64 .bf16) (harg3 : arg3.IsWhole)
    (arg4 : Memref sig .tc .vmem S1x2048x16x64 .bf16) (harg4 : arg4.IsWhole)
    (arg5 : Memref sig .tc .vmem S1x64x16x64 .bf16) (harg5 : arg5.IsWhole)
    (x0 : Vec F S1x64x16x64 .bf16) (x1 x2 : Vec F S1x2048x16x64 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
             ∗ owns (c : Thread nD τ) arg5 fullShare (out3_3 x0 x1 x2)) -∗ K ⟨⟩))
      ⊢ wp frame (wpE (defs₀ (F := F)) Variants.none c none) E (cc3__attn_kernel i arg2 harg2 arg3 harg3 arg4 harg4 arg5 harg5) K := by
  simp only [cc3__attn_kernel_eq_skeleton]; unfold cc3__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec_parts!
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_junk_eq_canon]
  -- heads 14 and 15
  unfold_run_value "H3_16"; unfold_run_value "old_14"
  rw [canon_second_store _ _ ![0, 0, 15, 0] _ inb_S1x64x16x64_S1x64x1x64_0_0_15_0 _ (by decide)]
  unfold_run_value "H3_15"
  rw [canon_first_store _ ![0, 0, 14, 0] _ inb_S1x64x16x64_S1x64x1x64_0_0_14_0 _ (by decide)]
  rw [overlay_drop_pair 14 15 rfl]
  -- heads 12 and 13
  unfold_run_value "H3_14"; unfold_run_value "old_12"
  rw [canon_second_store _ _ ![0, 0, 13, 0] _ inb_S1x64x16x64_S1x64x1x64_0_0_13_0 _ (by decide)]
  unfold_run_value "H3_13"
  rw [canon_first_store _ ![0, 0, 12, 0] _ inb_S1x64x16x64_S1x64x1x64_0_0_12_0 _ (by decide)]
  rw [overlay_drop_pair 12 13 rfl]
  -- heads 10 and 11
  unfold_run_value "H3_12"; unfold_run_value "old_10"
  rw [canon_second_store _ _ ![0, 0, 11, 0] _ inb_S1x64x16x64_S1x64x1x64_0_0_11_0 _ (by decide)]
  unfold_run_value "H3_11"
  rw [canon_first_store _ ![0, 0, 10, 0] _ inb_S1x64x16x64_S1x64x1x64_0_0_10_0 _ (by decide)]
  rw [overlay_drop_pair 10 11 rfl]
  -- heads 8 and 9
  unfold_run_value "H3_10"; unfold_run_value "old_8"
  rw [canon_second_store _ _ ![0, 0, 9, 0] _ inb_S1x64x16x64_S1x64x1x64_0_0_9_0 _ (by decide)]
  unfold_run_value "H3_9"
  rw [canon_first_store _ ![0, 0, 8, 0] _ inb_S1x64x16x64_S1x64x1x64_0_0_8_0 _ (by decide)]
  rw [overlay_drop_pair 8 9 rfl]
  -- heads 6 and 7
  unfold_run_value "H3_8"; unfold_run_value "old_6"
  rw [canon_second_store _ _ ![0, 0, 7, 0] _ inb_S1x64x16x64_S1x64x1x64_0_0_7_0 _ (by decide)]
  unfold_run_value "H3_7"
  rw [canon_first_store _ ![0, 0, 6, 0] _ inb_S1x64x16x64_S1x64x1x64_0_0_6_0 _ (by decide)]
  rw [overlay_drop_pair 6 7 rfl]
  -- heads 4 and 5
  unfold_run_value "H3_6"; unfold_run_value "old_4"
  rw [canon_second_store _ _ ![0, 0, 5, 0] _ inb_S1x64x16x64_S1x64x1x64_0_0_5_0 _ (by decide)]
  unfold_run_value "H3_5"
  rw [canon_first_store _ ![0, 0, 4, 0] _ inb_S1x64x16x64_S1x64x1x64_0_0_4_0 _ (by decide)]
  rw [overlay_drop_pair 4 5 rfl]
  -- heads 2 and 3
  unfold_run_value "H3_4"; unfold_run_value "old_2"
  rw [canon_second_store _ _ ![0, 0, 3, 0] _ inb_S1x64x16x64_S1x64x1x64_0_0_3_0 _ (by decide)]
  unfold_run_value "H3_3"
  rw [canon_first_store _ ![0, 0, 2, 0] _ inb_S1x64x16x64_S1x64x1x64_0_0_2_0 _ (by decide)]
  rw [overlay_drop_pair 2 3 rfl]
  -- heads 0 and 1
  unfold_run_value "H3_2"; unfold_run_value "old"
  rw [canon_second_store _ _ ![0, 0, 1, 0] _ inb_S1x64x16x64_S1x64x1x64_0_0_1_0 _ (by decide)]
  unfold_run_value "H3_1"
  rw [canon_first_store _ ![0, 0, 0, 0] _ inb_S1x64x16x64_S1x64x1x64_0_0_0_0 _ (by decide)]
  rw [overlay_drop_pair 0 1 rfl]
  sl_unfold_run_names
  rfl

/-! ## The body at a grid point -/

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the rest passes
    through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.Kernel.Hand

end
-- ==== Proof.K.Reg3.lean ====
/-
  Region 3 of @main, the attention kernel: the pipeline's body obligation at the proof data of the region — at every
  grid point the body, called on the windows' current staging buffers, leaves each input's buffer at its block and
  the output's at `out3_3` of the input blocks.
-/
import proofs.«119720_j50723563765938_2_alg».proof.Proof.K.Reg3Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
/-
  Region 4 of @main — the output projection with its bias, y = x · wᵀ + b on [4096, 1024] rows in four row blocks of
  1024, the [1, 1024] bias and the weights fetched once — at the buffers' contents `V` the region is entered with: each
  window's block at a grid point, what the body leaves in the output block as a function of the three input blocks,
  the body's triple, and the pipeline's proof data with its body obligation. Stated at any float instance.
-/
import proofs.«119720_j50723563765938_2_alg».proof.Proof.Gen.Kernel.Launch
import proofs.«119720_j50723563765938_2_alg».proof.Proof.Gen.Kernel.Skeleton
import proofs.«119720_j50723563765938_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The activations' window: its staging buffer holds the point's row block. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weights' window: fetched once, its block index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The bias's window: fetched once, its block index never moves. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole [1024, 1024] rectangle and the whole [1, 1024] rectangle: what the body's loads and its store go through. -/
abbrev r4_0 : Rect S1024x1024 := Rect.unit (s := S1024x1024) ![0, 0] S1024x1024.size inb_S1024x1024_S1024x1024_0_0
abbrev r4_1 : Rect S1x1024 := Rect.unit (s := S1x1024) ![0, 0] S1x1024.size inb_S1x1024_S1x1024_0_0

/-- The output block after the body: the one store's value, the payload of the three loaded blocks. -/
def out4_3 (x0 : Vec F S1024x1024 .bf16) (x1 : Vec F S1024x1024 .bf16) (x2 : Vec F S1x1024 .f32) : Vec F S1024x1024 .f32 :=
  View.canon [⟨r4_0, k4_pay1 (View.ld x0 r4_0) (View.ld x1 r4_0) (View.ld x2 r4_1)⟩]

/-- The one store covers the block. -/
theorem cover4_3 (p0 : Vec F S1024x1024 .f32) (y : S1024x1024.Idx) :
    ∃ pc ∈ ([⟨r4_0, p0⟩] : List (View.Piece (Elt F) S1024x1024 .f32)), y ∈ pc.1.set :=
  View.cover_of_tiled [⟨r4_0, p0⟩] S1024x1024.size (by rfl) y

set_option maxHeartbeats 1000000 in
/-- The body on whole staging buffers, the inputs' at `x0`, `x1`, `x2` and the output's at anything, runs to the
    continuation with the inputs as they were and the output at `out4_3 x0 x1 x2`. -/
theorem sound_kernel4 (c : Dev nD) (E : Set ℕ) (i : grid4.Coords) (arg1 : Memref sig .tc .vmem S1024x1024 .bf16) (harg1 : arg1.IsWhole)
    (arg2 : Memref sig .tc .vmem S1024x1024 .bf16) (harg2 : arg2.IsWhole) (arg3 : Memref sig .tc .vmem S1x1024 .f32) (harg3 : arg3.IsWhole)
    (arg4 : Memref sig .tc .vmem S1024x1024 .f32) (harg4 : arg4.IsWhole)
    (x0 : Vec F S1024x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__linear_bias_kernel i arg1 harg1 arg2 harg2 arg3 harg3 arg4 harg4) K := by
  simp only [cc4__linear_bias_kernel_eq_skeleton]; unfold cc4__linear_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data of pipeline 4: the arrays as the region finds them; after the body each input's buffer at its
    block and the output's at `out4_3` of the input blocks; the scoped rest and the generator register pass through;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the body's triple applies; the rest passes
    through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Run.lean ====
/-
  The run of @main: nine items — the host stretch before the projections, the three projection regions, the reshapes
  to heads, the attention region, the reshapes back, the output projection, the last reshape. The buffers' contents at
  each boundary are a fold from the launch memory (a host stretch applies its operations; a region leaves its arrays
  at what its pipeline writes back and every other buffer alone). Every weakly fair execution terminates with every
  unscoped buffer at the last boundary's contents; no item writes an argument, so the arguments end as launched.
  Stated at any float instance.
-/
import proofs.«119720_j50723563765938_2_alg».proof.Proof.K.Reg0
import proofs.«119720_j50723563765938_2_alg».proof.Proof.K.Reg1
import proofs.«119720_j50723563765938_2_alg».proof.Proof.K.Reg2
import proofs.«119720_j50723563765938_2_alg».proof.Proof.K.Reg3
import proofs.«119720_j50723563765938_2_alg».proof.Proof.K.Reg4
import proofs.«119720_j50723563765938_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (the reshapes of the activations, the weights' change of format). -/
abbrev W1 : Dev nD → Valuation τ sig (Elt F) := fun c => StableHlo.after hostOps0 (W0 m ρ c)
abbrev Vw1 : (c : Dev nD) → (b : Ref sig .tc) → Buf (Elt F) ((c : Thread nD τ).loc b) := fun c b => W1 m ρ c b

/-- At region 0's exit: its arrays at what the pipeline leaves (the inputs as entered, the output's write-backs folded),
    every other buffer as entered. -/
def W2 (c : Dev nD) : Valuation τ sig (Elt F) :=
  Pipeline.withArrays spec0 c (W1 m ρ c) fun w => (dat0 (Vw1 m ρ) c).arrAt w cfg0.N
theorem W2_arr (c : Dev nD) (w : Fin cfg0.W) :
    W2 m ρ c (Proc.devRef .tc (Pipeline.arrRef spec0 w)) = (dat0 (Vw1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev Vw1x : (c : Dev nD) → (b : Ref sig .tc) → Buf (Elt F) ((c : Thread nD τ).loc b) := fun c b => W2 m ρ c b
theorem hF0 (c : Dev nD) (w : Fin cfg0.W) : (dat0 (Vw1 m ρ) c).arrAt w cfg0.N = Vw1x m ρ c (Pipeline.arrRef spec0 w) :=
  (W2_arr m ρ c w).symm
theorem hrest0 (c : Dev nD) : ∀ b, b ∉ Finset.univ.image (Pipeline.arrRef spec0) → Vw1x m ρ c b = Vw1 m ρ c b :=
  fun b hb => W2_of_ne m ρ c b fun w e => hb (Finset.mem_image.mpr ⟨w, Finset.mem_univ _, e⟩)

abbrev Vw2 : (c : Dev nD) → (b : Ref sig .tc) → Buf (Elt F) ((c : Thread nD τ).loc b) := fun c b => W2 m ρ c b

/-- At region 1's exit: its arrays at what the pipeline leaves (the inputs as entered, the output's write-backs folded),
    every other buffer as entered. -/
def W3 (c : Dev nD) : Valuation τ sig (Elt F) :=
  Pipeline.withArrays spec1 c (W2 m ρ c) fun w => (dat1 (Vw2 m ρ) c).arrAt w cfg1.N
theorem W3_arr (c : Dev nD) (w : Fin cfg1.W) :
    W3 m ρ c (Proc.devRef .tc (Pipeline.arrRef spec1 w)) = (dat1 (Vw2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev Vw2x : (c : Dev nD) → (b : Ref sig .tc) → Buf (Elt F) ((c : Thread nD τ).loc b) := fun c b => W3 m ρ c b
theorem hF1 (c : Dev nD) (w : Fin cfg1.W) : (dat1 (Vw2 m ρ) c).arrAt w cfg1.N = Vw2x m ρ c (Pipeline.arrRef spec1 w) :=
  (W3_arr m ρ c w).symm
theorem hrest1 (c : Dev nD) : ∀ b, b ∉ Finset.univ.image (Pipeline.arrRef spec1) → Vw2x m ρ c b = Vw2 m ρ c b :=
  fun b hb => W3_of_ne m ρ c b fun w e => hb (Finset.mem_image.mpr ⟨w, Finset.mem_univ _, e⟩)

abbrev Vw3 : (c : Dev nD) → (b : Ref sig .tc) → Buf (Elt F) ((c : Thread nD τ).loc b) := fun c b => W3 m ρ c b

/-- At region 2's exit: its arrays at what the pipeline leaves (the inputs as entered, the output's write-backs folded),
    every other buffer as entered. -/
def W4 (c : Dev nD) : Valuation τ sig (Elt F) :=
  Pipeline.withArrays spec2 c (W3 m ρ c) fun w => (dat2 (Vw3 m ρ) c).arrAt w cfg2.N
theorem W4_arr (c : Dev nD) (w : Fin cfg2.W) :
    W4 m ρ c (Proc.devRef .tc (Pipeline.arrRef spec2 w)) = (dat2 (Vw3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev Vw3x : (c : Dev nD) → (b : Ref sig .tc) → Buf (Elt F) ((c : Thread nD τ).loc b) := fun c b => W4 m ρ c b
theorem hF2 (c : Dev nD) (w : Fin cfg2.W) : (dat2 (Vw3 m ρ) c).arrAt w cfg2.N = Vw3x m ρ c (Pipeline.arrRef spec2 w) :=
  (W4_arr m ρ c w).symm
theorem hrest2 (c : Dev nD) : ∀ b, b ∉ Finset.univ.image (Pipeline.arrRef spec2) → Vw3x m ρ c b = Vw3 m ρ c b :=
  fun b hb => W4_of_ne m ρ c b fun w e => hb (Finset.mem_image.mpr ⟨w, Finset.mem_univ _, e⟩)

/-- After the reshapes to heads. -/
abbrev W5 : Dev nD → Valuation τ sig (Elt F) := fun c => StableHlo.after hostOps3 (W4 m ρ c)
abbrev Vw5 : (c : Dev nD) → (b : Ref sig .tc) → Buf (Elt F) ((c : Thread nD τ).loc b) := fun c b => W5 m ρ c b

/-- At region 3's exit: its arrays at what the pipeline leaves (the inputs as entered, the output's write-backs folded),
    every other buffer as entered. -/
def W6 (c : Dev nD) : Valuation τ sig (Elt F) :=
  Pipeline.withArrays spec3 c (W5 m ρ c) fun w => (dat3 (Vw5 m ρ) c).arrAt w cfg3.N
theorem W6_arr (c : Dev nD) (w : Fin cfg3.W) :
    W6 m ρ c (Proc.devRef .tc (Pipeline.arrRef spec3 w)) = (dat3 (Vw5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- The same read at the TensorCore's references. -/
abbrev Vw5x : (c : Dev nD) → (b : Ref sig .tc) → Buf (Elt F) ((c : Thread nD τ).loc b) := fun c b => W6 m ρ c b
theorem hF3 (c : Dev nD) (w : Fin cfg3.W) : (dat3 (Vw5 m ρ) c).arrAt w cfg3.N = Vw5x m ρ c (Pipeline.arrRef spec3 w) :=
  (W6_arr m ρ c w).symm
theorem hrest3 (c : Dev nD) : ∀ b, b ∉ Finset.univ.image (Pipeline.arrRef spec3) → Vw5x m ρ c b = Vw5 m ρ c b :=
  fun b hb => W6_of_ne m ρ c b fun w e => hb (Finset.mem_image.mpr ⟨w, Finset.mem_univ _, e⟩)

/-- After the reshapes back to rows (and of the bias to a row). -/
abbrev W7 : Dev nD → Valuation τ sig (Elt F) := fun c => StableHlo.after hostOps4 (W6 m ρ c)
abbrev Vw7 : (c : Dev nD) → (b : Ref sig .tc) → Buf (Elt F) ((c : Thread nD τ).loc b) := fun c b => W7 m ρ c b

/-- At region 4's exit: its arrays at what the pipeline leaves (the inputs as entered, the output's write-backs folded),
    every other buffer as entered. -/
def W8 (c : Dev nD) : Valuation τ sig (Elt F) :=
  Pipeline.withArrays spec4 c (W7 m ρ c) fun w => (dat4 (Vw7 m ρ) c).arrAt w cfg4.N
theorem W8_arr (c : Dev nD) (w : Fin cfg4.W) :
    W8 m ρ c (Proc.devRef .tc (Pipeline.arrRef spec4 w)) = (dat4 (Vw7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
/-- The same read at the TensorCore's references. -/
abbrev Vw7x : (c : Dev nD) → (b : Ref sig .tc) → Buf (Elt F) ((c : Thread nD τ).loc b) := fun c b => W8 m ρ c b
theorem hF4 (c : Dev nD) (w : Fin cfg4.W) : (dat4 (Vw7 m ρ) c).arrAt w cfg4.N = Vw7x m ρ c (Pipeline.arrRef spec4 w) :=
  (W8_arr m ρ c w).symm
theorem hrest4 (c : Dev nD) : ∀ b, b ∉ Finset.univ.image (Pipeline.arrRef spec4) → Vw7x m ρ c b = Vw7 m ρ c b :=
  fun b hb => W8_of_ne m ρ c b fun w e => hb (Finset.mem_image.mpr ⟨w, Finset.mem_univ _, e⟩)

/-- After the last reshape: the contents at the return. -/
abbrev W9 : Dev nD → Valuation τ sig (Elt F) := fun c => StableHlo.after hostOps5 (W8 m ρ c)

/-! ## No item writes a buffer that is neither a host result nor a region's array -/

theorem W9_of_untouched (c : Dev nD) (r : Ref sig .tc)
    (h0 : r ∉ hostOps0_W) (h3 : r ∉ hostOps3_W) (h4 : r ∉ hostOps4_W) (h5 : r ∉ hostOps5_W)
    (a0 : ∀ w, Pipeline.arrRef spec0 w ≠ r) (a1 : ∀ w, Pipeline.arrRef spec1 w ≠ r) (a2 : ∀ w, Pipeline.arrRef spec2 w ≠ r)
    (a3 : ∀ w, Pipeline.arrRef spec3 w ≠ r) (a4 : ∀ w, Pipeline.arrRef spec4 w ≠ r) :
    W9 m ρ c (Proc.devRef .tc r) = m ((c : Thread nD τ).loc r) :=
  calc W9 m ρ c (Proc.devRef .tc r)
    _ = W8 m ρ c (Proc.devRef .tc r) := StableHlo.after_of_writes_sub hostOps5 _ hostOps5_writes h5
    _ = W7 m ρ c (Proc.devRef .tc r) := W8_of_ne m ρ c r a4
    _ = W6 m ρ c (Proc.devRef .tc r) := StableHlo.after_of_writes_sub hostOps4 _ hostOps4_writes h4
    _ = W5 m ρ c (Proc.devRef .tc r) := W6_of_ne m ρ c r a3
    _ = W4 m ρ c (Proc.devRef .tc r) := StableHlo.after_of_writes_sub hostOps3 _ hostOps3_writes h3
    _ = W3 m ρ c (Proc.devRef .tc r) := W4_of_ne m ρ c r a2
    _ = W2 m ρ c (Proc.devRef .tc r) := W3_of_ne m ρ c r a1
    _ = W1 m ρ c (Proc.devRef .tc r) := W2_of_ne m ρ c r a0
    _ = W0 m ρ c (Proc.devRef .tc r) := StableHlo.after_of_writes_sub hostOps0 _ hostOps0_writes h0
    _ = m ((c : Thread nD τ).loc r) := rfl

/-! ## The proof data family and the thread state -/

abbrev admH : (p : Fin 5) → (pcfgs (F := F) p).Adm := fun p => (cfgs p).toPCfg_adm
/-- Every pipeline's proof data, each at its region's entry contents. -/
def pdatsH : (p : Fin 5) → (c : Dev nD) → Dat τ (Elt F) Unit ℕ (UR sig nD τ) ℕ (Pipeline.pin (pcfgs (F := F)) admH p) c
  | ⟨0, _⟩ => fun c => dat0 (Vw1 m ρ) c
  | ⟨1, _⟩ => fun c => dat1 (Vw2 m ρ) c
  | ⟨2, _⟩ => fun c => dat2 (Vw3 m ρ) c
  | ⟨3, _⟩ => fun c => dat3 (Vw5 m ρ) c
  | ⟨4, _⟩ => fun c => dat4 (Vw7 m ρ) c
abbrev 𝒱H : Variants := Variants.none
abbrev LH : GSem nD τ sig → Finset Unit := fun _ => ∅
abbrev lvH : GSem nD τ sig → Unit → ℕ := fun _ _ => 0
/-- What rides beside the buffers through every item: the generator register at some state, and nothing owed. -/
abbrev RH (c : Dev nD) : sProp 𝕄 := iprop((∃ r, prngReg c r) ∗ ∃ W, owes (c : Thread nD τ) (0 : CellTallies nD τ sig Unit) W)
/-- A host stretch as a segment over the unscoped references, `RH` riding along. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TnH (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: entered with every unscoped buffer at `W1`, left with them at `W2`; its arrays
    are split out of the unscoped buffers and put back at what the pipeline leaves; the generator register goes into the
    pipeline's invariant and comes out; nothing is owed; the kernel has no semaphore of its own. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vw1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (Vw1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (Vw1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (Vw1 m ρ c) (Vw1x m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`; its arrays
    are split out of the unscoped buffers and put back at what the pipeline leaves; the generator register goes into the
    pipeline's invariant and comes out; nothing is owed; the kernel has no semaphore of its own. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vw2 m ρ) c).loose
  hwaits := Pipeline.hwaits_of_owed_zero _ _ _ _ LH lvH 1 fun _ _ => rfl
  pre c := iprop(StableHlo.held (c : Thread nD τ) (Pipeline.ucRefs τ sig) (W2 m ρ c) ∗ RH c)
  post c := iprop(StableHlo.held (c : Thread nD τ) (Pipeline.ucRefs τ sig) (W3 m ρ c) ∗ RH c)
  X c := iprop(∃ r, prngReg c r)
  Y c := iprop(∃ r, prngReg c r)
  Z c := Pipeline.unscopedRest (Ix := Unit) (Name := ℕ) (U := UR sig nD τ) (Lvl := ℕ) spec1 c (Vw2 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (Vw2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (Vw2 m ρ c) (Vw2x m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W3`, left with them at `W4`; its arrays
    are split out of the unscoped buffers and put back at what the pipeline leaves; the generator register goes into the
    pipeline's invariant and comes out; nothing is owed; the kernel has no semaphore of its own. -/
def reg2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (Vw3 m ρ) c).loose
  hwaits := Pipeline.hwaits_of_owed_zero _ _ _ _ LH lvH 2 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec2 c (Vw3 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (Vw3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (Vw3 m ρ c) (Vw3x m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W5`, left with them at `W6`; its arrays
    are split out of the unscoped buffers and put back at what the pipeline leaves; the generator register goes into the
    pipeline's invariant and comes out; nothing is owed; the kernel has no semaphore of its own. -/
def reg3 : Pipeline.RegionSeg (pcfgs (F := F)) admH (pdatsH m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (Vw5 m ρ) c).loose
  hwaits := Pipeline.hwaits_of_owed_zero _ _ _ _ LH lvH 3 fun _ _ => rfl
  pre c := iprop(StableHlo.held (c : Thread nD τ) (Pipeline.ucRefs τ sig) (W5 m ρ c) ∗ RH c)
  post c := iprop(StableHlo.held (c : Thread nD τ) (Pipeline.ucRefs τ sig) (W6 m ρ c) ∗ RH c)
  X c := iprop(∃ r, prngReg c r)
  Y c := iprop(∃ r, prngReg c r)
  Z c := Pipeline.unscopedRest (Ix := Unit) (Name := ℕ) (U := UR sig nD τ) (Lvl := ℕ) spec3 c (Vw5 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun _ => rfl) (Vw5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun _ => rfl)
      (Vw5 m ρ c) (Vw5x m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W7`, left with them at `W8`; its arrays
    are split out of the unscoped buffers and put back at what the pipeline leaves; the generator register goes into the
    pipeline's invariant and comes out; nothing is owed; the kernel has no semaphore of its own. -/
def reg4 : Pipeline.RegionSeg (pcfgs (F := F)) admH (pdatsH m ρ) () defs₀ 𝒱H LH lvH 4 where
  win := launch4.win.to₀
  block_pos := launch4.block_pos
  stage_whole := launch4.stage_whole
  K := PEmpty
  osem k := k.elim
  ho := Pipeline.OwnSemFacts.none _
  hbody c := (body_obligation4 (Vw7 m ρ) c).loose
  hwaits := Pipeline.hwaits_of_owed_zero _ _ _ _ LH lvH 4 fun _ _ => rfl
  pre c := iprop(StableHlo.held (c : Thread nD τ) (Pipeline.ucRefs τ sig) (W7 m ρ c) ∗ RH c)
  post c := iprop(StableHlo.held (c : Thread nD τ) (Pipeline.ucRefs τ sig) (W8 m ρ c) ∗ RH c)
  X c := iprop(∃ r, prngReg c r)
  Y c := iprop(∃ r, prngReg c r)
  Z c := Pipeline.unscopedRest (Ix := Unit) (Name := ℕ) (U := UR sig nD τ) (Lvl := ℕ) spec4 c (Vw7 m ρ c)
  hentry c := by
    rw [Pipeline.ownSems0_none]
    have hsplit := Pipeline.arrays_of_unscopedBufs (p := 4) (pcfgs (F := F)) admH (pdatsH m ρ) launch4.win launch4.arr_whole c
      ((pdatsH m ρ 4 c).share_full fun _ => rfl) (Vw7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsH m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m ρ) ((pdatsH m ρ 4 c).share_full fun _ => rfl)
      (Vw7 m ρ c) (Vw7x m ρ c) ((pdatsH m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m ρ) () defs₀ 𝒱H LH lvH) :=
  [ .host (hsegH hostOps0 hostOps0_sub hostOps0_fresh (W0 m ρ)),
    .region (reg0 m ρ),
    .region (reg1 m ρ),
    .region (reg2 m ρ),
    .host (hsegH hostOps3 hostOps3_sub hostOps3_fresh (W4 m ρ)),
    .region (reg3 m ρ),
    .host (hsegH hostOps4 hostOps4_sub hostOps4_fresh (W6 m ρ)),
    .region (reg4 m ρ),
    .host (hsegH hostOps5 hostOps5_sub hostOps5_fresh (W8 m ρ)) ]

theorem main_runH (c : Dev nD) : main (F := F) c = Pipeline.Seg.run (segsH m ρ) := (main_chain c).trans (by chain_rfl)

set_option backward.isDefEq.respectTransparency.types false in
/-- THE RUN: from any memory with zero counters every weakly fair execution of @main terminates, nothing faulting, and
    every final memory holds every unscoped buffer at the last boundary's contents `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TnH m ρ)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W9 m ρ c)
            ∗ ((∃ r, prngReg c r) ∗ ∃ W, owes (c : Thread nD τ) (0 : CellTallies nD τ sig Unit) W)) : sProp 𝕄)
          ⊢ iprop((StableHlo.held (c : Thread nD τ) (Pipeline.ucRefs τ sig) (W9 m ρ c) ∗ ∃ r, prngReg c r)
            ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- Every argument's buffer is written by no host operation and is no region's array: at the last boundary it
    holds its launch contents. -/
theorem args_kept (s : MemSt nD τ sig (Elt F))
    (h : ∀ c : Dev nD, ∀ b ∈ Pipeline.ucRefs τ sig, s.mem (((c : Thread nD τ)).1, b) = W9 m ρ c b) (c : Dev nD) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7) :=
  ⟨(h c _ (mem_ucH main_arg0 (by decide))).trans (W9_of_untouched m ρ c main_arg0 (by decide) (by decide) (by decide) (by decide) (by decide) (by decide) (by decide) (by decide) (by decide)),
   (h c _ (mem_ucH main_arg1 (by decide))).trans (W9_of_untouched m ρ c main_arg1 (by decide) (by decide) (by decide) (by decide) (by decide) (by decide) (by decide) (by decide) (by decide)),
   (h c _ (mem_ucH main_arg2 (by decide))).trans (W9_of_untouched m ρ c main_arg2 (by decide) (by decide) (by decide) (by decide) (by decide) (by decide) (by decide) (by decide) (by decide)),
   (h c _ (mem_ucH main_arg3 (by decide))).trans (W9_of_untouched m ρ c main_arg3 (by decide) (by decide) (by decide) (by decide) (by decide) (by decide) (by decide) (by decide) (by decide)),
   (h c _ (mem_ucH main_arg4 (by decide))).trans (W9_of_untouched m ρ c main_arg4 (by decide) (by decide) (by decide) (by decide) (by decide) (by decide) (by decide) (by decide) (by decide)),
   (h c _ (mem_ucH main_arg5 (by decide))).trans (W9_of_untouched m ρ c main_arg5 (by decide) (by decide) (by decide) (by decide) (by decide) (by decide) (by decide) (by decide) (by decide)),
   (h c _ (mem_ucH main_arg6 (by decide))).trans (W9_of_untouched m ρ c main_arg6 (by decide) (by decide) (by decide) (by decide) (by decide) (by decide) (by decide) (by decide) (by decide)),
   (h c _ (mem_ucH main_arg7 (by decide))).trans (W9_of_untouched m ρ c main_arg7 (by decide) (by decide) (by decide) (by decide) (by decide) (by decide) (by decide) (by decide) (by decide))⟩

/-- THE FRAME: the arguments end as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => args_kept m ρ r.2 h c) (run_all m ρ)

end Cert.Kernel.Hand

end
-- ==== Proof.KI.Reg0.lean ====
/-
  Region 0 of @main — a linear projection y = x · wᵀ on [4096, 1024] rows in four row blocks of 1024 — at the
  buffers' contents `V` the region is entered with: each window's block at a grid point, what the body leaves in the
  output block as a function of the two input blocks (the one store's value, the product's payload of the loaded
  blocks), the body's triple, and the pipeline's proof data with its body obligation. Stated at any float
  instance.
-/
import proofs.«119720_j50723563765938_2_alg».proof.Proof.Gen.KernelIdeal.Launch
import proofs.«119720_j50723563765938_2_alg».proof.Proof.Gen.KernelIdeal.Skeleton
import proofs.«119720_j50723563765938_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' window: its staging buffer holds the point's row block, fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' window: fetched at the first point only, its block index never moves, so its staging buffer holds
    the whole weight matrix at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole [1024, 1024] rectangle: what every load and the store of the body go through. -/
abbrev r0_0 : Rect S1024x1024 := Rect.unit (s := S1024x1024) ![0, 0] S1024x1024.size inb_S1024x1024_S1024x1024_0_0

/-- The output block after the body: the one store's value, the payload of the two loaded blocks. -/
def out0_2 (x0 : Vec F S1024x1024 .f32) (x1 : Vec F S1024x1024 .bf16) : Vec F S1024x1024 .bf16 :=
  View.canon [⟨r0_0, k0_pay1 (View.ld x0 r0_0) (View.ld x1 r0_0)⟩]

/-- The one store covers the block. -/
theorem cover0_2 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

set_option maxHeartbeats 1000000 in
/-- The body on whole staging buffers, the inputs' at `x0`, `x1` and the output's at anything, runs to the
    continuation with the inputs as they were and the output at `out0_2 x0 x1`. -/
theorem sound_kernel0 (c : Dev nD) (E : Set ℕ) (i : grid0.Coords) (arg1 : Memref sig .tc .vmem S1024x1024 .f32) (harg1 : arg1.IsWhole)
    (arg2 : Memref sig .tc .vmem S1024x1024 .bf16) (harg2 : arg2.IsWhole) (arg3 : Memref sig .tc .vmem S1024x1024 .bf16) (harg3 : arg3.IsWhole)
    (x0 : Vec F S1024x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0: the arrays as the region finds them; after the body each input's buffer at its
    block and the output's at `out0_2` of the input blocks; the scoped rest and the generator register pass through;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the rest passes
    through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 of @main — a linear projection y = x · wᵀ on [4096, 1024] rows in four row blocks of 1024 — at the
  buffers' contents `V` the region is entered with: each window's block at a grid point, what the body leaves in the
  output block as a function of the two input blocks (the one store's value, the product's payload of the loaded
  blocks), the body's triple, and the pipeline's proof data with its body obligation. Stated at any float
  instance.
-/
import proofs.«119720_j50723563765938_2_alg».proof.Proof.Gen.KernelIdeal.Launch
import proofs.«119720_j50723563765938_2_alg».proof.Proof.Gen.KernelIdeal.Skeleton
import proofs.«119720_j50723563765938_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activations' window: its staging buffer holds the point's row block, fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weights' window: fetched at the first point only, its block index never moves, so its staging buffer holds
    the whole weight matrix at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole [1024, 1024] rectangle: what every load and the store of the body go through. -/
abbrev r1_0 : Rect S1024x1024 := Rect.unit (s := S1024x1024) ![0, 0] S1024x1024.size inb_S1024x1024_S1024x1024_0_0

/-- The output block after the body: the one store's value, the payload of the two loaded blocks. -/
def out1_2 (x0 : Vec F S1024x1024 .f32) (x1 : Vec F S1024x1024 .bf16) : Vec F S1024x1024 .bf16 :=
  View.canon [⟨r1_0, k1_pay1 (View.ld x0 r1_0) (View.ld x1 r1_0)⟩]

/-- The one store covers the block. -/
theorem cover1_2 (p0 : Vec F S1024x1024 .bf16) (y : S1024x1024.Idx) :
    ∃ pc ∈ ([⟨r1_0, p0⟩] : List (View.Piece (Elt F) S1024x1024 .bf16)), y ∈ pc.1.set :=
  View.cover_of_tiled [⟨r1_0, p0⟩] S1024x1024.size (by rfl) y

set_option maxHeartbeats 1000000 in
/-- The body on whole staging buffers, the inputs' at `x0`, `x1` and the output's at anything, runs to the
    continuation with the inputs as they were and the output at `out1_2 x0 x1`. -/
theorem sound_kernel1 (c : Dev nD) (E : Set ℕ) (i : grid1.Coords) (arg1 : Memref sig .tc .vmem S1024x1024 .f32) (harg1 : arg1.IsWhole)
    (arg2 : Memref sig .tc .vmem S1024x1024 .bf16) (harg2 : arg2.IsWhole) (arg3 : Memref sig .tc .vmem S1024x1024 .bf16) (harg3 : arg3.IsWhole)
    (x0 : Vec F S1024x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1: the arrays as the region finds them; after the body each input's buffer at its
    block and the output's at `out1_2` of the input blocks; the scoped rest and the generator register pass through;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the rest passes
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2 of @main — a linear projection y = x · wᵀ on [4096, 1024] rows in four row blocks of 1024 — at the
  buffers' contents `V` the region is entered with: each window's block at a grid point, what the body leaves in the
  output block as a function of the two input blocks (the one store's value, the product's payload of the loaded
  blocks), the body's triple, and the pipeline's proof data with its body obligation. Stated at any float
  instance.
-/
import proofs.«119720_j50723563765938_2_alg».proof.Proof.Gen.KernelIdeal.Launch
import proofs.«119720_j50723563765938_2_alg».proof.Proof.Gen.KernelIdeal.Skeleton
import proofs.«119720_j50723563765938_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' window: its staging buffer holds the point's row block, fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weights' window: fetched at the first point only, its block index never moves, so its staging buffer holds
    the whole weight matrix at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole [1024, 1024] rectangle: what every load and the store of the body go through. -/
abbrev r2_0 : Rect S1024x1024 := Rect.unit (s := S1024x1024) ![0, 0] S1024x1024.size inb_S1024x1024_S1024x1024_0_0

/-- The output block after the body: the one store's value, the payload of the two loaded blocks. -/
def out2_2 (x0 : Vec F S1024x1024 .f32) (x1 : Vec F S1024x1024 .bf16) : Vec F S1024x1024 .bf16 :=
  View.canon [⟨r2_0, k2_pay1 (View.ld x0 r2_0) (View.ld x1 r2_0)⟩]

/-- The one store covers the block. -/
theorem cover2_2 (p0 : Vec F S1024x1024 .bf16) (y : S1024x1024.Idx) :
    ∃ pc ∈ ([⟨r2_0, p0⟩] : List (View.Piece (Elt F) S1024x1024 .bf16)), y ∈ pc.1.set :=
  View.cover_of_tiled [⟨r2_0, p0⟩] S1024x1024.size (by rfl) y

set_option maxHeartbeats 1000000 in
/-- The body on whole staging buffers, the inputs' at `x0`, `x1` and the output's at anything, runs to the
    continuation with the inputs as they were and the output at `out2_2 x0 x1`. -/
theorem sound_kernel2 (c : Dev nD) (E : Set ℕ) (i : grid2.Coords) (arg1 : Memref sig .tc .vmem S1024x1024 .f32) (harg1 : arg1.IsWhole)
    (arg2 : Memref sig .tc .vmem S1024x1024 .bf16) (harg2 : arg2.IsWhole) (arg3 : Memref sig .tc .vmem S1024x1024 .bf16) (harg3 : arg3.IsWhole)
    (x0 : Vec F S1024x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2: the arrays as the region finds them; after the body each input's buffer at its
    block and the output's at `out2_2` of the input blocks; the scoped rest and the generator register pass through;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the rest passes
    through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3Data.lean ====
/-
  Region 3 of @main — the attention kernel on the grid of 2 batches by 32 query tiles of 64 rows, all 16 heads in one
  body — at the buffers' contents `V` the region is entered with: each window's block at a grid point, the
  rectangles of one head in a block, what the body leaves in the output block as a function of the three input
  blocks — head by head, the attention of that head's query rows against that head's keys and values —, and the
  pipeline's proof data. Stated at any float instance.
-/
import proofs.«119720_j50723563765938_2_alg».proof.Proof.Gen.KernelIdeal.Launch
import proofs.«119720_j50723563765938_2_alg».proof.Proof.Gen.KernelIdeal.Skeleton
import proofs.«119720_j50723563765938_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## One head's rectangles -/

/-- Head 0's rows of a query or output block: every row, sub-row 0, every lane. -/
abbrev r3q_0 : Rect S1x64x16x64 := Rect.unit (s := S1x64x16x64) ![0, 0, 0, 0] S1x64x1x64.size inb_S1x64x16x64_S1x64x1x64_0_0_0_0
/-- Head 0's rows of a key or value block. -/
abbrev r3k_0 : Rect S1x2048x16x64 := Rect.unit (s := S1x2048x16x64) ![0, 0, 0, 0] S1x2048x1x64.size inb_S1x2048x16x64_S1x2048x1x64_0_0_0_0
/-- Head 1's rows of a query or output block: every row, sub-row 1, every lane. -/
abbrev r3q_1 : Rect S1x64x16x64 := Rect.unit (s := S1x64x16x64) ![0, 0, 1, 0] S1x64x1x64.size inb_S1x64x16x64_S1x64x1x64_0_0_1_0
/-- Head 1's rows of a key or value block. -/
abbrev r3k_1 : Rect S1x2048x16x64 := Rect.unit (s := S1x2048x16x64) ![0, 0, 1, 0] S1x2048x1x64.size inb_S1x2048x16x64_S1x2048x1x64_0_0_1_0
/-- Head 2's rows of a query or output block: every row, sub-row 2, every lane. -/
abbrev r3q_2 : Rect S1x64x16x64 := Rect.unit (s := S1x64x16x64) ![0, 0, 2, 0] S1x64x1x64.size inb_S1x64x16x64_S1x64x1x64_0_0_2_0
/-- Head 2's rows of a key or value block. -/
abbrev r3k_2 : Rect S1x2048x16x64 := Rect.unit (s := S1x2048x16x64) ![0, 0, 2, 0] S1x2048x1x64.size inb_S1x2048x16x64_S1x2048x1x64_0_0_2_0
/-- Head 3's rows of a query or output block: every row, sub-row 3, every lane. -/
abbrev r3q_3 : Rect S1x64x16x64 := Rect.unit (s := S1x64x16x64) ![0, 0, 3, 0] S1x64x1x64.size inb_S1x64x16x64_S1x64x1x64_0_0_3_0
/-- Head 3's rows of a key or value block. -/
abbrev r3k_3 : Rect S1x2048x16x64 := Rect.unit (s := S1x2048x16x64) ![0, 0, 3, 0] S1x2048x1x64.size inb_S1x2048x16x64_S1x2048x1x64_0_0_3_0
/-- Head 4's rows of a query or output block: every row, sub-row 4, every lane. -/
abbrev r3q_4 : Rect S1x64x16x64 := Rect.unit (s := S1x64x16x64) ![0, 0, 4, 0] S1x64x1x64.size inb_S1x64x16x64_S1x64x1x64_0_0_4_0
/-- Head 4's rows of a key or value block. -/
abbrev r3k_4 : Rect S1x2048x16x64 := Rect.unit (s := S1x2048x16x64) ![0, 0, 4, 0] S1x2048x1x64.size inb_S1x2048x16x64_S1x2048x1x64_0_0_4_0
/-- Head 5's rows of a query or output block: every row, sub-row 5, every lane. -/
abbrev r3q_5 : Rect S1x64x16x64 := Rect.unit (s := S1x64x16x64) ![0, 0, 5, 0] S1x64x1x64.size inb_S1x64x16x64_S1x64x1x64_0_0_5_0
/-- Head 5's rows of a key or value block. -/
abbrev r3k_5 : Rect S1x2048x16x64 := Rect.unit (s := S1x2048x16x64) ![0, 0, 5, 0] S1x2048x1x64.size inb_S1x2048x16x64_S1x2048x1x64_0_0_5_0
/-- Head 6's rows of a query or output block: every row, sub-row 6, every lane. -/
abbrev r3q_6 : Rect S1x64x16x64 := Rect.unit (s := S1x64x16x64) ![0, 0, 6, 0] S1x64x1x64.size inb_S1x64x16x64_S1x64x1x64_0_0_6_0
/-- Head 6's rows of a key or value block. -/
abbrev r3k_6 : Rect S1x2048x16x64 := Rect.unit (s := S1x2048x16x64) ![0, 0, 6, 0] S1x2048x1x64.size inb_S1x2048x16x64_S1x2048x1x64_0_0_6_0
/-- Head 7's rows of a query or output block: every row, sub-row 7, every lane. -/
abbrev r3q_7 : Rect S1x64x16x64 := Rect.unit (s := S1x64x16x64) ![0, 0, 7, 0] S1x64x1x64.size inb_S1x64x16x64_S1x64x1x64_0_0_7_0
/-- Head 7's rows of a key or value block. -/
abbrev r3k_7 : Rect S1x2048x16x64 := Rect.unit (s := S1x2048x16x64) ![0, 0, 7, 0] S1x2048x1x64.size inb_S1x2048x16x64_S1x2048x1x64_0_0_7_0
/-- Head 8's rows of a query or output block: every row, sub-row 8, every lane. -/
abbrev r3q_8 : Rect S1x64x16x64 := Rect.unit (s := S1x64x16x64) ![0, 0, 8, 0] S1x64x1x64.size inb_S1x64x16x64_S1x64x1x64_0_0_8_0
/-- Head 8's rows of a key or value block. -/
abbrev r3k_8 : Rect S1x2048x16x64 := Rect.unit (s := S1x2048x16x64) ![0, 0, 8, 0] S1x2048x1x64.size inb_S1x2048x16x64_S1x2048x1x64_0_0_8_0
/-- Head 9's rows of a query or output block: every row, sub-row 9, every lane. -/
abbrev r3q_9 : Rect S1x64x16x64 := Rect.unit (s := S1x64x16x64) ![0, 0, 9, 0] S1x64x1x64.size inb_S1x64x16x64_S1x64x1x64_0_0_9_0
/-- Head 9's rows of a key or value block. -/
abbrev r3k_9 : Rect S1x2048x16x64 := Rect.unit (s := S1x2048x16x64) ![0, 0, 9, 0] S1x2048x1x64.size inb_S1x2048x16x64_S1x2048x1x64_0_0_9_0
/-- Head 10's rows of a query or output block: every row, sub-row 10, every lane. -/
abbrev r3q_10 : Rect S1x64x16x64 := Rect.unit (s := S1x64x16x64) ![0, 0, 10, 0] S1x64x1x64.size inb_S1x64x16x64_S1x64x1x64_0_0_10_0
/-- Head 10's rows of a key or value block. -/
abbrev r3k_10 : Rect S1x2048x16x64 := Rect.unit (s := S1x2048x16x64) ![0, 0, 10, 0] S1x2048x1x64.size inb_S1x2048x16x64_S1x2048x1x64_0_0_10_0
/-- Head 11's rows of a query or output block: every row, sub-row 11, every lane. -/
abbrev r3q_11 : Rect S1x64x16x64 := Rect.unit (s := S1x64x16x64) ![0, 0, 11, 0] S1x64x1x64.size inb_S1x64x16x64_S1x64x1x64_0_0_11_0
/-- Head 11's rows of a key or value block. -/
abbrev r3k_11 : Rect S1x2048x16x64 := Rect.unit (s := S1x2048x16x64) ![0, 0, 11, 0] S1x2048x1x64.size inb_S1x2048x16x64_S1x2048x1x64_0_0_11_0
/-- Head 12's rows of a query or output block: every row, sub-row 12, every lane. -/
abbrev r3q_12 : Rect S1x64x16x64 := Rect.unit (s := S1x64x16x64) ![0, 0, 12, 0] S1x64x1x64.size inb_S1x64x16x64_S1x64x1x64_0_0_12_0
/-- Head 12's rows of a key or value block. -/
abbrev r3k_12 : Rect S1x2048x16x64 := Rect.unit (s := S1x2048x16x64) ![0, 0, 12, 0] S1x2048x1x64.size inb_S1x2048x16x64_S1x2048x1x64_0_0_12_0
/-- Head 13's rows of a query or output block: every row, sub-row 13, every lane. -/
abbrev r3q_13 : Rect S1x64x16x64 := Rect.unit (s := S1x64x16x64) ![0, 0, 13, 0] S1x64x1x64.size inb_S1x64x16x64_S1x64x1x64_0_0_13_0
/-- Head 13's rows of a key or value block. -/
abbrev r3k_13 : Rect S1x2048x16x64 := Rect.unit (s := S1x2048x16x64) ![0, 0, 13, 0] S1x2048x1x64.size inb_S1x2048x16x64_S1x2048x1x64_0_0_13_0
/-- Head 14's rows of a query or output block: every row, sub-row 14, every lane. -/
abbrev r3q_14 : Rect S1x64x16x64 := Rect.unit (s := S1x64x16x64) ![0, 0, 14, 0] S1x64x1x64.size inb_S1x64x16x64_S1x64x1x64_0_0_14_0
/-- Head 14's rows of a key or value block. -/
abbrev r3k_14 : Rect S1x2048x16x64 := Rect.unit (s := S1x2048x16x64) ![0, 0, 14, 0] S1x2048x1x64.size inb_S1x2048x16x64_S1x2048x1x64_0_0_14_0
/-- Head 15's rows of a query or output block: every row, sub-row 15, every lane. -/
abbrev r3q_15 : Rect S1x64x16x64 := Rect.unit (s := S1x64x16x64) ![0, 0, 15, 0] S1x64x1x64.size inb_S1x64x16x64_S1x64x1x64_0_0_15_0
/-- Head 15's rows of a key or value block. -/
abbrev r3k_15 : Rect S1x2048x16x64 := Rect.unit (s := S1x2048x16x64) ![0, 0, 15, 0] S1x2048x1x64.size inb_S1x2048x16x64_S1x2048x1x64_0_0_15_0

/-! ## What the body leaves in the output block -/

/-- The output block after the body, from the three input blocks alone: sixteen pieces, one per head, the last
    head first; head `h`'s piece is the attention payload of the query block's, the key block's and the value
    block's rows of head `h`. Nothing of what the output block held before is left in it. -/
def out3_3 (x0 : Vec F S1x64x16x64 .bf16) (x1 x2 : Vec F S1x2048x16x64 .bf16) : Vec F S1x64x16x64 .bf16 :=
  View.canon [
    ⟨r3q_15, k3_pay2 (View.ld x0 r3q_15) (View.ld x1 r3k_15) (View.ld x2 r3k_15)⟩,
    ⟨r3q_14, k3_pay2 (View.ld x0 r3q_14) (View.ld x1 r3k_14) (View.ld x2 r3k_14)⟩,
    ⟨r3q_13, k3_pay2 (View.ld x0 r3q_13) (View.ld x1 r3k_13) (View.ld x2 r3k_13)⟩,
    ⟨r3q_12, k3_pay2 (View.ld x0 r3q_12) (View.ld x1 r3k_12) (View.ld x2 r3k_12)⟩,
    ⟨r3q_11, k3_pay2 (View.ld x0 r3q_11) (View.ld x1 r3k_11) (View.ld x2 r3k_11)⟩,
    ⟨r3q_10, k3_pay2 (View.ld x0 r3q_10) (View.ld x1 r3k_10) (View.ld x2 r3k_10)⟩,
    ⟨r3q_9, k3_pay2 (View.ld x0 r3q_9) (View.ld x1 r3k_9) (View.ld x2 r3k_9)⟩,
    ⟨r3q_8, k3_pay2 (View.ld x0 r3q_8) (View.ld x1 r3k_8) (View.ld x2 r3k_8)⟩,
    ⟨r3q_7, k3_pay2 (View.ld x0 r3q_7) (View.ld x1 r3k_7) (View.ld x2 r3k_7)⟩,
    ⟨r3q_6, k3_pay2 (View.ld x0 r3q_6) (View.ld x1 r3k_6) (View.ld x2 r3k_6)⟩,
    ⟨r3q_5, k3_pay2 (View.ld x0 r3q_5) (View.ld x1 r3k_5) (View.ld x2 r3k_5)⟩,
    ⟨r3q_4, k3_pay2 (View.ld x0 r3q_4) (View.ld x1 r3k_4) (View.ld x2 r3k_4)⟩,
    ⟨r3q_3, k3_pay2 (View.ld x0 r3q_3) (View.ld x1 r3k_3) (View.ld x2 r3k_3)⟩,
    ⟨r3q_2, k3_pay2 (View.ld x0 r3q_2) (View.ld x1 r3k_2) (View.ld x2 r3k_2)⟩,
    ⟨r3q_1, k3_pay2 (View.ld x0 r3q_1) (View.ld x1 r3k_1) (View.ld x2 r3k_1)⟩,
    ⟨r3q_0, k3_pay2 (View.ld x0 r3q_0) (View.ld x1 r3k_0) (View.ld x2 r3k_0)⟩]

/-! ## The pipeline's proof data -/

/-- The proof data of pipeline 3: the arrays as the region finds them; after the body each input's buffer at its
    block and the output's at `out3_3` of the input blocks; the scoped rest and the generator register pass
    through; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

end Cert.KernelIdeal.Hand

end
-- ==== Proof.KI.Reg3Body.lean ====
/-
  Region 3 of @main, the attention kernel: the body's triple and the body at a grid point.

  The body handles the sixteen heads one after another. For head `h` it reads the head's rows of the query, key and
  value blocks, computes the head's attention, and stores it into the output block by reading the two-head block of
  rows that holds head `h`, replacing head `h`'s rows in it and writing the two-head block back. After the two
  stores of a pair of heads nothing of what the pair's rows held before is left, and the eight pairs are the whole
  block: so the output block ends at `out3_3` of the three input blocks — sixteen one-head pieces, each the
  attention payload of that head's rows — whatever it held when the body started. Stated at any float instance.
-/
import proofs.«119720_j50723563765938_2_alg».proof.Proof.KI.Reg3Data
import proofs.«119720_j50723563765938_2_alg».proof.Proof.LibPackedPairStore

set_option maxRecDepth 16384

noncomputable section

namespace Cert.KernelIdeal.Hand

open Cert.KernelIdeal Cert.KernelIdeal.Gen Cert.PackedPair
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' buffers at a point -/

/-- The query window: fetched at every point, its staging buffer holds the point's block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The key window: fetched when the batch changes only; between fetches its block index does not move, so its
    staging buffer holds the point's block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The value window: as the key window. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's triple -/

open Lean Elab Tactic Meta in
/-- In the goal, replace once by its definition each intermediate value of the body's run whose name ends in the
    given word, and contract the applied functions this exposes. -/
elab "unfold_run_value " s:str : tactic => do
  let g ← getMainGoal
  let key := s.getString
  let isName (n : Name) : Bool :=
    n.components.dropLast.any (· == `sl) && (match n with | .str _ l => l == key | _ => false)
  let t ← instantiateMVars (← g.getType)
  let t' ← Meta.deltaExpand t isName
  let t'' ← Core.betaReduce t'
  replaceMainGoal [← g.replaceTargetDefEq t'']

set_option maxHeartbeats 4000000 in
/-- The body on whole staging buffers, the inputs' at `x0`, `x1`, `x2` and the output's at anything, runs to the
    continuation with the inputs as they were and the output at `out3_3 x0 x1 x2`. The run leaves the output buffer
    as sixteen two-head writes, each the block read back with one head replaced; pair by pair, from the last, these
    are one-head writes (`canon_second_store`, `canon_first_store`, `overlay_drop_pair`), and head by head the
    written rows are the attention payload of the head's loaded rows. -/
theorem sound_kernel3 (c : Dev nD) (E : Set ℕ) (i : grid3.Coords)
    (arg2 : Memref sig .tc .vmem S1x64x16x64 .bf16) (harg2 : arg2.IsWhole)
    (arg3 : Memref sig .tc .vmem S1x2048x16x64 .bf16) (harg3 : arg3.IsWhole)
    (arg4 : Memref sig .tc .vmem S1x2048x16x64 .bf16) (harg4 : arg4.IsWhole)
    (arg5 : Memref sig .tc .vmem S1x64x16x64 .bf16) (harg5 : arg5.IsWhole)
    (x0 : Vec F S1x64x16x64 .bf16) (x1 x2 : Vec F S1x2048x16x64 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
             ∗ owns (c : Thread nD τ) arg5 fullShare (out3_3 x0 x1 x2)) -∗ K ⟨⟩))
      ⊢ wp frame (wpE (defs₀ (F := F)) Variants.none c none) E (cc3__attn_kernel i arg2 harg2 arg3 harg3 arg4 harg4 arg5 harg5) K := by
  simp only [cc3__attn_kernel_eq_skeleton]; unfold cc3__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec_parts!
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_junk_eq_canon]
  -- heads 14 and 15
  unfold_run_value "H3_16"; unfold_run_value "old_14"
  rw [canon_second_store _ _ ![0, 0, 15, 0] _ inb_S1x64x16x64_S1x64x1x64_0_0_15_0 _ (by decide)]
  unfold_run_value "H3_15"
  rw [canon_first_store _ ![0, 0, 14, 0] _ inb_S1x64x16x64_S1x64x1x64_0_0_14_0 _ (by decide)]
  rw [overlay_drop_pair 14 15 rfl]
  -- heads 12 and 13
  unfold_run_value "H3_14"; unfold_run_value "old_12"
  rw [canon_second_store _ _ ![0, 0, 13, 0] _ inb_S1x64x16x64_S1x64x1x64_0_0_13_0 _ (by decide)]
  unfold_run_value "H3_13"
  rw [canon_first_store _ ![0, 0, 12, 0] _ inb_S1x64x16x64_S1x64x1x64_0_0_12_0 _ (by decide)]
  rw [overlay_drop_pair 12 13 rfl]
  -- heads 10 and 11
  unfold_run_value "H3_12"; unfold_run_value "old_10"
  rw [canon_second_store _ _ ![0, 0, 11, 0] _ inb_S1x64x16x64_S1x64x1x64_0_0_11_0 _ (by decide)]
  unfold_run_value "H3_11"
  rw [canon_first_store _ ![0, 0, 10, 0] _ inb_S1x64x16x64_S1x64x1x64_0_0_10_0 _ (by decide)]
  rw [overlay_drop_pair 10 11 rfl]
  -- heads 8 and 9
  unfold_run_value "H3_10"; unfold_run_value "old_8"
  rw [canon_second_store _ _ ![0, 0, 9, 0] _ inb_S1x64x16x64_S1x64x1x64_0_0_9_0 _ (by decide)]
  unfold_run_value "H3_9"
  rw [canon_first_store _ ![0, 0, 8, 0] _ inb_S1x64x16x64_S1x64x1x64_0_0_8_0 _ (by decide)]
  rw [overlay_drop_pair 8 9 rfl]
  -- heads 6 and 7
  unfold_run_value "H3_8"; unfold_run_value "old_6"
  rw [canon_second_store _ _ ![0, 0, 7, 0] _ inb_S1x64x16x64_S1x64x1x64_0_0_7_0 _ (by decide)]
  unfold_run_value "H3_7"
  rw [canon_first_store _ ![0, 0, 6, 0] _ inb_S1x64x16x64_S1x64x1x64_0_0_6_0 _ (by decide)]
  rw [overlay_drop_pair 6 7 rfl]
  -- heads 4 and 5
  unfold_run_value "H3_6"; unfold_run_value "old_4"
  rw [canon_second_store _ _ ![0, 0, 5, 0] _ inb_S1x64x16x64_S1x64x1x64_0_0_5_0 _ (by decide)]
  unfold_run_value "H3_5"
  rw [canon_first_store _ ![0, 0, 4, 0] _ inb_S1x64x16x64_S1x64x1x64_0_0_4_0 _ (by decide)]
  rw [overlay_drop_pair 4 5 rfl]
  -- heads 2 and 3
  unfold_run_value "H3_4"; unfold_run_value "old_2"
  rw [canon_second_store _ _ ![0, 0, 3, 0] _ inb_S1x64x16x64_S1x64x1x64_0_0_3_0 _ (by decide)]
  unfold_run_value "H3_3"
  rw [canon_first_store _ ![0, 0, 2, 0] _ inb_S1x64x16x64_S1x64x1x64_0_0_2_0 _ (by decide)]
  rw [overlay_drop_pair 2 3 rfl]
  -- heads 0 and 1
  unfold_run_value "H3_2"; unfold_run_value "old"
  rw [canon_second_store _ _ ![0, 0, 1, 0] _ inb_S1x64x16x64_S1x64x1x64_0_0_1_0 _ (by decide)]
  unfold_run_value "H3_1"
  rw [canon_first_store _ ![0, 0, 0, 0] _ inb_S1x64x16x64_S1x64x1x64_0_0_0_0 _ (by decide)]
  rw [overlay_drop_pair 0 1 rfl]
  sl_unfold_run_names
  rfl

/-! ## The body at a grid point -/

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the rest passes
    through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.KernelIdeal.Hand

end
-- ==== Proof.KI.Reg3.lean ====
/-
  Region 3 of @main, the attention kernel: the pipeline's body obligation at the proof data of the region — at every
  grid point the body, called on the windows' current staging buffers, leaves each input's buffer at its block and
  the output's at `out3_3` of the input blocks.
-/
import proofs.«119720_j50723563765938_2_alg».proof.Proof.KI.Reg3Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/-
  Region 4 of @main — the output projection with its bias, y = x · wᵀ + b on [4096, 1024] rows in four row blocks of
  1024, the [1, 1024] bias and the weights fetched once — at the buffers' contents `V` the region is entered with: each
  window's block at a grid point, what the body leaves in the output block as a function of the three input blocks,
  the body's triple, and the pipeline's proof data with its body obligation. Stated at any float instance.
-/
import proofs.«119720_j50723563765938_2_alg».proof.Proof.Gen.KernelIdeal.Launch
import proofs.«119720_j50723563765938_2_alg».proof.Proof.Gen.KernelIdeal.Skeleton
import proofs.«119720_j50723563765938_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The activations' window: its staging buffer holds the point's row block. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weights' window: fetched once, its block index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The bias's window: fetched once, its block index never moves. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole [1024, 1024] rectangle and the whole [1, 1024] rectangle: what the body's loads and its store go through. -/
abbrev r4_0 : Rect S1024x1024 := Rect.unit (s := S1024x1024) ![0, 0] S1024x1024.size inb_S1024x1024_S1024x1024_0_0
abbrev r4_1 : Rect S1x1024 := Rect.unit (s := S1x1024) ![0, 0] S1x1024.size inb_S1x1024_S1x1024_0_0

/-- The output block after the body: the one store's value, the payload of the three loaded blocks. -/
def out4_3 (x0 : Vec F S1024x1024 .bf16) (x1 : Vec F S1024x1024 .bf16) (x2 : Vec F S1x1024 .f32) : Vec F S1024x1024 .f32 :=
  View.canon [⟨r4_0, k4_pay1 (View.ld x0 r4_0) (View.ld x1 r4_0) (View.ld x2 r4_1)⟩]

/-- The one store covers the block. -/
theorem cover4_3 (p0 : Vec F S1024x1024 .f32) (y : S1024x1024.Idx) :
    ∃ pc ∈ ([⟨r4_0, p0⟩] : List (View.Piece (Elt F) S1024x1024 .f32)), y ∈ pc.1.set :=
  View.cover_of_tiled [⟨r4_0, p0⟩] S1024x1024.size (by rfl) y

set_option maxHeartbeats 1000000 in
/-- The body on whole staging buffers, the inputs' at `x0`, `x1`, `x2` and the output's at anything, runs to the
    continuation with the inputs as they were and the output at `out4_3 x0 x1 x2`. -/
theorem sound_kernel4 (c : Dev nD) (E : Set ℕ) (i : grid4.Coords) (arg1 : Memref sig .tc .vmem S1024x1024 .bf16) (harg1 : arg1.IsWhole)
    (arg2 : Memref sig .tc .vmem S1024x1024 .bf16) (harg2 : arg2.IsWhole) (arg3 : Memref sig .tc .vmem S1x1024 .f32) (harg3 : arg3.IsWhole)
    (arg4 : Memref sig .tc .vmem S1024x1024 .f32) (harg4 : arg4.IsWhole)
    (x0 : Vec F S1024x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__linear_bias_kernel i arg1 harg1 arg2 harg2 arg3 harg3 arg4 harg4) K := by
  simp only [cc4__linear_bias_kernel_eq_skeleton]; unfold cc4__linear_bias_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data of pipeline 4: the arrays as the region finds them; after the body each input's buffer at its
    block and the output's at `out4_3` of the input blocks; the scoped rest and the generator register pass through;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' buffers hold their blocks, so the body's triple applies; the rest passes
    through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
/-
  The run of @main: nine items — the host stretch before the projections, the three projection regions, the reshapes
  to heads, the attention region, the reshapes back, the output projection, the last reshape. The buffers' contents at
  each boundary are a fold from the launch memory (a host stretch applies its operations; a region leaves its arrays
  at what its pipeline writes back and every other buffer alone). Every weakly fair execution terminates with every
  unscoped buffer at the last boundary's contents; no item writes an argument, so the arguments end as launched.
  Stated at any float instance.
-/
import proofs.«119720_j50723563765938_2_alg».proof.Proof.KI.Reg0
import proofs.«119720_j50723563765938_2_alg».proof.Proof.KI.Reg1
import proofs.«119720_j50723563765938_2_alg».proof.Proof.KI.Reg2
import proofs.«119720_j50723563765938_2_alg».proof.Proof.KI.Reg3
import proofs.«119720_j50723563765938_2_alg».proof.Proof.KI.Reg4
import proofs.«119720_j50723563765938_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (the reshapes of the activations, the weights' change of format). -/
abbrev W1 : Dev nD → Valuation τ sig (Elt F) := fun c => StableHlo.after hostOps0 (W0 m ρ c)
abbrev Vw1 : (c : Dev nD) → (b : Ref sig .tc) → Buf (Elt F) ((c : Thread nD τ).loc b) := fun c b => W1 m ρ c b

/-- At region 0's exit: its arrays at what the pipeline leaves (the inputs as entered, the output's write-backs folded),
    every other buffer as entered. -/
def W2 (c : Dev nD) : Valuation τ sig (Elt F) :=
  Pipeline.withArrays spec0 c (W1 m ρ c) fun w => (dat0 (Vw1 m ρ) c).arrAt w cfg0.N
theorem W2_arr (c : Dev nD) (w : Fin cfg0.W) :
    W2 m ρ c (Proc.devRef .tc (Pipeline.arrRef spec0 w)) = (dat0 (Vw1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev Vw1x : (c : Dev nD) → (b : Ref sig .tc) → Buf (Elt F) ((c : Thread nD τ).loc b) := fun c b => W2 m ρ c b
theorem hF0 (c : Dev nD) (w : Fin cfg0.W) : (dat0 (Vw1 m ρ) c).arrAt w cfg0.N = Vw1x m ρ c (Pipeline.arrRef spec0 w) :=
  (W2_arr m ρ c w).symm
theorem hrest0 (c : Dev nD) : ∀ b, b ∉ Finset.univ.image (Pipeline.arrRef spec0) → Vw1x m ρ c b = Vw1 m ρ c b :=
  fun b hb => W2_of_ne m ρ c b fun w e => hb (Finset.mem_image.mpr ⟨w, Finset.mem_univ _, e⟩)

abbrev Vw2 : (c : Dev nD) → (b : Ref sig .tc) → Buf (Elt F) ((c : Thread nD τ).loc b) := fun c b => W2 m ρ c b

/-- At region 1's exit: its arrays at what the pipeline leaves (the inputs as entered, the output's write-backs folded),
    every other buffer as entered. -/
def W3 (c : Dev nD) : Valuation τ sig (Elt F) :=
  Pipeline.withArrays spec1 c (W2 m ρ c) fun w => (dat1 (Vw2 m ρ) c).arrAt w cfg1.N
theorem W3_arr (c : Dev nD) (w : Fin cfg1.W) :
    W3 m ρ c (Proc.devRef .tc (Pipeline.arrRef spec1 w)) = (dat1 (Vw2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev Vw2x : (c : Dev nD) → (b : Ref sig .tc) → Buf (Elt F) ((c : Thread nD τ).loc b) := fun c b => W3 m ρ c b
theorem hF1 (c : Dev nD) (w : Fin cfg1.W) : (dat1 (Vw2 m ρ) c).arrAt w cfg1.N = Vw2x m ρ c (Pipeline.arrRef spec1 w) :=
  (W3_arr m ρ c w).symm
theorem hrest1 (c : Dev nD) : ∀ b, b ∉ Finset.univ.image (Pipeline.arrRef spec1) → Vw2x m ρ c b = Vw2 m ρ c b :=
  fun b hb => W3_of_ne m ρ c b fun w e => hb (Finset.mem_image.mpr ⟨w, Finset.mem_univ _, e⟩)

abbrev Vw3 : (c : Dev nD) → (b : Ref sig .tc) → Buf (Elt F) ((c : Thread nD τ).loc b) := fun c b => W3 m ρ c b

/-- At region 2's exit: its arrays at what the pipeline leaves (the inputs as entered, the output's write-backs folded),
    every other buffer as entered. -/
def W4 (c : Dev nD) : Valuation τ sig (Elt F) :=
  Pipeline.withArrays spec2 c (W3 m ρ c) fun w => (dat2 (Vw3 m ρ) c).arrAt w cfg2.N
theorem W4_arr (c : Dev nD) (w : Fin cfg2.W) :
    W4 m ρ c (Proc.devRef .tc (Pipeline.arrRef spec2 w)) = (dat2 (Vw3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev Vw3x : (c : Dev nD) → (b : Ref sig .tc) → Buf (Elt F) ((c : Thread nD τ).loc b) := fun c b => W4 m ρ c b
theorem hF2 (c : Dev nD) (w : Fin cfg2.W) : (dat2 (Vw3 m ρ) c).arrAt w cfg2.N = Vw3x m ρ c (Pipeline.arrRef spec2 w) :=
  (W4_arr m ρ c w).symm
theorem hrest2 (c : Dev nD) : ∀ b, b ∉ Finset.univ.image (Pipeline.arrRef spec2) → Vw3x m ρ c b = Vw3 m ρ c b :=
  fun b hb => W4_of_ne m ρ c b fun w e => hb (Finset.mem_image.mpr ⟨w, Finset.mem_univ _, e⟩)

/-- After the reshapes to heads. -/
abbrev W5 : Dev nD → Valuation τ sig (Elt F) := fun c => StableHlo.after hostOps3 (W4 m ρ c)
abbrev Vw5 : (c : Dev nD) → (b : Ref sig .tc) → Buf (Elt F) ((c : Thread nD τ).loc b) := fun c b => W5 m ρ c b

/-- At region 3's exit: its arrays at what the pipeline leaves (the inputs as entered, the output's write-backs folded),
    every other buffer as entered. -/
def W6 (c : Dev nD) : Valuation τ sig (Elt F) :=
  Pipeline.withArrays spec3 c (W5 m ρ c) fun w => (dat3 (Vw5 m ρ) c).arrAt w cfg3.N
theorem W6_arr (c : Dev nD) (w : Fin cfg3.W) :
    W6 m ρ c (Proc.devRef .tc (Pipeline.arrRef spec3 w)) = (dat3 (Vw5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- The same read at the TensorCore's references. -/
abbrev Vw5x : (c : Dev nD) → (b : Ref sig .tc) → Buf (Elt F) ((c : Thread nD τ).loc b) := fun c b => W6 m ρ c b
theorem hF3 (c : Dev nD) (w : Fin cfg3.W) : (dat3 (Vw5 m ρ) c).arrAt w cfg3.N = Vw5x m ρ c (Pipeline.arrRef spec3 w) :=
  (W6_arr m ρ c w).symm
theorem hrest3 (c : Dev nD) : ∀ b, b ∉ Finset.univ.image (Pipeline.arrRef spec3) → Vw5x m ρ c b = Vw5 m ρ c b :=
  fun b hb => W6_of_ne m ρ c b fun w e => hb (Finset.mem_image.mpr ⟨w, Finset.mem_univ _, e⟩)

/-- After the reshapes back to rows (and of the bias to a row). -/
abbrev W7 : Dev nD → Valuation τ sig (Elt F) := fun c => StableHlo.after hostOps4 (W6 m ρ c)
abbrev Vw7 : (c : Dev nD) → (b : Ref sig .tc) → Buf (Elt F) ((c : Thread nD τ).loc b) := fun c b => W7 m ρ c b

/-- At region 4's exit: its arrays at what the pipeline leaves (the inputs as entered, the output's write-backs folded),
    every other buffer as entered. -/
def W8 (c : Dev nD) : Valuation τ sig (Elt F) :=
  Pipeline.withArrays spec4 c (W7 m ρ c) fun w => (dat4 (Vw7 m ρ) c).arrAt w cfg4.N
theorem W8_arr (c : Dev nD) (w : Fin cfg4.W) :
    W8 m ρ c (Proc.devRef .tc (Pipeline.arrRef spec4 w)) = (dat4 (Vw7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
/-- The same read at the TensorCore's references. -/
abbrev Vw7x : (c : Dev nD) → (b : Ref sig .tc) → Buf (Elt F) ((c : Thread nD τ).loc b) := fun c b => W8 m ρ c b
theorem hF4 (c : Dev nD) (w : Fin cfg4.W) : (dat4 (Vw7 m ρ) c).arrAt w cfg4.N = Vw7x m ρ c (Pipeline.arrRef spec4 w) :=
  (W8_arr m ρ c w).symm
theorem hrest4 (c : Dev nD) : ∀ b, b ∉ Finset.univ.image (Pipeline.arrRef spec4) → Vw7x m ρ c b = Vw7 m ρ c b :=
  fun b hb => W8_of_ne m ρ c b fun w e => hb (Finset.mem_image.mpr ⟨w, Finset.mem_univ _, e⟩)

/-- After the last reshape: the contents at the return. -/
abbrev W9 : Dev nD → Valuation τ sig (Elt F) := fun c => StableHlo.after hostOps5 (W8 m ρ c)

/-! ## No item writes a buffer that is neither a host result nor a region's array -/

theorem W9_of_untouched (c : Dev nD) (r : Ref sig .tc)
    (h0 : r ∉ hostOps0_W) (h3 : r ∉ hostOps3_W) (h4 : r ∉ hostOps4_W) (h5 : r ∉ hostOps5_W)
    (a0 : ∀ w, Pipeline.arrRef spec0 w ≠ r) (a1 : ∀ w, Pipeline.arrRef spec1 w ≠ r) (a2 : ∀ w, Pipeline.arrRef spec2 w ≠ r)
    (a3 : ∀ w, Pipeline.arrRef spec3 w ≠ r) (a4 : ∀ w, Pipeline.arrRef spec4 w ≠ r) :
    W9 m ρ c (Proc.devRef .tc r) = m ((c : Thread nD τ).loc r) :=
  calc W9 m ρ c (Proc.devRef .tc r)
    _ = W8 m ρ c (Proc.devRef .tc r) := StableHlo.after_of_writes_sub hostOps5 _ hostOps5_writes h5
    _ = W7 m ρ c (Proc.devRef .tc r) := W8_of_ne m ρ c r a4
    _ = W6 m ρ c (Proc.devRef .tc r) := StableHlo.after_of_writes_sub hostOps4 _ hostOps4_writes h4
    _ = W5 m ρ c (Proc.devRef .tc r) := W6_of_ne m ρ c r a3
    _ = W4 m ρ c (Proc.devRef .tc r) := StableHlo.after_of_writes_sub hostOps3 _ hostOps3_writes h3
    _ = W3 m ρ c (Proc.devRef .tc r) := W4_of_ne m ρ c r a2
    _ = W2 m ρ c (Proc.devRef .tc r) := W3_of_ne m ρ c r a1
    _ = W1 m ρ c (Proc.devRef .tc r) := W2_of_ne m ρ c r a0
    _ = W0 m ρ c (Proc.devRef .tc r) := StableHlo.after_of_writes_sub hostOps0 _ hostOps0_writes h0
    _ = m ((c : Thread nD τ).loc r) := rfl

/-! ## The proof data family and the thread state -/

abbrev admH : (p : Fin 5) → (pcfgs (F := F) p).Adm := fun p => (cfgs p).toPCfg_adm
/-- Every pipeline's proof data, each at its region's entry contents. -/
def pdatsH : (p : Fin 5) → (c : Dev nD) → Dat τ (Elt F) Unit ℕ (UR sig nD τ) ℕ (Pipeline.pin (pcfgs (F := F)) admH p) c
  | ⟨0, _⟩ => fun c => dat0 (Vw1 m ρ) c
  | ⟨1, _⟩ => fun c => dat1 (Vw2 m ρ) c
  | ⟨2, _⟩ => fun c => dat2 (Vw3 m ρ) c
  | ⟨3, _⟩ => fun c => dat3 (Vw5 m ρ) c
  | ⟨4, _⟩ => fun c => dat4 (Vw7 m ρ) c
abbrev 𝒱H : Variants := Variants.none
abbrev LH : GSem nD τ sig → Finset Unit := fun _ => ∅
abbrev lvH : GSem nD τ sig → Unit → ℕ := fun _ _ => 0
/-- What rides beside the buffers through every item: the generator register at some state, and nothing owed. -/
abbrev RH (c : Dev nD) : sProp 𝕄 := iprop((∃ r, prngReg c r) ∗ ∃ W, owes (c : Thread nD τ) (0 : CellTallies nD τ sig Unit) W)
/-- A host stretch as a segment over the unscoped references, `RH` riding along. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev TnH (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: entered with every unscoped buffer at `W1`, left with them at `W2`; its arrays
    are split out of the unscoped buffers and put back at what the pipeline leaves; the generator register goes into the
    pipeline's invariant and comes out; nothing is owed; the kernel has no semaphore of its own. -/
def reg0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Vw1 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (Vw1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (Vw1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (Vw1 m ρ c) (Vw1x m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`; its arrays
    are split out of the unscoped buffers and put back at what the pipeline leaves; the generator register goes into the
    pipeline's invariant and comes out; nothing is owed; the kernel has no semaphore of its own. -/
def reg1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (Vw2 m ρ) c).loose
  hwaits := Pipeline.hwaits_of_owed_zero _ _ _ _ LH lvH 1 fun _ _ => rfl
  pre c := iprop(StableHlo.held (c : Thread nD τ) (Pipeline.ucRefs τ sig) (W2 m ρ c) ∗ RH c)
  post c := iprop(StableHlo.held (c : Thread nD τ) (Pipeline.ucRefs τ sig) (W3 m ρ c) ∗ RH c)
  X c := iprop(∃ r, prngReg c r)
  Y c := iprop(∃ r, prngReg c r)
  Z c := Pipeline.unscopedRest (Ix := Unit) (Name := ℕ) (U := UR sig nD τ) (Lvl := ℕ) spec1 c (Vw2 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (Vw2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (Vw2 m ρ c) (Vw2x m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W3`, left with them at `W4`; its arrays
    are split out of the unscoped buffers and put back at what the pipeline leaves; the generator register goes into the
    pipeline's invariant and comes out; nothing is owed; the kernel has no semaphore of its own. -/
def reg2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (Vw3 m ρ) c).loose
  hwaits := Pipeline.hwaits_of_owed_zero _ _ _ _ LH lvH 2 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec2 c (Vw3 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (Vw3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (Vw3 m ρ c) (Vw3x m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W5`, left with them at `W6`; its arrays
    are split out of the unscoped buffers and put back at what the pipeline leaves; the generator register goes into the
    pipeline's invariant and comes out; nothing is owed; the kernel has no semaphore of its own. -/
def reg3 : Pipeline.RegionSeg (pcfgs (F := F)) admH (pdatsH m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (Vw5 m ρ) c).loose
  hwaits := Pipeline.hwaits_of_owed_zero _ _ _ _ LH lvH 3 fun _ _ => rfl
  pre c := iprop(StableHlo.held (c : Thread nD τ) (Pipeline.ucRefs τ sig) (W5 m ρ c) ∗ RH c)
  post c := iprop(StableHlo.held (c : Thread nD τ) (Pipeline.ucRefs τ sig) (W6 m ρ c) ∗ RH c)
  X c := iprop(∃ r, prngReg c r)
  Y c := iprop(∃ r, prngReg c r)
  Z c := Pipeline.unscopedRest (Ix := Unit) (Name := ℕ) (U := UR sig nD τ) (Lvl := ℕ) spec3 c (Vw5 m ρ c)
  hentry c := by
    rw [Pipeline.ownSems0_none]
    have hsplit := Pipeline.arrays_of_unscopedBufs (p := 3) (pcfgs (F := F)) admH (pdatsH m ρ) launch3.win launch3.arr_whole c
      ((pdatsH m ρ 3 c).share_full fun _ => rfl) (Vw5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsH m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdatsH m ρ) ((pdatsH m ρ 3 c).share_full fun _ => rfl)
      (Vw5 m ρ c) (Vw5x m ρ c) ((pdatsH m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W7`, left with them at `W8`; its arrays
    are split out of the unscoped buffers and put back at what the pipeline leaves; the generator register goes into the
    pipeline's invariant and comes out; nothing is owed; the kernel has no semaphore of its own. -/
def reg4 : Pipeline.RegionSeg (pcfgs (F := F)) admH (pdatsH m ρ) () defs₀ 𝒱H LH lvH 4 where
  win := launch4.win.to₀
  block_pos := launch4.block_pos
  stage_whole := launch4.stage_whole
  K := PEmpty
  osem k := k.elim
  ho := Pipeline.OwnSemFacts.none _
  hbody c := (body_obligation4 (Vw7 m ρ) c).loose
  hwaits := Pipeline.hwaits_of_owed_zero _ _ _ _ LH lvH 4 fun _ _ => rfl
  pre c := iprop(StableHlo.held (c : Thread nD τ) (Pipeline.ucRefs τ sig) (W7 m ρ c) ∗ RH c)
  post c := iprop(StableHlo.held (c : Thread nD τ) (Pipeline.ucRefs τ sig) (W8 m ρ c) ∗ RH c)
  X c := iprop(∃ r, prngReg c r)
  Y c := iprop(∃ r, prngReg c r)
  Z c := Pipeline.unscopedRest (Ix := Unit) (Name := ℕ) (U := UR sig nD τ) (Lvl := ℕ) spec4 c (Vw7 m ρ c)
  hentry c := by
    rw [Pipeline.ownSems0_none]
    have hsplit := Pipeline.arrays_of_unscopedBufs (p := 4) (pcfgs (F := F)) admH (pdatsH m ρ) launch4.win launch4.arr_whole c
      ((pdatsH m ρ 4 c).share_full fun _ => rfl) (Vw7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsH m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m ρ) ((pdatsH m ρ 4 c).share_full fun _ => rfl)
      (Vw7 m ρ c) (Vw7x m ρ c) ((pdatsH m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m ρ) () defs₀ 𝒱H LH lvH) :=
  [ .host (hsegH hostOps0 hostOps0_sub hostOps0_fresh (W0 m ρ)),
    .region (reg0 m ρ),
    .region (reg1 m ρ),
    .region (reg2 m ρ),
    .host (hsegH hostOps3 hostOps3_sub hostOps3_fresh (W4 m ρ)),
    .region (reg3 m ρ),
    .host (hsegH hostOps4 hostOps4_sub hostOps4_fresh (W6 m ρ)),
    .region (reg4 m ρ),
    .host (hsegH hostOps5 hostOps5_sub hostOps5_fresh (W8 m ρ)) ]

theorem main_runH (c : Dev nD) : main (F := F) c = Pipeline.Seg.run (segsH m ρ) := (main_chain c).trans (by chain_rfl)

set_option backward.isDefEq.respectTransparency.types false in
/-- THE RUN: from any memory with zero counters every weakly fair execution of @main terminates, nothing faulting, and
    every final memory holds every unscoped buffer at the last boundary's contents `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TnH m ρ)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W9 m ρ c)
            ∗ ((∃ r, prngReg c r) ∗ ∃ W, owes (c : Thread nD τ) (0 : CellTallies nD τ sig Unit) W)) : sProp 𝕄)
          ⊢ iprop((StableHlo.held (c : Thread nD τ) (Pipeline.ucRefs τ sig) (W9 m ρ c) ∗ ∃ r, prngReg c r)
            ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- Every argument's buffer is written by no host operation and is no region's array: at the last boundary it
    holds its launch contents. -/
theorem args_kept (s : MemSt nD τ sig (Elt F))
    (h : ∀ c : Dev nD, ∀ b ∈ Pipeline.ucRefs τ sig, s.mem (((c : Thread nD τ)).1, b) = W9 m ρ c b) (c : Dev nD) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7) :=
  ⟨(h c _ (mem_ucH main_arg0 (by decide))).trans (W9_of_untouched m ρ c main_arg0 (by decide) (by decide) (by decide) (by decide) (by decide) (by decide) (by decide) (by decide) (by decide)),
   (h c _ (mem_ucH main_arg1 (by decide))).trans (W9_of_untouched m ρ c main_arg1 (by decide) (by decide) (by decide) (by decide) (by decide) (by decide) (by decide) (by decide) (by decide)),
   (h c _ (mem_ucH main_arg2 (by decide))).trans (W9_of_untouched m ρ c main_arg2 (by decide) (by decide) (by decide) (by decide) (by decide) (by decide) (by decide) (by decide) (by decide)),
   (h c _ (mem_ucH main_arg3 (by decide))).trans (W9_of_untouched m ρ c main_arg3 (by decide) (by decide) (by decide) (by decide) (by decide) (by decide) (by decide) (by decide) (by decide)),
   (h c _ (mem_ucH main_arg4 (by decide))).trans (W9_of_untouched m ρ c main_arg4 (by decide) (by decide) (by decide) (by decide) (by decide) (by decide) (by decide) (by decide) (by decide)),
   (h c _ (mem_ucH main_arg5 (by decide))).trans (W9_of_untouched m ρ c main_arg5 (by decide) (by decide) (by decide) (by decide) (by decide) (by decide) (by decide) (by decide) (by decide)),
   (h c _ (mem_ucH main_arg6 (by decide))).trans (W9_of_untouched m ρ c main_arg6 (by decide) (by decide) (by decide) (by decide) (by decide) (by decide) (by decide) (by decide) (by decide)),
   (h c _ (mem_ucH main_arg7 (by decide))).trans (W9_of_untouched m ρ c main_arg7 (by decide) (by decide) (by decide) (by decide) (by decide) (by decide) (by decide) (by decide) (by decide))⟩

/-- THE FRAME: the arguments end as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => args_kept m ρ r.2 h c) (run_all m ρ)

end Cert.KernelIdeal.Hand

end
-- ==== Proof.Spec.lean ====
/-
  The mathematics both programs compute, index by index on the extended reals: multi-head attention with
  16 heads of width 64 over a model axis of 1024, batch 2, sequence 2048.
    Q = x_q · Wqᵀ, K = x_k · Wkᵀ, V = x_v · Wvᵀ                      (rows against rows of the weights)
    score[b,h,q,k] = (Σ_d Q[b,q,64h+d] · K[b,k,64h+d]) · 2⁻⁵         (2⁻⁵ = 1/√1024, an exact binary value)
    weight[b,h,q,k] = exp(score − max_k score) / Σ_k exp(score − max_k score)
    ctx[b,q,64h+d] = Σ_k weight[b,h,q,k] · V[b,k,64h+d]
    out[b,s,e] = Σ_e' ctx[b,s,e'] · Wo[e,e'] + bo[e]
  The softmax weight is stated twice: as the quotient and as the product with the reciprocal of the row sum; the
  two agree wherever the row sum is a nonzero real (`weightK_eq_weight` is proved where it is used).
-/
import Idealize.ShloMosaic.PureOps.Ideal
import Idealize.ShloMosaic.Lib.ValueIdx

noncomputable section

namespace Cert.Spec

open Idealize.ShloMosaic

/-- The [2, 2048, 1024] arrays: the three inputs and the result. -/
abbrev Act : Type := (⟨3, ![2, 2048, 1024]⟩ : Shape).Idx → EReal
/-- A [1024, 1024] weight matrix, stored [out, in]. -/
abbrev Wt : Type := (⟨2, ![1024, 1024]⟩ : Shape).Idx → EReal
/-- The [1024] bias. -/
abbrev Bias : Type := (⟨1, ![1024]⟩ : Shape).Idx → EReal
/-- A projected activation by coordinates: batch, position, model column. -/
abbrev Proj : Type := Fin 2 → Fin 2048 → Fin 1024 → EReal

/-- y[b,s,e] = Σ_d x[b,s,d] · w[e,d]. -/
def proj (x : Act) (w : Wt) : Proj := fun b s e =>
  ∑ d : Fin 1024, x (ValueIdx.ix3 b s d) * w (ValueIdx.ix2 e d)

/-- Head `h`'s `d`-th column of the model axis: 64·h + d. -/
def col (h : Fin 16) (d : Fin 64) : Fin 1024 := ⟨64 * h.val + d.val, by omega⟩

/-- The head a model column belongs to. -/
def headOf (e : Fin 1024) : Fin 16 := ⟨e.val / 64, by omega⟩

/-- The scaled score of query position `q` against key position `k` in head `h` of batch `b`. -/
def score (Q K : Proj) (b : Fin 2) (h : Fin 16) (q k : Fin 2048) : EReal :=
  (∑ d : Fin 64, Q b q (col h d) * K b k (col h d)) * Ideal.ofBits .f32 0x3D000000#32

/-- A row's maximum, folded from −∞. -/
def rowMax (r : Fin 2048 → EReal) : EReal :=
  (Finset.univ : Finset (Fin 2048)).fold max (Ideal.ofBits .f32 0xFF800000#32) r

/-- exp(r k − max r). -/
def expo (r : Fin 2048 → EReal) (k : Fin 2048) : EReal := Ideal.exp (r k - rowMax r)

/-- The row sum of the exponentials. -/
def denom (r : Fin 2048 → EReal) : EReal := ∑ k : Fin 2048, expo r k

/-- The softmax weight as a quotient. -/
def weight (r : Fin 2048 → EReal) (k : Fin 2048) : EReal := Ideal.div (expo r k) (denom r)

/-- The softmax weight as the product with the reciprocal of the row sum. -/
def weightK (r : Fin 2048 → EReal) (k : Fin 2048) : EReal :=
  expo r k * Ideal.div (Ideal.ofBits .f32 0x3F800000#32) (denom r)

/-- The context at model column `e` of position `q`, for a given form `W` of the softmax weight. -/
def ctx (W : (Fin 2048 → EReal) → Fin 2048 → EReal) (Q K V : Proj) : Proj := fun b q e =>
  ∑ k : Fin 2048, W (score Q K b (headOf e) q) k * V b k e

/-- The output projection with its bias. -/
def outProj (C : Proj) (Wo : Wt) (bo : Bias) : Act := fun i =>
  (∑ e' : Fin 1024, C (i 0) (i 1) e' * Wo (ValueIdx.ix2 (i 2) e')) + bo (ValueIdx.ix1 (i 2))

/-- Multi-head attention, for a given form `W` of the softmax weight. -/
def mha (W : (Fin 2048 → EReal) → Fin 2048 → EReal) (query key value : Act) (Wq Wk Wv Wo : Wt) (bo : Bias) : Act :=
  outProj (ctx W (proj query Wq) (proj key Wk) (proj value Wv)) Wo bo

end Cert.Spec

end
-- ==== Proof.Val.ArrSpec.lean ====
/-
  The kernel's five regions as functions of whole arrays, index by index on the extended reals, on the shapes the
  regions work on: a projection of [4096, 1024] rows against a [1024, 1024] weight matrix (rows against rows), the
  same with a [1, 1024] bias row added, and attention on [2, 2048, 16, 64] arrays (batch, position, head, column):
  for each batch, head and query position the softmax weights of the scaled scores against every key position — in
  the form "exponential times the reciprocal of the row sum" — applied to the values.
-/
import proofs.«119720_j50723563765938_2_alg».proof.Proof.Spec

noncomputable section

namespace Cert.KVal

open Idealize.ShloMosaic

/-- [4096, 1024] rows. -/
abbrev Rows : Type := (⟨2, ![4096, 1024]⟩ : Shape).Idx → EReal
/-- [2, 2048, 16, 64]: batch, position, head, column. -/
abbrev Heads : Type := (⟨4, ![2, 2048, 16, 64]⟩ : Shape).Idx → EReal
/-- The bias as a [1, 1024] row. -/
abbrev BiasRow : Type := (⟨2, ![1, 1024]⟩ : Shape).Idx → EReal

/-- y[r, e] = Σ_k x[r, k] · w[e, k]. -/
def lin (x : Rows) (w : Cert.Spec.Wt) : Rows := fun i =>
  ∑ k : Fin 1024, x (ValueIdx.ix2 (i 0) k) * w (ValueIdx.ix2 (i 1) k)

/-- y[r, e] = Σ_k x[r, k] · w[e, k] + b[0, e]. -/
def linb (x : Rows) (w : Cert.Spec.Wt) (b : BiasRow) : Rows := fun i =>
  (∑ k : Fin 1024, x (ValueIdx.ix2 (i 0) k) * w (ValueIdx.ix2 (i 1) k)) + b (ValueIdx.ix2 (0 : Fin 1) (i 1))

/-- The scaled scores of query position `s` of head `h` of batch `b` against every key position. -/
def scores (q k : Heads) (b : Fin 2) (s : Fin 2048) (h : Fin 16) : Fin 2048 → EReal := fun kk =>
  (∑ dd : Fin 64, q (ValueIdx.ix4 b s h dd) * k (ValueIdx.ix4 b kk h dd)) * Ideal.ofBits .f32 0x3D000000#32

/-- Attention on the head layout. -/
def attn (q k v : Heads) : Heads := fun i =>
  ∑ kk : Fin 2048, Cert.Spec.weightK (scores q k (i 0) (i 1) (i 2)) kk * v (ValueIdx.ix4 (i 0) kk (i 2) (i 3))

end Cert.KVal

end
-- ==== Proof.Val.Reshape.lean ====
/-
  The reshapes between the layouts of one row-major array, read at an index: [2, 2048, 1024] ↔ [4096, 1024]
  (row r = 2048·b + s), [4096, 1024] ↔ [2, 2048, 16, 64] (also column e = 64·h + d), and the bias [1024] as the row
  [1, 1024]. Each is the statement that two indices have the same row-major position.
-/
import Idealize.ShloMosaic.PureOps.Ideal
import Idealize.ShloMosaic.Lib.ValueIdx
import Idealize.ShloMosaic.Lib.Pipeline.Value

noncomputable section

namespace Cert.KVal

open Idealize.ShloMosaic Idealize.ShloMosaic.ValueIdx

variable {α : Type}

/-- [2, 2048, 1024] as [4096, 1024]: row r is batch r / 2048, position r % 2048. -/
theorem reshape_act_rows (x : (⟨3, ![2, 2048, 1024]⟩ : Shape).Idx → α)
    (h : (⟨3, ![2, 2048, 1024]⟩ : Shape).ShapeCasts ⟨2, ![4096, 1024]⟩) (r : Fin 4096) (k : Fin 1024) :
    shapeCast ⟨2, ![4096, 1024]⟩ x h (ix2 r k)
      = x (ix3 (⟨r.val / 2048, by have := r.isLt; omega⟩ : Fin 2) (⟨r.val % 2048, by omega⟩ : Fin 2048) k) := by
  refine shapeCast_apply x h _ _ ?_
  rw [Shape.rowMajor_val_three, Shape.rowMajor_val_two]
  show (r.val / 2048 * 2048 + r.val % 2048) * 1024 + k.val = r.val * 1024 + k.val
  have := Nat.div_add_mod r.val 2048
  omega

/-- [4096, 1024] as [2, 2048, 1024]: (b, s) is row 2048·b + s. -/
theorem reshape_rows_act (x : (⟨2, ![4096, 1024]⟩ : Shape).Idx → α)
    (h : (⟨2, ![4096, 1024]⟩ : Shape).ShapeCasts ⟨3, ![2, 2048, 1024]⟩) (b : Fin 2) (s : Fin 2048) (e : Fin 1024) :
    shapeCast ⟨3, ![2, 2048, 1024]⟩ x h (ix3 b s e)
      = x (ix2 (⟨b.val * 2048 + s.val, by have := b.isLt; have := s.isLt; omega⟩ : Fin 4096) e) := by
  refine shapeCast_apply x h _ _ ?_
  rw [Shape.rowMajor_val_three, Shape.rowMajor_val_two]
  rfl

/-- [4096, 1024] as [2, 2048, 16, 64]: (b, s, h, d) is row 2048·b + s, column 64·h + d. -/
theorem reshape_rows_heads (x : (⟨2, ![4096, 1024]⟩ : Shape).Idx → α)
    (h : (⟨2, ![4096, 1024]⟩ : Shape).ShapeCasts ⟨4, ![2, 2048, 16, 64]⟩) (b : Fin 2) (s : Fin 2048) (hd : Fin 16) (d : Fin 64) :
    shapeCast ⟨4, ![2, 2048, 16, 64]⟩ x h (ix4 b s hd d)
      = x (ix2 (⟨b.val * 2048 + s.val, by have := b.isLt; have := s.isLt; omega⟩ : Fin 4096)
            (⟨hd.val * 64 + d.val, by have := hd.isLt; have := d.isLt; omega⟩ : Fin 1024)) := by
  refine shapeCast_apply x h _ _ ?_
  rw [Shape.rowMajor_val_four, Shape.rowMajor_val_two]
  show (b.val * 2048 + s.val) * 1024 + (hd.val * 64 + d.val) = ((b.val * 2048 + s.val) * 16 + hd.val) * 64 + d.val
  omega

/-- [2, 2048, 16, 64] as [4096, 1024]: row r, column e is batch r / 2048, position r % 2048, head e / 64, column e % 64. -/
theorem reshape_heads_rows (x : (⟨4, ![2, 2048, 16, 64]⟩ : Shape).Idx → α)
    (h : (⟨4, ![2, 2048, 16, 64]⟩ : Shape).ShapeCasts ⟨2, ![4096, 1024]⟩) (r : Fin 4096) (e : Fin 1024) :
    shapeCast ⟨2, ![4096, 1024]⟩ x h (ix2 r e)
      = x (ix4 (⟨r.val / 2048, by have := r.isLt; omega⟩ : Fin 2) (⟨r.val % 2048, by omega⟩ : Fin 2048)
            (⟨e.val / 64, by have := e.isLt; omega⟩ : Fin 16) (⟨e.val % 64, by omega⟩ : Fin 64)) := by
  refine shapeCast_apply x h _ _ ?_
  rw [Shape.rowMajor_val_four, Shape.rowMajor_val_two]
  show ((r.val / 2048 * 2048 + r.val % 2048) * 16 + e.val / 64) * 64 + e.val % 64 = r.val * 1024 + e.val
  have := Nat.div_add_mod r.val 2048
  have := Nat.div_add_mod e.val 64
  omega

/-- The bias [1024] as the row [1, 1024]. -/
theorem reshape_bias_row (x : (⟨1, ![1024]⟩ : Shape).Idx → α)
    (h : (⟨1, ![1024]⟩ : Shape).ShapeCasts ⟨2, ![1, 1024]⟩) (z : Fin 1) (e : Fin 1024) :
    shapeCast ⟨2, ![1, 1024]⟩ x h (ix2 z e) = x (ix1 e) := by
  refine shapeCast_apply x h _ _ ?_
  rw [Shape.rowMajor_val_one, Shape.rowMajor_val_two]
  show e.val = z.val * 1024 + e.val
  have := z.isLt
  omega

end Cert.KVal

end
-- ==== Proof.Val.Compose.lean ====
/-
  The kernel's dataflow on whole arrays is the specification. The activations [2, 2048, 1024] are read as [4096, 1024]
  rows, projected, read as [2, 2048, 16, 64] heads, attended, read back as rows, projected with the bias, and read
  back as [2, 2048, 1024]. Index by index: row 2048·b + s of a projection is position s of batch b; column 64·h + d is
  column d of head h; so the scores of head h are the specification's scores at the head of the column, the context at
  (b, s, h, d) is the specification's context at column 64·h + d, and the output projection sums over the flat column.
-/
import proofs.«119720_j50723563765938_2_alg».proof.Proof.Val.ArrSpec
import proofs.«119720_j50723563765938_2_alg».proof.Proof.Val.Reshape

noncomputable section

namespace Cert.KVal

open Idealize.ShloMosaic Idealize.ShloMosaic.ValueIdx Cert.Spec

/-- The kernel's dataflow on whole arrays. -/
def flow (query key value : Act) (Wq Wk Wv Wo : Wt) (bo : Bias)
    (h32 : (⟨3, ![2, 2048, 1024]⟩ : Shape).ShapeCasts ⟨2, ![4096, 1024]⟩)
    (h24 : (⟨2, ![4096, 1024]⟩ : Shape).ShapeCasts ⟨4, ![2, 2048, 16, 64]⟩)
    (h42 : (⟨4, ![2, 2048, 16, 64]⟩ : Shape).ShapeCasts ⟨2, ![4096, 1024]⟩)
    (h12 : (⟨1, ![1024]⟩ : Shape).ShapeCasts ⟨2, ![1, 1024]⟩)
    (h23 : (⟨2, ![4096, 1024]⟩ : Shape).ShapeCasts ⟨3, ![2, 2048, 1024]⟩) : Act :=
  shapeCast ⟨3, ![2, 2048, 1024]⟩
    (linb (shapeCast ⟨2, ![4096, 1024]⟩
        (attn (shapeCast ⟨4, ![2, 2048, 16, 64]⟩ (lin (shapeCast ⟨2, ![4096, 1024]⟩ query h32) Wq) h24)
              (shapeCast ⟨4, ![2, 2048, 16, 64]⟩ (lin (shapeCast ⟨2, ![4096, 1024]⟩ key h32) Wk) h24)
              (shapeCast ⟨4, ![2, 2048, 16, 64]⟩ (lin (shapeCast ⟨2, ![4096, 1024]⟩ value h32) Wv) h24)) h42)
      Wo (shapeCast ⟨2, ![1, 1024]⟩ bo h12)) h23

/-- A projection read in the head layout: (b, s, h, d) is the specification's projection at column 64·h + d. -/
theorem heads_proj (x : Act) (w : Wt)
    (h32 : (⟨3, ![2, 2048, 1024]⟩ : Shape).ShapeCasts ⟨2, ![4096, 1024]⟩)
    (h24 : (⟨2, ![4096, 1024]⟩ : Shape).ShapeCasts ⟨4, ![2, 2048, 16, 64]⟩)
    (b : Fin 2) (s : Fin 2048) (h : Fin 16) (d : Fin 64) :
    shapeCast ⟨4, ![2, 2048, 16, 64]⟩ (lin (shapeCast ⟨2, ![4096, 1024]⟩ x h32) w) h24 (ix4 b s h d) = proj x w b s (col h d) := by
  rw [reshape_rows_heads]
  unfold lin proj
  refine Finset.sum_congr rfl fun k _ => ?_
  have hb := b.isLt
  have hs := s.isLt
  have hh := h.isLt
  have hd := d.isLt
  have e1 : (⟨(b.val * 2048 + s.val) / 2048, by omega⟩ : Fin 2) = b := Fin.ext (by show (b.val * 2048 + s.val) / 2048 = b.val; omega)
  have e2 : (⟨(b.val * 2048 + s.val) % 2048, by omega⟩ : Fin 2048) = s := Fin.ext (by show (b.val * 2048 + s.val) % 2048 = s.val; omega)
  have e3 : (⟨h.val * 64 + d.val, by omega⟩ : Fin 1024) = col h d := Fin.ext (by show h.val * 64 + d.val = 64 * h.val + d.val; omega)
  show shapeCast ⟨2, ![4096, 1024]⟩ x h32 (ix2 (⟨b.val * 2048 + s.val, _⟩ : Fin 4096) k) * w (ix2 (⟨h.val * 64 + d.val, _⟩ : Fin 1024) k)
      = x (ix3 b s k) * w (ix2 (col h d) k)
  rw [reshape_act_rows, e3]
  show x (ix3 (⟨(b.val * 2048 + s.val) / 2048, _⟩ : Fin 2) (⟨(b.val * 2048 + s.val) % 2048, _⟩ : Fin 2048) k) * _ = _
  rw [e1, e2]

/-- The scores in the head layout are the specification's scores. -/
theorem scores_eq (query key : Act) (Wq Wk : Wt)
    (h32 : (⟨3, ![2, 2048, 1024]⟩ : Shape).ShapeCasts ⟨2, ![4096, 1024]⟩)
    (h24 : (⟨2, ![4096, 1024]⟩ : Shape).ShapeCasts ⟨4, ![2, 2048, 16, 64]⟩)
    (b : Fin 2) (s : Fin 2048) (h : Fin 16) :
    scores (shapeCast ⟨4, ![2, 2048, 16, 64]⟩ (lin (shapeCast ⟨2, ![4096, 1024]⟩ query h32) Wq) h24)
        (shapeCast ⟨4, ![2, 2048, 16, 64]⟩ (lin (shapeCast ⟨2, ![4096, 1024]⟩ key h32) Wk) h24) b s h
      = score (proj query Wq) (proj key Wk) b h s := by
  funext kk
  unfold scores score
  simp only [heads_proj]

/-- The context in the head layout, read at the head and column of a flat model column `e`, is the specification's
    context at `e`. -/
theorem attn_eq_ctx (query key value : Act) (Wq Wk Wv : Wt)
    (h32 : (⟨3, ![2, 2048, 1024]⟩ : Shape).ShapeCasts ⟨2, ![4096, 1024]⟩)
    (h24 : (⟨2, ![4096, 1024]⟩ : Shape).ShapeCasts ⟨4, ![2, 2048, 16, 64]⟩)
    (b : Fin 2) (s : Fin 2048) (e : Fin 1024) :
    attn (shapeCast ⟨4, ![2, 2048, 16, 64]⟩ (lin (shapeCast ⟨2, ![4096, 1024]⟩ query h32) Wq) h24)
        (shapeCast ⟨4, ![2, 2048, 16, 64]⟩ (lin (shapeCast ⟨2, ![4096, 1024]⟩ key h32) Wk) h24)
        (shapeCast ⟨4, ![2, 2048, 16, 64]⟩ (lin (shapeCast ⟨2, ![4096, 1024]⟩ value h32) Wv) h24)
        (ix4 b s (⟨e.val / 64, by have := e.isLt; omega⟩ : Fin 16) (⟨e.val % 64, by omega⟩ : Fin 64))
      = ctx weightK (proj query Wq) (proj key Wk) (proj value Wv) b s e := by
  have he := e.isLt
  have ec : col (⟨e.val / 64, by omega⟩ : Fin 16) (⟨e.val % 64, by omega⟩ : Fin 64) = e :=
    Fin.ext (by show 64 * (e.val / 64) + e.val % 64 = e.val; omega)
  unfold attn ctx
  show ∑ kk : Fin 2048, weightK (scores _ _ b s (⟨e.val / 64, _⟩ : Fin 16)) kk
        * shapeCast ⟨4, ![2, 2048, 16, 64]⟩ (lin (shapeCast ⟨2, ![4096, 1024]⟩ value h32) Wv) h24
            (ix4 b kk (⟨e.val / 64, _⟩ : Fin 16) (⟨e.val % 64, _⟩ : Fin 64))
      = ∑ kk : Fin 2048, weightK (score (proj query Wq) (proj key Wk) b (headOf e) s) kk * proj value Wv b kk e
  refine Finset.sum_congr rfl fun kk _ => ?_
  rw [scores_eq, heads_proj, ec]
  rfl

/-- THE DATAFLOW IS THE SPECIFICATION (with the softmax weight in its reciprocal form). -/
theorem flow_eq_mha (query key value : Act) (Wq Wk Wv Wo : Wt) (bo : Bias)
    (h32 : (⟨3, ![2, 2048, 1024]⟩ : Shape).ShapeCasts ⟨2, ![4096, 1024]⟩)
    (h24 : (⟨2, ![4096, 1024]⟩ : Shape).ShapeCasts ⟨4, ![2, 2048, 16, 64]⟩)
    (h42 : (⟨4, ![2, 2048, 16, 64]⟩ : Shape).ShapeCasts ⟨2, ![4096, 1024]⟩)
    (h12 : (⟨1, ![1024]⟩ : Shape).ShapeCasts ⟨2, ![1, 1024]⟩)
    (h23 : (⟨2, ![4096, 1024]⟩ : Shape).ShapeCasts ⟨3, ![2, 2048, 1024]⟩) :
    flow query key value Wq Wk Wv Wo bo h32 h24 h42 h12 h23 = mha weightK query key value Wq Wk Wv Wo bo := by
  funext i
  obtain ⟨b, s, e, rfl⟩ : ∃ (b : Fin 2) (s : Fin 2048) (e : Fin 1024), i = ix3 b s e := ⟨i 0, i 1, i 2, eq_ix3 i⟩
  have hb := b.isLt
  have hs := s.isLt
  have e1 : (⟨(b.val * 2048 + s.val) / 2048, by omega⟩ : Fin 2) = b := Fin.ext (by show (b.val * 2048 + s.val) / 2048 = b.val; omega)
  have e2 : (⟨(b.val * 2048 + s.val) % 2048, by omega⟩ : Fin 2048) = s := Fin.ext (by show (b.val * 2048 + s.val) % 2048 = s.val; omega)
  unfold flow
  rw [reshape_rows_act]
  unfold linb mha outProj
  show (∑ k : Fin 1024, shapeCast ⟨2, ![4096, 1024]⟩ _ h42 (ix2 (⟨b.val * 2048 + s.val, _⟩ : Fin 4096) k) * Wo (ix2 e k))
        + shapeCast ⟨2, ![1, 1024]⟩ bo h12 (ix2 (0 : Fin 1) e)
      = (∑ e' : Fin 1024, ctx weightK (proj query Wq) (proj key Wk) (proj value Wv) b s e' * Wo (ix2 e e')) + bo (ix1 e)
  rw [reshape_bias_row]
  refine congrArg (· + bo (ix1 e)) (Finset.sum_congr rfl fun k _ => ?_)
  refine congrArg (· * Wo (ix2 e k)) ?_
  rw [reshape_heads_rows]
  show attn _ _ _ (ix4 (⟨(b.val * 2048 + s.val) / 2048, _⟩ : Fin 2) (⟨(b.val * 2048 + s.val) % 2048, _⟩ : Fin 2048)
      (⟨k.val / 64, _⟩ : Fin 16) (⟨k.val % 64, _⟩ : Fin 64)) = _
  rw [e1, e2]
  exact attn_eq_ctx query key value Wq Wk Wv h32 h24 b s k

end Cert.KVal

end
-- ==== Proof.Val.Lin.lean ====
/-
  The four linear kernels' stored values read at an index, on the extended reals: a row of the activation against a
  row of the weight (both operands contracted on their second axis), and for the output projection the bias added.
-/
import proofs.«119720_j50723563765938_2_alg».proof.Proof.Gen.KernelIdeal.Skeleton
import proofs.«119720_j50723563765938_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

local notation "dLin" => dot_S1024x1024_S1024x1024_S1024x1024_1_1_0_0_n_n

/-- On its kept axis the left operand's index is the output's row. -/
theorem dLin_lhs0 (j : S1024x1024.Idx) (c : (dLin).contr.Idx) : ((dLin).lhsIdx j c 0).val = (j 0).val := by
  unfold DotDims.lhsIdx
  rw [dif_neg (show ¬(0 : Fin S1024x1024.rank) ∈ (dLin).lhsBatch by decide),
    dif_pos (show (0 : Fin S1024x1024.rank) ∈ (dLin).lhsNonContracting by decide)]
  rfl

/-- On its kept axis the right operand's index is the output's column. -/
theorem dLin_rhs0 (j : S1024x1024.Idx) (c : (dLin).contr.Idx) : ((dLin).rhsIdx j c 0).val = (j 1).val := by
  unfold DotDims.rhsIdx
  rw [dif_neg (show ¬(0 : Fin S1024x1024.rank) ∈ (dLin).rhsBatch by decide),
    dif_pos (show (0 : Fin S1024x1024.rank) ∈ (dLin).rhsNonContracting by decide)]
  rfl

/-- The left operand's index of the [1024,1024]·[1024,1024]ᵀ product at output (p, q) and contraction position k is
    (p, k). -/
theorem dLin_lhsIdx (p q k : Fin 1024) :
    (dLin).lhsIdx (ix2 p q) ((contrEquiv1 (dLin) 1024 rfl rfl).symm k) = ix2 p k := by
  have hk := contrEquiv1_symm_val (dLin) 1024 rfl rfl k
  refine funext fun a => Fin.ext ?_
  match a with
  | ⟨0, _⟩ => exact dLin_lhs0 _ _
  | ⟨1, _⟩ => exact ((dLin).lhsIdx_val_of_single rfl _ _).trans hk

/-- The right operand's index there is (q, k). -/
theorem dLin_rhsIdx (p q k : Fin 1024) :
    (dLin).rhsIdx (ix2 p q) ((contrEquiv1 (dLin) 1024 rfl rfl).symm k) = ix2 q k := by
  have hk := contrEquiv1_symm_val (dLin) 1024 rfl rfl k
  refine funext fun a => Fin.ext ?_
  match a with
  | ⟨0, _⟩ => exact dLin_rhs0 _ _
  | ⟨1, _⟩ => exact ((dLin).rhsIdx_val_of_single rfl _ _).trans hk

/-- The product into the zero splat, read at (p, q): Σ_k a[p,k] · b[q,k]. -/
theorem matmul_lin {φ₁ φ₂ : FTy} (a : FVec Ideal S1024x1024 φ₁) (b : FVec Ideal S1024x1024 φ₂) (p q : Fin 1024) :
    matmul (dLin) none a b (constant (F := Ideal) S1024x1024 .f32 0x00000000#32) (ix2 p q)
      = ∑ k : Fin 1024, a (ix2 p k) * b (ix2 q k) := by
  simp only [matmul]
  rw [Ideal.matmul_constant_zero_apply, ← Equiv.sum_comp (contrEquiv1 (dLin) 1024 rfl rfl).symm]
  refine Finset.sum_congr rfl fun k _ => ?_
  rw [dLin_lhsIdx, dLin_rhsIdx]

/-- The first projection's stored value at (p, q). -/
theorem pay_lin0 (x0 : Vec Ideal S1024x1024 .f32) (x1 : Vec Ideal S1024x1024 .bf16) (p q : Fin 1024) :
    k0_pay1 (F := Ideal) x0 x1 (ix2 p q) = ∑ k : Fin 1024, x0 (ix2 p k) * x1 (ix2 q k) := by
  unfold Gen.k0_pay1
  refine (truncf_apply (ψ := .bf16) _ bitsLt_bf16_f32 (ix2 p q)).trans ?_
  refine (matmul_lin _ _ p q).trans ?_
  refine Finset.sum_congr rfl fun k _ => ?_
  rw [truncf_apply, shapeCast_self, shapeCast_self]

/-- The second projection's stored value at (p, q). -/
theorem pay_lin1 (x0 : Vec Ideal S1024x1024 .f32) (x1 : Vec Ideal S1024x1024 .bf16) (p q : Fin 1024) :
    k1_pay1 (F := Ideal) x0 x1 (ix2 p q) = ∑ k : Fin 1024, x0 (ix2 p k) * x1 (ix2 q k) := by
  unfold Gen.k1_pay1
  refine (truncf_apply (ψ := .bf16) _ bitsLt_bf16_f32 (ix2 p q)).trans ?_
  refine (matmul_lin _ _ p q).trans ?_
  refine Finset.sum_congr rfl fun k _ => ?_
  rw [truncf_apply, shapeCast_self, shapeCast_self]

/-- The third projection's stored value at (p, q). -/
theorem pay_lin2 (x0 : Vec Ideal S1024x1024 .f32) (x1 : Vec Ideal S1024x1024 .bf16) (p q : Fin 1024) :
    k2_pay1 (F := Ideal) x0 x1 (ix2 p q) = ∑ k : Fin 1024, x0 (ix2 p k) * x1 (ix2 q k) := by
  unfold Gen.k2_pay1
  refine (truncf_apply (ψ := .bf16) _ bitsLt_bf16_f32 (ix2 p q)).trans ?_
  refine (matmul_lin _ _ p q).trans ?_
  refine Finset.sum_congr rfl fun k _ => ?_
  rw [truncf_apply, shapeCast_self, shapeCast_self]

/-- The output projection's stored value at (p, q): the product plus the bias's one row at q. -/
theorem pay_linb (x0 x1 : Vec Ideal S1024x1024 .bf16) (x2 : Vec Ideal S1x1024 .f32) (p q : Fin 1024) :
    k4_pay1 (F := Ideal) x0 x1 x2 (ix2 p q)
      = (∑ k : Fin 1024, x0 (ix2 p k) * x1 (ix2 q k)) + x2 (ix2 (0 : Fin 1) q) := by
  unfold Gen.k4_pay1
  refine (addf_apply _ _ _).trans ?_
  congr 1
  · refine (matmul_lin _ _ p q).trans ?_
    refine Finset.sum_congr rfl fun k _ => ?_
    rw [shapeCast_self, shapeCast_self]
  · rw [broadcastTo_1b_ab_apply, shapeCast_self]

end Cert.KernelIdeal.Val

end
-- ==== Proof.Val.ValLin0.lean ====
/-
  Region 0 of @main read as one array, on the extended reals: after its four grid points the output array holds,
  at row r and column e, the sum over k of x[r, k] · w[e, k] — the activations' rows against the weight's rows.
  Point t leaves in its output block the product of rows 1024·t … 1024·t + 1023 of the activations with the whole
  weight matrix, which is that one function of the two arrays read through the point's block; the four blocks tile
  the 4096 rows.
-/
import proofs.«119720_j50723563765938_2_alg».proof.Proof.KI.Reg0
import proofs.«119720_j50723563765938_2_alg».proof.Proof.Val.ArrSpec
import proofs.«119720_j50723563765938_2_alg».proof.Proof.Val.Lin
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The whole-block rectangle starts at the origin. -/
theorem origin0 : (![0, 0] : Fin 2 → Nat) = fun _ => 0 := funext fun a => by fin_cases a <;> rfl

/-- The three windows' block indices at every grid point: the activations' and the output's row block is the point,
    the weights' block never moves, and no window moves along the columns. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The activations' block at point t is rows 1024·t … 1024·t + 1023 of the activations. -/
theorem iblk0_0_apply (c : Dev nD) (t : Fin cfg0.N) (x : S1024x1024.Idx) (k : S4096x1024.Idx)
    (hk0 : (k 0).val = 1024 * t.val + (x 0).val) (hk1 : (k 1).val = (x 1).val) :
    (iblk0 V c 0 t : Vec Ideal S1024x1024 .f32) x = (V c main_v0 : S4096x1024.Idx → Elt Ideal .f32) k := by
  obtain ⟨e0, e1, -, -, -, -⟩ := blockIdx0 t
  unfold iblk0
  rw [View.read_apply]
  show V c main_v0 _ = V c main_v0 _
  congr 1
  funext a
  apply Fin.ext
  match a with
  | ⟨0, _⟩ => show win0_0.index t (0 : Fin 2) * 1024 + 1 * (x 0).val = (k 0).val; rw [e0, hk0]; omega
  | ⟨1, _⟩ => show win0_0.index t (1 : Fin 2) * 1024 + 1 * (x 1).val = (k 1).val; rw [e1, hk1]; omega

/-- The weights' block at every point is the whole weight matrix. -/
theorem iblk0_1_apply (c : Dev nD) (t : Fin cfg0.N) (x : S1024x1024.Idx) (k : S1024x1024.Idx)
    (hk0 : (k 0).val = (x 0).val) (hk1 : (k 1).val = (x 1).val) :
    (iblk0 V c 1 t : Vec Ideal S1024x1024 .bf16) x = (V c main_v3 : S1024x1024.Idx → Elt Ideal .bf16) k := by
  obtain ⟨-, -, e0, e1, -, -⟩ := blockIdx0 t
  unfold iblk0
  rw [View.read_apply]
  show V c main_v3 _ = V c main_v3 _
  congr 1
  funext a
  apply Fin.ext
  match a with
  | ⟨0, _⟩ => show win0_1.index t (0 : Fin 2) * 1024 + 1 * (x 0).val = (k 0).val; rw [e0, hk0]; omega
  | ⟨1, _⟩ => show win0_1.index t (1 : Fin 2) * 1024 + 1 * (x 1).val = (k 1).val; rw [e1, hk1]; omega

/-- The stored value at a block index j is the projection at an array index i, once row (j 0) of the first block
    is row (i 0) of the activations and row (j 1) of the second block is row (i 1) of the weights. -/
theorem pay_rows0 (x0 : Vec Ideal S1024x1024 .f32) (x1 : Vec Ideal S1024x1024 .bf16) (A0 : Cert.KVal.Rows)
    (A1 : Cert.Spec.Wt) (j : S1024x1024.Idx) (i : S4096x1024.Idx)
    (h0 : ∀ k : Fin 1024, x0 (ix2 (j 0) k) = A0 (ix2 (i 0) k))
    (h1 : ∀ k : Fin 1024, x1 (ix2 (j 1) k) = A1 (ix2 (i 1) k)) :
    k0_pay1 (F := Ideal) x0 x1 j = Cert.KVal.lin A0 A1 i := by
  refine (congrArg (k0_pay1 (F := Ideal) x0 x1) (eq_ix2 j)).trans ?_
  refine (Cert.KernelIdeal.Val.pay_lin0 x0 x1 (j 0) (j 1)).trans ?_
  unfold Cert.KVal.lin
  exact Finset.sum_congr rfl fun k _ => by rw [h0, h1]

/-- What point t writes back is block t of the projection of the two arrays as the region finds them. -/
theorem flushed_lin0 (c : Dev nD) (t : Fin cfg0.N) :
    (dat0 (F := Ideal) V c).flushed 2 t
      = ((cfg0.win 2).blk t).view.read (Elt Ideal) (Cert.KVal.lin (V c main_v0) (V c main_v3)) := by
  show (cfg0.win 2).cut (grid0.coords t) ((dat0 V c).after 2 t) = _
  rw [after0_2]
  unfold out0_2
  rw [View.canon_unit_zero origin0]
  simp only [View.ld_unit_zero (S := S1024x1024) origin0]
  obtain ⟨-, -, -, -, e0, e1⟩ := blockIdx0 t
  funext j
  show k0_pay1 (F := Ideal) (iblk0 V c 0 t) (iblk0 V c 1 t) j
    = Cert.KVal.lin (V c main_v0) (V c main_v3) (((cfg0.win 2).blk t).view.emb j)
  refine pay_rows0 _ _ _ _ j _ (fun k => ?_) (fun k => ?_)
  · refine iblk0_0_apply V c t _ _ ?_ rfl
    show win0_2.index t (0 : Fin 2) * 1024 + 1 * (j 0).val = 1024 * t.val + (j 0).val
    rw [e0]; omega
  · refine iblk0_1_apply V c t _ _ ?_ rfl
    show win0_2.index t (1 : Fin 2) * 1024 + 1 * (j 1).val = (j 1).val
    rw [e1]; omega

/-- An index of the output array is in point t's block iff each coordinate is in the block's range on its axis. -/
theorem mem_blk0 (t : Fin cfg0.N) (i : S4096x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v7).slice (win0_2.rect t)).set ↔ _
  rw [View.set_slice_whole, Rect.mem_set_unit]
  exact Iff.rfl

/-- Every index of the output array is in the block of the point its row falls in: row r in point r / 1024. -/
theorem cover_lin0 (i : S4096x1024.Idx) :
    ∃ t : Fin cfg0.N, (cfg0.win 2).flush t = true ∧ i ∈ ((cfg0.win 2).blk t).view.set := by
  have hi0 : (i 0).val < 4096 := (i 0).isLt
  have hi1 : (i 1).val < 1024 := (i 1).isLt
  obtain ⟨t, ht⟩ : ∃ t : Fin cfg0.N, t.val = (i 0).val / 1024 :=
    ⟨⟨(i 0).val / 1024, by show _ < grid0.N; rw [N_0]; omega⟩, rfl⟩
  obtain ⟨-, -, -, -, e0, e1⟩ := blockIdx0 t
  refine ⟨t, flush0_2 t, ?_⟩
  rw [mem_blk0]
  intro a
  match a with
  | ⟨0, _⟩ =>
    show win0_2.index t (0 : Fin 2) * 1024 ≤ (i 0).val ∧ (i 0).val < win0_2.index t (0 : Fin 2) * 1024 + 1024
    rw [e0, ht]; omega
  | ⟨1, _⟩ =>
    show win0_2.index t (1 : Fin 2) * 1024 ≤ (i 1).val ∧ (i 1).val < win0_2.index t (1 : Fin 2) * 1024 + 1024
    rw [e1]; omega

/-- The output array after the region: the projection of the activations by the weights, as the region finds them. -/
theorem val_lin0 (c : Dev nD) :
    (dat0 (F := Ideal) V c).arrAt 2 cfg0.N = Cert.KVal.lin (V c main_v0) (V c main_v3) :=
  (dat0 (F := Ideal) V c).arrAt_eq_of_cover 2 (Cert.KVal.lin (V c main_v0) (V c main_v3))
    (fun t _ => flushed_lin0 V c t) cover_lin0

end Cert.KernelIdeal.Hand

end
-- ==== Proof.Val.ValLin1.lean ====
/-
  Region 1 of @main read as one array, on the extended reals: after its four grid points the output array holds,
  at row r and column e, the sum over k of x[r, k] · w[e, k] — the activations' rows against the weight's rows.
  Point t leaves in its output block the product of rows 1024·t … 1024·t + 1023 of the activations with the whole
  weight matrix, which is that one function of the two arrays read through the point's block; the four blocks tile
  the 4096 rows.
-/
import proofs.«119720_j50723563765938_2_alg».proof.Proof.KI.Reg1
import proofs.«119720_j50723563765938_2_alg».proof.Proof.Val.ArrSpec
import proofs.«119720_j50723563765938_2_alg».proof.Proof.Val.Lin
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The whole-block rectangle starts at the origin. -/
theorem origin1 : (![0, 0] : Fin 2 → Nat) = fun _ => 0 := funext fun a => by fin_cases a <;> rfl

/-- The three windows' block indices at every grid point: the activations' and the output's row block is the point,
    the weights' block never moves, and no window moves along the columns. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The activations' block at point t is rows 1024·t … 1024·t + 1023 of the activations. -/
theorem iblk1_0_apply (c : Dev nD) (t : Fin cfg1.N) (x : S1024x1024.Idx) (k : S4096x1024.Idx)
    (hk0 : (k 0).val = 1024 * t.val + (x 0).val) (hk1 : (k 1).val = (x 1).val) :
    (iblk1 V c 0 t : Vec Ideal S1024x1024 .f32) x = (V c main_v1 : S4096x1024.Idx → Elt Ideal .f32) k := by
  obtain ⟨e0, e1, -, -, -, -⟩ := blockIdx1 t
  unfold iblk1
  rw [View.read_apply]
  show V c main_v1 _ = V c main_v1 _
  congr 1
  funext a
  apply Fin.ext
  match a with
  | ⟨0, _⟩ => show win1_0.index t (0 : Fin 2) * 1024 + 1 * (x 0).val = (k 0).val; rw [e0, hk0]; omega
  | ⟨1, _⟩ => show win1_0.index t (1 : Fin 2) * 1024 + 1 * (x 1).val = (k 1).val; rw [e1, hk1]; omega

/-- The weights' block at every point is the whole weight matrix. -/
theorem iblk1_1_apply (c : Dev nD) (t : Fin cfg1.N) (x : S1024x1024.Idx) (k : S1024x1024.Idx)
    (hk0 : (k 0).val = (x 0).val) (hk1 : (k 1).val = (x 1).val) :
    (iblk1 V c 1 t : Vec Ideal S1024x1024 .bf16) x = (V c main_v4 : S1024x1024.Idx → Elt Ideal .bf16) k := by
  obtain ⟨-, -, e0, e1, -, -⟩ := blockIdx1 t
  unfold iblk1
  rw [View.read_apply]
  show V c main_v4 _ = V c main_v4 _
  congr 1
  funext a
  apply Fin.ext
  match a with
  | ⟨0, _⟩ => show win1_1.index t (0 : Fin 2) * 1024 + 1 * (x 0).val = (k 0).val; rw [e0, hk0]; omega
  | ⟨1, _⟩ => show win1_1.index t (1 : Fin 2) * 1024 + 1 * (x 1).val = (k 1).val; rw [e1, hk1]; omega

/-- The stored value at a block index j is the projection at an array index i, once row (j 0) of the first block
    is row (i 0) of the activations and row (j 1) of the second block is row (i 1) of the weights. -/
theorem pay_rows1 (x0 : Vec Ideal S1024x1024 .f32) (x1 : Vec Ideal S1024x1024 .bf16) (A0 : Cert.KVal.Rows)
    (A1 : Cert.Spec.Wt) (j : S1024x1024.Idx) (i : S4096x1024.Idx)
    (h0 : ∀ k : Fin 1024, x0 (ix2 (j 0) k) = A0 (ix2 (i 0) k))
    (h1 : ∀ k : Fin 1024, x1 (ix2 (j 1) k) = A1 (ix2 (i 1) k)) :
    k1_pay1 (F := Ideal) x0 x1 j = Cert.KVal.lin A0 A1 i := by
  refine (congrArg (k1_pay1 (F := Ideal) x0 x1) (eq_ix2 j)).trans ?_
  refine (Cert.KernelIdeal.Val.pay_lin1 x0 x1 (j 0) (j 1)).trans ?_
  unfold Cert.KVal.lin
  exact Finset.sum_congr rfl fun k _ => by rw [h0, h1]

/-- What point t writes back is block t of the projection of the two arrays as the region finds them. -/
theorem flushed_lin1 (c : Dev nD) (t : Fin cfg1.N) :
    (dat1 (F := Ideal) V c).flushed 2 t
      = ((cfg1.win 2).blk t).view.read (Elt Ideal) (Cert.KVal.lin (V c main_v1) (V c main_v4)) := by
  show (cfg1.win 2).cut (grid1.coords t) ((dat1 V c).after 2 t) = _
  rw [after1_2]
  unfold out1_2
  rw [View.canon_unit_zero origin1]
  simp only [View.ld_unit_zero (S := S1024x1024) origin1]
  obtain ⟨-, -, -, -, e0, e1⟩ := blockIdx1 t
  funext j
  show k1_pay1 (F := Ideal) (iblk1 V c 0 t) (iblk1 V c 1 t) j
    = Cert.KVal.lin (V c main_v1) (V c main_v4) (((cfg1.win 2).blk t).view.emb j)
  refine pay_rows1 _ _ _ _ j _ (fun k => ?_) (fun k => ?_)
  · refine iblk1_0_apply V c t _ _ ?_ rfl
    show win1_2.index t (0 : Fin 2) * 1024 + 1 * (j 0).val = 1024 * t.val + (j 0).val
    rw [e0]; omega
  · refine iblk1_1_apply V c t _ _ ?_ rfl
    show win1_2.index t (1 : Fin 2) * 1024 + 1 * (j 1).val = (j 1).val
    rw [e1]; omega

/-- An index of the output array is in point t's block iff each coordinate is in the block's range on its axis. -/
theorem mem_blk1 (t : Fin cfg1.N) (i : S4096x1024.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v8).slice (win1_2.rect t)).set ↔ _
  rw [View.set_slice_whole, Rect.mem_set_unit]
  exact Iff.rfl

/-- Every index of the output array is in the block of the point its row falls in: row r in point r / 1024. -/
theorem cover_lin1 (i : S4096x1024.Idx) :
    ∃ t : Fin cfg1.N, (cfg1.win 2).flush t = true ∧ i ∈ ((cfg1.win 2).blk t).view.set := by
  have hi0 : (i 0).val < 4096 := (i 0).isLt
  have hi1 : (i 1).val < 1024 := (i 1).isLt
  obtain ⟨t, ht⟩ : ∃ t : Fin cfg1.N, t.val = (i 0).val / 1024 :=
    ⟨⟨(i 0).val / 1024, by show _ < grid1.N; rw [N_1]; omega⟩, rfl⟩
  obtain ⟨-, -, -, -, e0, e1⟩ := blockIdx1 t
  refine ⟨t, flush1_2 t, ?_⟩
  rw [mem_blk1]
  intro a
  match a with
  | ⟨0, _⟩ =>
    show win1_2.index t (0 : Fin 2) * 1024 ≤ (i 0).val ∧ (i 0).val < win1_2.index t (0 : Fin 2) * 1024 + 1024
    rw [e0, ht]; omega
  | ⟨1, _⟩ =>
    show win1_2.index t (1 : Fin 2) * 1024 ≤ (i 1).val ∧ (i 1).val < win1_2.index t (1 : Fin 2) * 1024 + 1024
    rw [e1]; omega

/-- The output array after the region: the projection of the activations by the weights, as the region finds them. -/
theorem val_lin1 (c : Dev nD) :
    (dat1 (F := Ideal) V c).arrAt 2 cfg1.N = Cert.KVal.lin (V c main_v1) (V c main_v4) :=
  (dat1 (F := Ideal) V c).arrAt_eq_of_cover 2 (Cert.KVal.lin (V c main_v1) (V c main_v4))
    (fun t _ => flushed_lin1 V c t) cover_lin1

end Cert.KernelIdeal.Hand

end
-- ==== Proof.Val.ValLin2.lean ====
/-
  Region 2 of @main read as one array, on the extended reals: after its four grid points the output array holds,
  at row r and column e, the sum over k of x[r, k] · w[e, k] — the activations' rows against the weight's rows.
  Point t leaves in its output block the product of rows 1024·t … 1024·t + 1023 of the activations with the whole
  weight matrix, which is that one function of the two arrays read through the point's block; the four blocks tile
  the 4096 rows.
-/
import proofs.«119720_j50723563765938_2_alg».proof.Proof.KI.Reg2
import proofs.«119720_j50723563765938_2_alg».proof.Proof.Val.ArrSpec
import proofs.«119720_j50723563765938_2_alg».proof.Proof.Val.Lin
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The whole-block rectangle starts at the origin. -/
theorem origin2 : (![0, 0] : Fin 2 → Nat) = fun _ => 0 := funext fun a => by fin_cases a <;> rfl

/-- The three windows' block indices at every grid point: the activations' and the output's row block is the point,
    the weights' block never moves, and no window moves along the columns. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The activations' block at point t is rows 1024·t … 1024·t + 1023 of the activations. -/
theorem iblk2_0_apply (c : Dev nD) (t : Fin cfg2.N) (x : S1024x1024.Idx) (k : S4096x1024.Idx)
    (hk0 : (k 0).val = 1024 * t.val + (x 0).val) (hk1 : (k 1).val = (x 1).val) :
    (iblk2 V c 0 t : Vec Ideal S1024x1024 .f32) x = (V c main_v2 : S4096x1024.Idx → Elt Ideal .f32) k := by
  obtain ⟨e0, e1, -, -, -, -⟩ := blockIdx2 t
  unfold iblk2
  rw [View.read_apply]
  show V c main_v2 _ = V c main_v2 _
  congr 1
  funext a
  apply Fin.ext
  match a with
  | ⟨0, _⟩ => show win2_0.index t (0 : Fin 2) * 1024 + 1 * (x 0).val = (k 0).val; rw [e0, hk0]; omega
  | ⟨1, _⟩ => show win2_0.index t (1 : Fin 2) * 1024 + 1 * (x 1).val = (k 1).val; rw [e1, hk1]; omega

/-- The weights' block at every point is the whole weight matrix. -/
theorem iblk2_1_apply (c : Dev nD) (t : Fin cfg2.N) (x : S1024x1024.Idx) (k : S1024x1024.Idx)
    (hk0 : (k 0).val = (x 0).val) (hk1 : (k 1).val = (x 1).val) :
    (iblk2 V c 1 t : Vec Ideal S1024x1024 .bf16) x = (V c main_v5 : S1024x1024.Idx → Elt Ideal .bf16) k := by
  obtain ⟨-, -, e0, e1, -, -⟩ := blockIdx2 t
  unfold iblk2
  rw [View.read_apply]
  show V c main_v5 _ = V c main_v5 _
  congr 1
  funext a
  apply Fin.ext
  match a with
  | ⟨0, _⟩ => show win2_1.index t (0 : Fin 2) * 1024 + 1 * (x 0).val = (k 0).val; rw [e0, hk0]; omega
  | ⟨1, _⟩ => show win2_1.index t (1 : Fin 2) * 1024 + 1 * (x 1).val = (k 1).val; rw [e1, hk1]; omega

/-- The stored value at a block index j is the projection at an array index i, once row (j 0) of the first block
    is row (i 0) of the activations and row (j 1) of the second block is row (i 1) of the weights. -/
theorem pay_rows2 (x0 : Vec Ideal S1024x1024 .f32) (x1 : Vec Ideal S1024x1024 .bf16) (A0 : Cert.KVal.Rows)
    (A1 : Cert.Spec.Wt) (j : S1024x1024.Idx) (i : S4096x1024.Idx)
    (h0 : ∀ k : Fin 1024, x0 (ix2 (j 0) k) = A0 (ix2 (i 0) k))
    (h1 : ∀ k : Fin 1024, x1 (ix2 (j 1) k) = A1 (ix2 (i 1) k)) :
    k2_pay1 (F := Ideal) x0 x1 j = Cert.KVal.lin A0 A1 i := by
  refine (congrArg (k2_pay1 (F := Ideal) x0 x1) (eq_ix2 j)).trans ?_
  refine (Cert.KernelIdeal.Val.pay_lin2 x0 x1 (j 0) (j 1)).trans ?_
  unfold Cert.KVal.lin
  exact Finset.sum_congr rfl fun k _ => by rw [h0, h1]

/-- What point t writes back is block t of the projection of the two arrays as the region finds them. -/
theorem flushed_lin2 (c : Dev nD) (t : Fin cfg2.N) :
    (dat2 (F := Ideal) V c).flushed 2 t
      = ((cfg2.win 2).blk t).view.read (Elt Ideal) (Cert.KVal.lin (V c main_v2) (V c main_v5)) := by
  show (cfg2.win 2).cut (grid2.coords t) ((dat2 V c).after 2 t) = _
  rw [after2_2]
  unfold out2_2
  rw [View.canon_unit_zero origin2]
  simp only [View.ld_unit_zero (S := S1024x1024) origin2]
  obtain ⟨-, -, -, -, e0, e1⟩ := blockIdx2 t
  funext j
  show k2_pay1 (F := Ideal) (iblk2 V c 0 t) (iblk2 V c 1 t) j
    = Cert.KVal.lin (V c main_v2) (V c main_v5) (((cfg2.win 2).blk t).view.emb j)
  refine pay_rows2 _ _ _ _ j _ (fun k => ?_) (fun k => ?_)
  · refine iblk2_0_apply V c t _ _ ?_ rfl
    show win2_2.index t (0 : Fin 2) * 1024 + 1 * (j 0).val = 1024 * t.val + (j 0).val
    rw [e0]; omega
  · refine iblk2_1_apply V c t _ _ ?_ rfl
    show win2_2.index t (1 : Fin 2) * 1024 + 1 * (j 1).val = (j 1).val
    rw [e1]; omega

/-- An index of the output array is in point t's block iff each coordinate is in the block's range on its axis. -/
theorem mem_blk2 (t : Fin cfg2.N) (i : S4096x1024.Idx) :
    i ∈ ((cfg2.win 2).blk t).view.set ↔ ∀ a : Fin 2, win2_2.index t a * S1024x1024.size a ≤ (i a).val
      ∧ (i a).val < win2_2.index t a * S1024x1024.size a + S1024x1024.size a := by
  show i ∈ ((View.whole main_v9).slice (win2_2.rect t)).set ↔ _
  rw [View.set_slice_whole, Rect.mem_set_unit]
  exact Iff.rfl

/-- Every index of the output array is in the block of the point its row falls in: row r in point r / 1024. -/
theorem cover_lin2 (i : S4096x1024.Idx) :
    ∃ t : Fin cfg2.N, (cfg2.win 2).flush t = true ∧ i ∈ ((cfg2.win 2).blk t).view.set := by
  have hi0 : (i 0).val < 4096 := (i 0).isLt
  have hi1 : (i 1).val < 1024 := (i 1).isLt
  obtain ⟨t, ht⟩ : ∃ t : Fin cfg2.N, t.val = (i 0).val / 1024 :=
    ⟨⟨(i 0).val / 1024, by show _ < grid2.N; rw [N_2]; omega⟩, rfl⟩
  obtain ⟨-, -, -, -, e0, e1⟩ := blockIdx2 t
  refine ⟨t, flush2_2 t, ?_⟩
  rw [mem_blk2]
  intro a
  match a with
  | ⟨0, _⟩ =>
    show win2_2.index t (0 : Fin 2) * 1024 ≤ (i 0).val ∧ (i 0).val < win2_2.index t (0 : Fin 2) * 1024 + 1024
    rw [e0, ht]; omega
  | ⟨1, _⟩ =>
    show win2_2.index t (1 : Fin 2) * 1024 ≤ (i 1).val ∧ (i 1).val < win2_2.index t (1 : Fin 2) * 1024 + 1024
    rw [e1]; omega

/-- The output array after the region: the projection of the activations by the weights, as the region finds them. -/
theorem val_lin2 (c : Dev nD) :
    (dat2 (F := Ideal) V c).arrAt 2 cfg2.N = Cert.KVal.lin (V c main_v2) (V c main_v5) :=
  (dat2 (F := Ideal) V c).arrAt_eq_of_cover 2 (Cert.KVal.lin (V c main_v2) (V c main_v5))
    (fun t _ => flushed_lin2 V c t) cover_lin2

end Cert.KernelIdeal.Hand

end
-- ==== Proof.Val.ValLinB.lean ====
/-
  Region 4 of @main read as one array, on the extended reals: after its four grid points the output array holds,
  at row r and column e, the sum over k of x[r, k] · w[e, k], plus the bias b[0, e]. Point t leaves in its output
  block the product of rows 1024·t … 1024·t + 1023 of the activations with the whole weight matrix plus the bias
  row, which is that one function of the three arrays read through the point's block; the four blocks tile the 4096
  rows.
-/
import proofs.«119720_j50723563765938_2_alg».proof.Proof.KI.Reg4
import proofs.«119720_j50723563765938_2_alg».proof.Proof.Val.ArrSpec
import proofs.«119720_j50723563765938_2_alg».proof.Proof.Val.Lin
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The whole-block rectangles start at the origin. -/
theorem origin4 : (![0, 0] : Fin 2 → Nat) = fun _ => 0 := funext fun a => by fin_cases a <;> rfl

/-- The four windows' block indices at every grid point: the activations' and the output's row block is the point,
    the weights' and the bias's blocks never move, and no window moves along the columns. -/
theorem blockIdx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The activations' block at point t is rows 1024·t … 1024·t + 1023 of the activations. -/
theorem iblk4_0_apply (c : Dev nD) (t : Fin cfg4.N) (x : S1024x1024.Idx) (k : S4096x1024.Idx)
    (hk0 : (k 0).val = 1024 * t.val + (x 0).val) (hk1 : (k 1).val = (x 1).val) :
    (iblk4 V c 0 t : Vec Ideal S1024x1024 .bf16) x = (V c main_v14 : S4096x1024.Idx → Elt Ideal .bf16) k := by
  obtain ⟨e0, e1, -, -, -, -, -, -⟩ := blockIdx4 t
  unfold iblk4
  rw [View.read_apply]
  show V c main_v14 _ = V c main_v14 _
  congr 1
  funext a
  apply Fin.ext
  match a with
  | ⟨0, _⟩ => show win4_0.index t (0 : Fin 2) * 1024 + 1 * (x 0).val = (k 0).val; rw [e0, hk0]; omega
  | ⟨1, _⟩ => show win4_0.index t (1 : Fin 2) * 1024 + 1 * (x 1).val = (k 1).val; rw [e1, hk1]; omega

/-- The weights' block at every point is the whole weight matrix. -/
theorem iblk4_1_apply (c : Dev nD) (t : Fin cfg4.N) (x : S1024x1024.Idx) (k : S1024x1024.Idx)
    (hk0 : (k 0).val = (x 0).val) (hk1 : (k 1).val = (x 1).val) :
    (iblk4 V c 1 t : Vec Ideal S1024x1024 .bf16) x = (V c main_v6 : S1024x1024.Idx → Elt Ideal .bf16) k := by
  obtain ⟨-, -, e0, e1, -, -, -, -⟩ := blockIdx4 t
  unfold iblk4
  rw [View.read_apply]
  show V c main_v6 _ = V c main_v6 _
  congr 1
  funext a
  apply Fin.ext
  match a with
  | ⟨0, _⟩ => show win4_1.index t (0 : Fin 2) * 1024 + 1 * (x 0).val = (k 0).val; rw [e0, hk0]; omega
  | ⟨1, _⟩ => show win4_1.index t (1 : Fin 2) * 1024 + 1 * (x 1).val = (k 1).val; rw [e1, hk1]; omega

/-- The bias's block at every point is the whole bias row. -/
theorem iblk4_2_apply (c : Dev nD) (t : Fin cfg4.N) (x : S1x1024.Idx) (k : S1x1024.Idx)
    (hk0 : (k 0).val = (x 0).val) (hk1 : (k 1).val = (x 1).val) :
    (iblk4 V c 2 t : Vec Ideal S1x1024 .f32) x = (V c main_v15 : S1x1024.Idx → Elt Ideal .f32) k := by
  obtain ⟨-, -, -, -, e0, e1, -, -⟩ := blockIdx4 t
  unfold iblk4
  rw [View.read_apply]
  show V c main_v15 _ = V c main_v15 _
  congr 1
  funext a
  apply Fin.ext
  match a with
  | ⟨0, _⟩ => show win4_2.index t (0 : Fin 2) * 1 + 1 * (x 0).val = (k 0).val; rw [e0, hk0]; omega
  | ⟨1, _⟩ => show win4_2.index t (1 : Fin 2) * 1024 + 1 * (x 1).val = (k 1).val; rw [e1, hk1]; omega

/-- The stored value at a block index j is the projection with its bias at an array index i, once row (j 0) of the
    first block is row (i 0) of the activations, row (j 1) of the second block is row (i 1) of the weights, and
    the bias block's entry (j 1) is the bias's entry (i 1). -/
theorem pay_rows4 (x0 x1 : Vec Ideal S1024x1024 .bf16) (x2 : Vec Ideal S1x1024 .f32) (A0 : Cert.KVal.Rows)
    (A1 : Cert.Spec.Wt) (B : Cert.KVal.BiasRow) (j : S1024x1024.Idx) (i : S4096x1024.Idx)
    (h0 : ∀ k : Fin 1024, x0 (ix2 (j 0) k) = A0 (ix2 (i 0) k))
    (h1 : ∀ k : Fin 1024, x1 (ix2 (j 1) k) = A1 (ix2 (i 1) k))
    (h2 : x2 (ix2 (0 : Fin 1) (j 1)) = B (ix2 (0 : Fin 1) (i 1))) :
    k4_pay1 (F := Ideal) x0 x1 x2 j = Cert.KVal.linb A0 A1 B i := by
  refine (congrArg (k4_pay1 (F := Ideal) x0 x1 x2) (eq_ix2 j)).trans ?_
  refine (Cert.KernelIdeal.Val.pay_linb x0 x1 x2 (j 0) (j 1)).trans ?_
  unfold Cert.KVal.linb
  rw [h2]
  exact congrArg (· + B (ix2 (0 : Fin 1) (i 1))) (Finset.sum_congr rfl fun k _ => by rw [h0, h1])

/-- What point t writes back is block t of the projection with its bias of the three arrays as the region finds
    them. -/
theorem flushed_linb (c : Dev nD) (t : Fin cfg4.N) :
    (dat4 (F := Ideal) V c).flushed 3 t
      = ((cfg4.win 3).blk t).view.read (Elt Ideal) (Cert.KVal.linb (V c main_v14) (V c main_v6) (V c main_v15)) := by
  show (cfg4.win 3).cut (grid4.coords t) ((dat4 V c).after 3 t) = _
  rw [after4_3]
  unfold out4_3
  rw [View.canon_unit_zero origin4]
  simp only [View.ld_unit_zero (S := S1024x1024) origin4, View.ld_unit_zero (S := S1x1024) origin4]
  obtain ⟨-, -, -, -, -, -, e0, e1⟩ := blockIdx4 t
  funext j
  show k4_pay1 (F := Ideal) (iblk4 V c 0 t) (iblk4 V c 1 t) (iblk4 V c 2 t) j
    = Cert.KVal.linb (V c main_v14) (V c main_v6) (V c main_v15) (((cfg4.win 3).blk t).view.emb j)
  refine pay_rows4 _ _ _ _ _ _ j _ (fun k => ?_) (fun k => ?_) ?_
  · refine iblk4_0_apply V c t _ _ ?_ rfl
    show win4_3.index t (0 : Fin 2) * 1024 + 1 * (j 0).val = 1024 * t.val + (j 0).val
    rw [e0]; omega
  · refine iblk4_1_apply V c t _ _ ?_ rfl
    show win4_3.index t (1 : Fin 2) * 1024 + 1 * (j 1).val = (j 1).val
    rw [e1]; omega
  · refine iblk4_2_apply V c t _ _ rfl ?_
    show win4_3.index t (1 : Fin 2) * 1024 + 1 * (j 1).val = (j 1).val
    rw [e1]; omega

/-- An index of the output array is in point t's block iff each coordinate is in the block's range on its axis. -/
theorem mem_blk4 (t : Fin cfg4.N) (i : S4096x1024.Idx) :
    i ∈ ((cfg4.win 3).blk t).view.set ↔ ∀ a : Fin 2, win4_3.index t a * S1024x1024.size a ≤ (i a).val
      ∧ (i a).val < win4_3.index t a * S1024x1024.size a + S1024x1024.size a := by
  show i ∈ ((View.whole main_v16).slice (win4_3.rect t)).set ↔ _
  rw [View.set_slice_whole, Rect.mem_set_unit]
  exact Iff.rfl

/-- Every index of the output array is in the block of the point its row falls in: row r in point r / 1024. -/
theorem cover_linb (i : S4096x1024.Idx) :
    ∃ t : Fin cfg4.N, (cfg4.win 3).flush t = true ∧ i ∈ ((cfg4.win 3).blk t).view.set := by
  have hi0 : (i 0).val < 4096 := (i 0).isLt
  have hi1 : (i 1).val < 1024 := (i 1).isLt
  obtain ⟨t, ht⟩ : ∃ t : Fin cfg4.N, t.val = (i 0).val / 1024 :=
    ⟨⟨(i 0).val / 1024, by show _ < grid4.N; rw [N_4]; omega⟩, rfl⟩
  obtain ⟨-, -, -, -, -, -, e0, e1⟩ := blockIdx4 t
  refine ⟨t, flush4_3 t, ?_⟩
  rw [mem_blk4]
  intro a
  match a with
  | ⟨0, _⟩ =>
    show win4_3.index t (0 : Fin 2) * 1024 ≤ (i 0).val ∧ (i 0).val < win4_3.index t (0 : Fin 2) * 1024 + 1024
    rw [e0, ht]; omega
  | ⟨1, _⟩ =>
    show win4_3.index t (1 : Fin 2) * 1024 ≤ (i 1).val ∧ (i 1).val < win4_3.index t (1 : Fin 2) * 1024 + 1024
    rw [e1]; omega

/-- The output array after the region: the projection of the activations by the weights with the bias added, as the
    region finds them. -/
theorem val_linb (c : Dev nD) :
    (dat4 (F := Ideal) V c).arrAt 3 cfg4.N = Cert.KVal.linb (V c main_v14) (V c main_v6) (V c main_v15) :=
  (dat4 (F := Ideal) V c).arrAt_eq_of_cover 3 (Cert.KVal.linb (V c main_v14) (V c main_v6) (V c main_v15))
    (fun t _ => flushed_linb V c t) cover_linb

end Cert.KernelIdeal.Hand

end
-- ==== Proof.LibKeepdimsLayout.lean ====
/-
  Layout operations read at an index, by coordinates: a vector made a column ([a] → [a,1]), a column broadcast along
  its rows ([a,1] → [a,b]), and a matrix with two unit axes around its rows ([1,a,1,b] ↔ [a,b]).
-/
import Idealize.ShloMosaic.Lib.ValueIdx
import Idealize.ShloMosaic.Lib.Pipeline.Value
import Idealize.ShloMosaic.Lib.ValueLayout

namespace Cert.KernelIdeal.Val

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, c)`, the operand's one column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- A `[1, a, 1, b]` array cast to `[a, b]` reads, at `(i, j)`, the operand at `(0, i, 0, j)`. -/
theorem shapeCast_1a1b_ab_apply {a b : ℕ} (x : (⟨4, ![1, a, 1, b]⟩ : Shape).Idx → α)
    (h : (⟨4, ![1, a, 1, b]⟩ : Shape).ShapeCasts ⟨2, ![a, b]⟩) (i : Fin a) (j : Fin b) :
    shapeCast ⟨2, ![a, b]⟩ x h (ix2 i j) = x (ix4 (0 : Fin 1) i (0 : Fin 1) j) :=
  shapeCast_apply x h _ _ (by
    rw [Shape.rowMajor_val_four, Shape.rowMajor_val_two]
    show ((0 * a + i.val) * 1 + 0) * b + j.val = i.val * b + j.val
    rw [Nat.zero_mul, Nat.zero_add, Nat.mul_one, Nat.add_zero])

/-- An `[a, b]` array cast to `[1, a, 1, b]` reads, at `(u, i, w, j)`, the operand at `(i, j)`, whatever the unit
    coordinates. -/
theorem shapeCast_ab_1a1b_apply {a b : ℕ} (x : (⟨2, ![a, b]⟩ : Shape).Idx → α)
    (h : (⟨2, ![a, b]⟩ : Shape).ShapeCasts ⟨4, ![1, a, 1, b]⟩) (u : Fin 1) (i : Fin a) (w : Fin 1) (j : Fin b) :
    shapeCast ⟨4, ![1, a, 1, b]⟩ x h (ix4 u i w j) = x (ix2 i j) :=
  shapeCast_apply x h _ _ (by
    have hu : u.val = 0 := by omega
    have hw : w.val = 0 := by omega
    rw [Shape.rowMajor_val_four, Shape.rowMajor_val_two]
    show i.val * b + j.val = ((u.val * a + i.val) * 1 + w.val) * b + j.val
    rw [hu, hw, Nat.zero_mul, Nat.zero_add, Nat.mul_one, Nat.add_zero])

end Cert.KernelIdeal.Val
-- ==== Proof.Val.Head.lean ====
/-
  One attention head's stored value read at an index, on the extended reals: the scaled scores of a query row against
  every key row, the row's softmax weights in the reciprocal form, and the weighted sum of the value rows.
-/
import proofs.«119720_j50723563765938_2_alg».proof.Proof.Gen.KernelIdeal.Skeleton
import proofs.«119720_j50723563765938_2_alg».proof.Proof.Spec
import proofs.«119720_j50723563765938_2_alg».proof.Proof.LibKeepdimsLayout
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.ValueIdx

/-- The scores' product: [64,64] against [2048,64], both contracted on their second axis. -/
abbrev dQK : DotDims S64x64 S2048x64 S64x2048 := dot_S64x64_S2048x64_S64x2048_1_1_0_0_n_n
/-- The context's product: [64,2048] against [2048,64], the weights' second axis against the values' first. -/
abbrev dPV : DotDims S64x2048 S2048x64 S64x64 := dot_S64x2048_S2048x64_S64x64_1_0_0_1_n_n

/-! ## The two products at an index -/

theorem dQK_lhs0 (j : S64x2048.Idx) (c : dQK.contr.Idx) : (dQK.lhsIdx j c 0).val = (j 0).val := by
  unfold DotDims.lhsIdx
  rw [dif_neg (show ¬(0 : Fin S64x64.rank) ∈ dQK.lhsBatch by decide),
    dif_pos (show (0 : Fin S64x64.rank) ∈ dQK.lhsNonContracting by decide)]
  rfl

theorem dQK_rhs0 (j : S64x2048.Idx) (c : dQK.contr.Idx) : (dQK.rhsIdx j c 0).val = (j 1).val := by
  unfold DotDims.rhsIdx
  rw [dif_neg (show ¬(0 : Fin S2048x64.rank) ∈ dQK.rhsBatch by decide),
    dif_pos (show (0 : Fin S2048x64.rank) ∈ dQK.rhsNonContracting by decide)]
  rfl

theorem dQK_lhsIdx (r : Fin 64) (kk : Fin 2048) (d : Fin 64) :
    dQK.lhsIdx (ix2 r kk) ((contrEquiv1 dQK 64 rfl rfl).symm d) = ix2 r d := by
  have hd := contrEquiv1_symm_val dQK 64 rfl rfl d
  refine funext fun a => Fin.ext ?_
  match a with
  | ⟨0, _⟩ => exact dQK_lhs0 _ _
  | ⟨1, _⟩ => exact (dQK.lhsIdx_val_of_single rfl _ _).trans hd

theorem dQK_rhsIdx (r : Fin 64) (kk : Fin 2048) (d : Fin 64) :
    dQK.rhsIdx (ix2 r kk) ((contrEquiv1 dQK 64 rfl rfl).symm d) = ix2 kk d := by
  have hd := contrEquiv1_symm_val dQK 64 rfl rfl d
  refine funext fun a => Fin.ext ?_
  match a with
  | ⟨0, _⟩ => exact dQK_rhs0 _ _
  | ⟨1, _⟩ => exact (dQK.rhsIdx_val_of_single rfl _ _).trans hd

/-- Query rows against key rows, into the zero splat, at (r, kk): Σ_d a[r,d] · b[kk,d]. -/
theorem matmul_qk {φ₁ φ₂ : FTy} (a : FVec Ideal S64x64 φ₁) (b : FVec Ideal S2048x64 φ₂) (r : Fin 64) (kk : Fin 2048) :
    matmul dQK none a b (constant (F := Ideal) S64x2048 .f32 0x00000000#32) (ix2 r kk)
      = ∑ d : Fin 64, a (ix2 r d) * b (ix2 kk d) := by
  simp only [matmul]
  rw [Ideal.matmul_constant_zero_apply, ← Equiv.sum_comp (contrEquiv1 dQK 64 rfl rfl).symm]
  refine Finset.sum_congr rfl fun d _ => ?_
  rw [dQK_lhsIdx, dQK_rhsIdx]

theorem dPV_lhs0 (j : S64x64.Idx) (c : dPV.contr.Idx) : (dPV.lhsIdx j c 0).val = (j 0).val := by
  unfold DotDims.lhsIdx
  rw [dif_neg (show ¬(0 : Fin S64x2048.rank) ∈ dPV.lhsBatch by decide),
    dif_pos (show (0 : Fin S64x2048.rank) ∈ dPV.lhsNonContracting by decide)]
  rfl

theorem dPV_rhs1 (j : S64x64.Idx) (c : dPV.contr.Idx) : (dPV.rhsIdx j c 1).val = (j 1).val := by
  unfold DotDims.rhsIdx
  rw [dif_neg (show ¬(1 : Fin S2048x64.rank) ∈ dPV.rhsBatch by decide),
    dif_pos (show (1 : Fin S2048x64.rank) ∈ dPV.rhsNonContracting by decide)]
  rfl

theorem dPV_lhsIdx (r d : Fin 64) (kk : Fin 2048) :
    dPV.lhsIdx (ix2 r d) ((contrEquiv1 dPV 2048 rfl rfl).symm kk) = ix2 r kk := by
  have hk := contrEquiv1_symm_val dPV 2048 rfl rfl kk
  refine funext fun a => Fin.ext ?_
  match a with
  | ⟨0, _⟩ => exact dPV_lhs0 _ _
  | ⟨1, _⟩ => exact (dPV.lhsIdx_val_of_single rfl _ _).trans hk

theorem dPV_rhsIdx (r d : Fin 64) (kk : Fin 2048) :
    dPV.rhsIdx (ix2 r d) ((contrEquiv1 dPV 2048 rfl rfl).symm kk) = ix2 kk d := by
  have hk := contrEquiv1_symm_val dPV 2048 rfl rfl kk
  refine funext fun a => Fin.ext ?_
  match a with
  | ⟨0, _⟩ => exact (dPV.rhsIdx_val_of_single rfl _ _).trans hk
  | ⟨1, _⟩ => exact dPV_rhs1 _ _

/-- Weight rows against value columns, into the zero splat, at (r, d): Σ_kk a[r,kk] · b[kk,d]. -/
theorem matmul_pv {φ₁ φ₂ : FTy} (a : FVec Ideal S64x2048 φ₁) (b : FVec Ideal S2048x64 φ₂) (r d : Fin 64) :
    matmul dPV none a b (constant (F := Ideal) S64x64 .f32 0x00000000#32) (ix2 r d)
      = ∑ kk : Fin 2048, a (ix2 r kk) * b (ix2 kk d) := by
  simp only [matmul]
  rw [Ideal.matmul_constant_zero_apply, ← Equiv.sum_comp (contrEquiv1 dPV 2048 rfl rfl).symm]
  refine Finset.sum_congr rfl fun kk _ => ?_
  rw [dPV_lhsIdx, dPV_rhsIdx]

/-! ## The two lane reductions at a row -/

/-- The source index over row `r` with lane `kk` inserted is `(r, kk)`. -/
theorem lift_row (h : S64x2048.Reduces [1] S64) (r : Fin 64) (kk : Fin 2048) : h.lift (ix1 r) kk = ix2 r kk := by
  refine funext fun a => Fin.ext ?_
  match a with
  | ⟨0, _⟩ => rfl
  | ⟨1, _⟩ => rfl

/-- A row's maximum from −∞. -/
theorem rowMax_apply (s : FVec Ideal S64x2048 .f32) (h : S64x2048.Reduces [1] S64) (hφ : FKind.Formats .f32)
    (hacc : (0xFF800000#32 : BitVec 32) = 0xFF800000#32) (r : Fin 64) :
    multiReduction (F := Ideal) .maximumf [1] S64 s 0xFF800000#32 h hφ hacc (ix1 r)
      = Cert.Spec.rowMax fun kk => s (ix2 r kk) := by
  refine (Ideal.multiReduction_maximumf_single s 0xFF800000#32 h hφ hacc (ix1 r)).trans ?_
  have e : (s ∘ h.lift (ix1 r)) = fun kk : Fin 2048 => s (ix2 r kk) := funext fun kk => congrArg s (lift_row h r kk)
  unfold Cert.Spec.rowMax
  rw [e]
  rfl

/-- A row's sum from 0. -/
theorem rowSum_apply (e : FVec Ideal S64x2048 .f32) (h : S64x2048.Reduces [1] S64) (hφ : FKind.Formats .f32)
    (hacc : (0x00000000#32 : BitVec 32) = 0x00000000#32) (r : Fin 64) :
    multiReduction (F := Ideal) .add [1] S64 e 0x00000000#32 h hφ hacc (ix1 r) = ∑ kk : Fin 2048, e (ix2 r kk) := by
  refine (Ideal.multiReduction_add_single e 0x00000000#32 h hφ hacc (ix1 r)).trans ?_
  exact Finset.sum_congr rfl fun kk _ => congrArg e (lift_row h r kk)

/-! ## The head, stage by stage -/

/-- The scaled scores: (a · bᵀ) · 2⁻⁵. -/
def scoresV (a : FVec Ideal S64x64 .bf16) (k : Vec Ideal S1x2048x1x64 .bf16) : FVec Ideal S64x2048 .f32 :=
  mulf (matmul dQK none a (shapeCast S2048x64 k shapeCasts_S1x2048x1x64_S2048x64 : FVec Ideal S2048x64 .bf16) (constant (F := Ideal) S64x2048 .f32 0x00000000#32))
    (broadcast S64x2048 (Scalar.ofBits (F := Ideal) .f32 0x3D000000#32))

/-- exp(s − row max), the row maximum kept as a column and broadcast back. -/
def expV (s : FVec Ideal S64x2048 .f32) : FVec Ideal S64x2048 .f32 :=
  exp (subf s (broadcastTo S64x2048
    (shapeCast S64x1 (multiReduction (F := Ideal) .maximumf [1] S64 s 0xFF800000#32 reduces_S64x2048_S64 (.inl rfl) rfl) shapeCasts_S64_S64x1)
    broadcasts_S64x1_S64x2048))

/-- e · (1 / row sum), the reciprocal kept as a column and broadcast back. -/
def weightV (e : FVec Ideal S64x2048 .f32) : FVec Ideal S64x2048 .f32 :=
  mulf e (broadcastTo S64x2048
    (divf (broadcast S64x1 (Scalar.ofBits (F := Ideal) .f32 0x3F800000#32))
      (shapeCast S64x1 (multiReduction (F := Ideal) .add [1] S64 e 0x00000000#32 reduces_S64x2048_S64 (.inl rfl) rfl) shapeCasts_S64_S64x1))
    broadcasts_S64x1_S64x2048)

/-- One head from its [64,64] query tile and the [1,2048,1,64] key and value blocks. -/
def headV (a : FVec Ideal S64x64 .bf16) (k v : Vec Ideal S1x2048x1x64 .bf16) : FVec Ideal S1x64x1x64 .bf16 :=
  shapeCast S1x64x1x64
    (truncf .bf16
      (matmul dPV none (truncf .bf16 (weightV (expV (scoresV a k))) bitsLt_bf16_f32)
        (shapeCast S2048x64 v shapeCasts_S1x2048x1x64_S2048x64 : FVec Ideal S2048x64 .bf16) (constant (F := Ideal) S64x64 .f32 0x00000000#32))
      bitsLt_bf16_f32)
    shapeCasts_S64x64_S1x64x1x64

/-- The first head's stored value is the head of the query block cast to a [64,64] tile. -/
theorem k3_pay2_eq_headV (q : Vec Ideal S1x64x1x64 .bf16) (k v : Vec Ideal S1x2048x1x64 .bf16) :
    k3_pay2 (F := Ideal) q k v = headV (shapeCast S64x64 q shapeCasts_S1x64x1x64_S64x64) k v := rfl

/-- The scores of query row r: against key row kk, (Σ_d a[r,d] · k[0,kk,0,d]) · 2⁻⁵. -/
def scoreRow (a : FVec Ideal S64x64 .bf16) (k : Vec Ideal S1x2048x1x64 .bf16) (r : Fin 64) : Fin 2048 → EReal :=
  fun kk => (∑ d : Fin 64, a (ix2 r d) * k (ix4 (0 : Fin 1) kk (0 : Fin 1) d)) * Ideal.ofBits .f32 0x3D000000#32

theorem scoresV_apply (a : FVec Ideal S64x64 .bf16) (k : Vec Ideal S1x2048x1x64 .bf16) (r : Fin 64) (kk : Fin 2048) :
    scoresV a k (ix2 r kk) = scoreRow a k r kk := by
  unfold scoresV scoreRow
  refine (mulf_apply _ _ _).trans ?_
  refine congrArg (· * Ideal.ofBits .f32 0x3D000000#32) ?_
  refine (matmul_qk _ _ r kk).trans ?_
  refine Finset.sum_congr rfl fun d _ => ?_
  rw [shapeCast_1a1b_ab_apply]

theorem scoresV_row (a : FVec Ideal S64x64 .bf16) (k : Vec Ideal S1x2048x1x64 .bf16) (r : Fin 64) :
    (fun kk => scoresV a k (ix2 r kk)) = scoreRow a k r := funext fun kk => scoresV_apply a k r kk

/-- The exponentials of a row. -/
theorem expV_apply (s : FVec Ideal S64x2048 .f32) (r : Fin 64) (kk : Fin 2048) :
    expV s (ix2 r kk) = Cert.Spec.expo (fun kk' => s (ix2 r kk')) kk := by
  unfold expV Cert.Spec.expo
  show Ideal.exp (s (ix2 r kk) - _) = _
  refine congrArg (fun m => Ideal.exp (s (ix2 r kk) - m)) ?_
  refine (broadcastTo_a1_ab_apply _ _ r kk).trans ?_
  refine (shapeCast_a_a1_apply _ _ r 0).trans ?_
  exact rowMax_apply s _ _ _ r

theorem expV_row (s : FVec Ideal S64x2048 .f32) (r : Fin 64) :
    (fun kk => expV s (ix2 r kk)) = Cert.Spec.expo (fun kk' => s (ix2 r kk')) := funext fun kk => expV_apply s r kk

/-- The weights of a row, from its exponentials. -/
theorem weightV_apply (e : FVec Ideal S64x2048 .f32) (r : Fin 64) (kk : Fin 2048) :
    weightV e (ix2 r kk)
      = e (ix2 r kk) * Ideal.div (Ideal.ofBits .f32 0x3F800000#32) (∑ kk' : Fin 2048, e (ix2 r kk')) := by
  unfold weightV
  refine (mulf_apply _ _ _).trans ?_
  refine congrArg (e (ix2 r kk) * ·) ?_
  refine (broadcastTo_a1_ab_apply _ _ r kk).trans ?_
  refine (divf_apply _ _ _).trans ?_
  refine congrArg (Ideal.div (Ideal.ofBits .f32 0x3F800000#32)) ?_
  refine (shapeCast_a_a1_apply _ _ r 0).trans ?_
  exact rowSum_apply e _ _ _ r

/-- The weights of a row of scores: the reciprocal form of the softmax weight. -/
theorem weightV_expV_apply (s : FVec Ideal S64x2048 .f32) (r : Fin 64) (kk : Fin 2048) :
    weightV (expV s) (ix2 r kk) = Cert.Spec.weightK (fun kk' => s (ix2 r kk')) kk := by
  rw [weightV_apply]
  unfold Cert.Spec.weightK Cert.Spec.denom
  rw [expV_apply, expV_row]

/-- A head at (0, r, 0, d): the weighted sum of the value rows. -/
theorem headV_apply (a : FVec Ideal S64x64 .bf16) (k v : Vec Ideal S1x2048x1x64 .bf16) (r d : Fin 64) :
    headV a k v (ix4 (0 : Fin 1) r (0 : Fin 1) d)
      = ∑ kk : Fin 2048, Cert.Spec.weightK (scoreRow a k r) kk * v (ix4 (0 : Fin 1) kk (0 : Fin 1) d) := by
  unfold headV
  refine (shapeCast_ab_1a1b_apply _ _ 0 r 0 d).trans ?_
  refine (truncf_apply (ψ := .bf16) _ bitsLt_bf16_f32 (ix2 r d)).trans ?_
  refine (matmul_pv _ _ r d).trans ?_
  refine Finset.sum_congr rfl fun kk _ => ?_
  rw [shapeCast_1a1b_ab_apply]
  refine congrArg (· * v (ix4 (0 : Fin 1) kk (0 : Fin 1) d)) ?_
  refine (truncf_apply (ψ := .bf16) _ bitsLt_bf16_f32 (ix2 r kk)).trans ?_
  rw [weightV_expV_apply, scoresV_row]

/-- The first head's stored value at (0, r, 0, d). -/
theorem pay_head (q : Vec Ideal S1x64x1x64 .bf16) (k v : Vec Ideal S1x2048x1x64 .bf16) (r d : Fin 64) :
    k3_pay2 (F := Ideal) q k v (ix4 (0 : Fin 1) r (0 : Fin 1) d)
      = ∑ kk : Fin 2048,
          Cert.Spec.weightK (fun kk' : Fin 2048 =>
            (∑ dd : Fin 64, q (ix4 (0 : Fin 1) r (0 : Fin 1) dd) * k (ix4 (0 : Fin 1) kk' (0 : Fin 1) dd))
              * Ideal.ofBits .f32 0x3D000000#32) kk
            * v (ix4 (0 : Fin 1) kk (0 : Fin 1) d) := by
  rw [k3_pay2_eq_headV, headV_apply]
  refine Finset.sum_congr rfl fun kk _ => ?_
  refine congrArg (fun w => Cert.Spec.weightK w kk * v (ix4 (0 : Fin 1) kk (0 : Fin 1) d)) ?_
  funext kk'
  unfold scoreRow
  refine congrArg (· * Ideal.ofBits .f32 0x3D000000#32) ?_
  refine Finset.sum_congr rfl fun dd _ => ?_
  rw [shapeCast_1a1b_ab_apply]

end Cert.KernelIdeal.Val

end
-- ==== Proof.Val.ValAttnBlock.lean ====
/-
  The attention region's output block as ONE function of its three input blocks: at row r, head h and lane d the
  weighted sum, over the key positions, of head h's value rows, with the softmax weights (in the reciprocal form) of the
  scaled scores of query row r of head h against head h's key rows. The sixteen per-head pieces the body stores are
  the sixteen head slices of that one function, and together they fill the block.
-/
import proofs.«119720_j50723563765938_2_alg».proof.Proof.KI.Reg3Data
import proofs.«119720_j50723563765938_2_alg».proof.Proof.Val.Head
import Idealize.ShloMosaic.Lib.Pipeline.Value
import Idealize.ShloMosaic.Lib.Writes

noncomputable section

namespace Cert.KernelIdeal.Hand

open Cert.KernelIdeal Cert.KernelIdeal.Gen Cert.KernelIdeal.Val Idealize.ShloMosaic Idealize.ShloMosaic.ValueIdx

/-- The block's function: attention of query row `i 1` of head `i 2` against that head's keys and values, lane `i 3`. -/
def blkAttn (x0 : Vec Ideal S1x64x16x64 .bf16) (x1 x2 : Vec Ideal S1x2048x16x64 .bf16) : S1x64x16x64.Idx → EReal := fun i =>
  ∑ kk : Fin 2048,
    Cert.Spec.weightK (fun kk' : Fin 2048 =>
      (∑ dd : Fin 64, x0 (ix4 (0 : Fin 1) (i 1) (i 2) dd) * x1 (ix4 (0 : Fin 1) kk' (i 2) dd))
        * Ideal.ofBits .f32 0x3D000000#32) kk
      * x2 (ix4 (0 : Fin 1) kk (i 2) (i 3))

/-- Head `h`'s rectangle of a query or output block places (0, r, 0, d) at (0, r, h, d). -/
theorem rq_emb (h : ℕ) (hh : h < 16)
    (inb : ∀ a, (![0, 0, h, 0] : Fin 4 → ℕ) a + S1x64x1x64.size a ≤ S1x64x16x64.size a) (r d : Fin 64) :
    (Rect.unit (s := S1x64x16x64) ![0, 0, h, 0] S1x64x1x64.size inb).emb (ix4 (0 : Fin 1) r (0 : Fin 1) d)
      = ix4 (0 : Fin 1) r (⟨h, hh⟩ : Fin 16) d := by
  refine funext fun a => Fin.ext ?_
  match a with
  | ⟨0, _⟩ => show 0 + 1 * 0 = 0; omega
  | ⟨1, _⟩ => show 0 + 1 * r.val = r.val; omega
  | ⟨2, _⟩ => show h + 1 * 0 = h; omega
  | ⟨3, _⟩ => show 0 + 1 * d.val = d.val; omega

/-- Head `h`'s rectangle of a key or value block places (0, kk, 0, d) at (0, kk, h, d). -/
theorem rk_emb (h : ℕ) (hh : h < 16)
    (inb : ∀ a, (![0, 0, h, 0] : Fin 4 → ℕ) a + S1x2048x1x64.size a ≤ S1x2048x16x64.size a) (kk : Fin 2048) (d : Fin 64) :
    (Rect.unit (s := S1x2048x16x64) ![0, 0, h, 0] S1x2048x1x64.size inb).emb (ix4 (0 : Fin 1) kk (0 : Fin 1) d)
      = ix4 (0 : Fin 1) kk (⟨h, hh⟩ : Fin 16) d := by
  refine funext fun a => Fin.ext ?_
  match a with
  | ⟨0, _⟩ => show 0 + 1 * 0 = 0; omega
  | ⟨1, _⟩ => show 0 + 1 * kk.val = kk.val; omega
  | ⟨2, _⟩ => show h + 1 * 0 = h; omega
  | ⟨3, _⟩ => show 0 + 1 * d.val = d.val; omega

/-- Head `h`'s piece is head `h`'s slice of the block's function. -/
theorem piece_attn (h : ℕ) (hh : h < 16)
    (inbq : ∀ a, (![0, 0, h, 0] : Fin 4 → ℕ) a + S1x64x1x64.size a ≤ S1x64x16x64.size a)
    (inbk : ∀ a, (![0, 0, h, 0] : Fin 4 → ℕ) a + S1x2048x1x64.size a ≤ S1x2048x16x64.size a)
    (x0 : Vec Ideal S1x64x16x64 .bf16) (x1 x2 : Vec Ideal S1x2048x16x64 .bf16)
    (x : (Rect.unit (s := S1x64x16x64) ![0, 0, h, 0] S1x64x1x64.size inbq).shape.Idx) :
    k3_pay2 (F := Ideal) (View.ld x0 (Rect.unit (s := S1x64x16x64) ![0, 0, h, 0] S1x64x1x64.size inbq))
        (View.ld x1 (Rect.unit (s := S1x2048x16x64) ![0, 0, h, 0] S1x2048x1x64.size inbk))
        (View.ld x2 (Rect.unit (s := S1x2048x16x64) ![0, 0, h, 0] S1x2048x1x64.size inbk)) x
      = blkAttn x0 x1 x2 ((Rect.unit (s := S1x64x16x64) ![0, 0, h, 0] S1x64x1x64.size inbq).emb x) := by
  obtain ⟨u, r, w, d, rfl⟩ : ∃ (u : Fin 1) (r : Fin 64) (w : Fin 1) (d : Fin 64), x = ix4 u r w d :=
    ⟨x 0, x 1, x 2, x 3, eq_ix4 x⟩
  obtain rfl : u = 0 := Subsingleton.elim _ _
  obtain rfl : w = 0 := Subsingleton.elim _ _
  rw [pay_head, rq_emb h hh inbq r d]
  show _ = ∑ kk : Fin 2048,
    Cert.Spec.weightK (fun kk' : Fin 2048 =>
      (∑ dd : Fin 64, x0 (ix4 (0 : Fin 1) r (⟨h, hh⟩ : Fin 16) dd) * x1 (ix4 (0 : Fin 1) kk' (⟨h, hh⟩ : Fin 16) dd))
        * Ideal.ofBits .f32 0x3D000000#32) kk
      * x2 (ix4 (0 : Fin 1) kk (⟨h, hh⟩ : Fin 16) d)
  refine Finset.sum_congr rfl fun kk _ => ?_
  refine congrArg₂ (fun a b : EReal => a * b) ?_ (congrArg x2 (rk_emb h hh inbk kk d))
  refine congrArg (fun s => Cert.Spec.weightK s kk) (funext fun kk' => ?_)
  refine congrArg (fun a : EReal => a * Ideal.ofBits .f32 0x3D000000#32) (Finset.sum_congr rfl fun dd _ => ?_)
  exact congrArg₂ (fun a b : EReal => a * b) (congrArg x0 (rq_emb h hh inbq r dd)) (congrArg x1 (rk_emb h hh inbk kk' dd))

/-- The output block the body leaves is the block's function, at every index. -/
theorem out3_3_eq (x0 : Vec Ideal S1x64x16x64 .bf16) (x1 x2 : Vec Ideal S1x2048x16x64 .bf16) :
    out3_3 (F := Ideal) x0 x1 x2 = blkAttn x0 x1 x2 := by
  funext y
  unfold out3_3
  refine View.canon_apply_of_pieces (Val := Elt Ideal) (S := S1x64x16x64) (e := .bf16) (blkAttn x0 x1 x2) _ ?_ y ?_
  swap
  · exact View.cover_of_tiled (Val := Elt Ideal) (s := S1x64x16x64) (e := .bf16) _ (![1, 64, 1, 64] : Fin 4 → ℕ) (by rfl) y
  intro p hp
  simp only [List.mem_cons, List.not_mem_nil, or_false] at hp
  rcases hp with rfl | rfl | rfl | rfl | rfl | rfl | rfl | rfl | rfl | rfl | rfl | rfl | rfl | rfl | rfl | rfl
  · exact piece_attn 15 (by decide) _ _ x0 x1 x2
  · exact piece_attn 14 (by decide) _ _ x0 x1 x2
  · exact piece_attn 13 (by decide) _ _ x0 x1 x2
  · exact piece_attn 12 (by decide) _ _ x0 x1 x2
  · exact piece_attn 11 (by decide) _ _ x0 x1 x2
  · exact piece_attn 10 (by decide) _ _ x0 x1 x2
  · exact piece_attn 9 (by decide) _ _ x0 x1 x2
  · exact piece_attn 8 (by decide) _ _ x0 x1 x2
  · exact piece_attn 7 (by decide) _ _ x0 x1 x2
  · exact piece_attn 6 (by decide) _ _ x0 x1 x2
  · exact piece_attn 5 (by decide) _ _ x0 x1 x2
  · exact piece_attn 4 (by decide) _ _ x0 x1 x2
  · exact piece_attn 3 (by decide) _ _ x0 x1 x2
  · exact piece_attn 2 (by decide) _ _ x0 x1 x2
  · exact piece_attn 1 (by decide) _ _ x0 x1 x2
  · exact piece_attn 0 (by decide) _ _ x0 x1 x2

/-- The output block at row r, head h, lane d. -/
theorem out3_3_apply (x0 : Vec Ideal S1x64x16x64 .bf16) (x1 x2 : Vec Ideal S1x2048x16x64 .bf16)
    (r : Fin 64) (h : Fin 16) (d : Fin 64) :
    out3_3 (F := Ideal) x0 x1 x2 (ix4 (0 : Fin 1) r h d)
      = ∑ kk : Fin 2048,
          Cert.Spec.weightK (fun kk' : Fin 2048 =>
            (∑ dd : Fin 64, x0 (ix4 (0 : Fin 1) r h dd) * x1 (ix4 (0 : Fin 1) kk' h dd))
              * Ideal.ofBits .f32 0x3D000000#32) kk
            * x2 (ix4 (0 : Fin 1) kk h d) := by
  rw [out3_3_eq]
  rfl

end Cert.KernelIdeal.Hand

end
-- ==== Proof.Val.ValAttn.lean ====
/-
  The attention region's output array after its run, as ONE function of the three arrays the region reads: every
  grid point writes back its block of attention on the head layout, and the blocks fill the array.
-/
import proofs.«119720_j50723563765938_2_alg».proof.Proof.Val.ValAttnBlock
import proofs.«119720_j50723563765938_2_alg».proof.Proof.Val.ArrSpec
import Idealize.ShloMosaic.Lib.Pipeline.Value
import Idealize.ShloMosaic.Lib.Decide

noncomputable section

namespace Cert.KernelIdeal.Hand

open Cert.KernelIdeal Cert.KernelIdeal.Gen Cert.KernelIdeal.Val
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: the query block moves with the output block; the key and value blocks
    follow its batch and stay at the origin otherwise; the output block's batch is below 2 and its tile below 32. -/
theorem idx_facts3 : ∀ t : Fin cfg3.N,
    win3_0.index t (0 : Fin 4) = win3_3.index t (0 : Fin 4) ∧ win3_0.index t (1 : Fin 4) = win3_3.index t (1 : Fin 4)
    ∧ win3_0.index t (2 : Fin 4) = 0 ∧ win3_0.index t (3 : Fin 4) = 0
    ∧ win3_1.index t (0 : Fin 4) = win3_3.index t (0 : Fin 4) ∧ win3_1.index t (1 : Fin 4) = 0
    ∧ win3_1.index t (2 : Fin 4) = 0 ∧ win3_1.index t (3 : Fin 4) = 0
    ∧ win3_2.index t (0 : Fin 4) = win3_3.index t (0 : Fin 4) ∧ win3_2.index t (1 : Fin 4) = 0
    ∧ win3_2.index t (2 : Fin 4) = 0 ∧ win3_2.index t (3 : Fin 4) = 0
    ∧ win3_3.index t (2 : Fin 4) = 0 ∧ win3_3.index t (3 : Fin 4) = 0
    ∧ win3_3.index t (0 : Fin 4) ≤ 1 ∧ win3_3.index t (1 : Fin 4) ≤ 31 :=
  (by decide +kernel : ∀ t : Fin grid3.N, _)

/-- Every (batch, tile) pair is some point's output block. -/
theorem idx_onto3 : ∀ (q0 : Fin 2) (q1 : Fin 32), ∃ t : Fin cfg3.N, win3_3.index t = ![q0.val, q1.val, 0, 0] :=
  (by decide +kernel : ∀ (q0 : Fin 2) (q1 : Fin 32), ∃ t : Fin grid3.N, win3_3.index t = ![q0.val, q1.val, 0, 0])

/-- The query block at point `t`, whose output block is (b, qi): row r of the block is position 64·qi + r of batch b. -/
theorem iblk3_q (c : Dev nD) (t : Fin cfg3.N) (b : Fin 2) (qi : Fin 32)
    (hb : win3_3.index t (0 : Fin 4) = b.val) (hq : win3_3.index t (1 : Fin 4) = qi.val)
    (r : Fin 64) (h : Fin 16) (d : Fin 64) :
    iblk3 V c 0 t (ix4 (0 : Fin 1) r h d)
      = V c main_v10 (ix4 b (⟨qi.val * 64 + r.val, by omega⟩ : Fin 2048) h d) := by
  obtain ⟨e00, e01, e02, e03, -⟩ := idx_facts3 t
  unfold iblk3
  rw [View.read_apply]
  show V c main_v10 _ = V c main_v10 _
  congr 1
  funext a
  apply Fin.ext
  match a with
  | ⟨0, _⟩ => show win3_0.index t (0 : Fin 4) * 1 + 1 * 0 = b.val; omega
  | ⟨1, _⟩ => show win3_0.index t (1 : Fin 4) * 64 + 1 * r.val = qi.val * 64 + r.val; omega
  | ⟨2, _⟩ => show win3_0.index t (2 : Fin 4) * 16 + 1 * h.val = h.val; omega
  | ⟨3, _⟩ => show win3_0.index t (3 : Fin 4) * 64 + 1 * d.val = d.val; omega

/-- The key block at point `t`: all of batch b. -/
theorem iblk3_k (c : Dev nD) (t : Fin cfg3.N) (b : Fin 2) (hb : win3_3.index t (0 : Fin 4) = b.val)
    (kk : Fin 2048) (h : Fin 16) (d : Fin 64) :
    iblk3 V c 1 t (ix4 (0 : Fin 1) kk h d) = V c main_v11 (ix4 b kk h d) := by
  obtain ⟨-, -, -, -, e10, e11, e12, e13, -⟩ := idx_facts3 t
  unfold iblk3
  rw [View.read_apply]
  show V c main_v11 _ = V c main_v11 _
  congr 1
  funext a
  apply Fin.ext
  match a with
  | ⟨0, _⟩ => show win3_1.index t (0 : Fin 4) * 1 + 1 * 0 = b.val; omega
  | ⟨1, _⟩ => show win3_1.index t (1 : Fin 4) * 2048 + 1 * kk.val = kk.val; omega
  | ⟨2, _⟩ => show win3_1.index t (2 : Fin 4) * 16 + 1 * h.val = h.val; omega
  | ⟨3, _⟩ => show win3_1.index t (3 : Fin 4) * 64 + 1 * d.val = d.val; omega

/-- The value block at point `t`: all of batch b. -/
theorem iblk3_v (c : Dev nD) (t : Fin cfg3.N) (b : Fin 2) (hb : win3_3.index t (0 : Fin 4) = b.val)
    (kk : Fin 2048) (h : Fin 16) (d : Fin 64) :
    iblk3 V c 2 t (ix4 (0 : Fin 1) kk h d) = V c main_v12 (ix4 b kk h d) := by
  obtain ⟨-, -, -, -, -, -, -, -, e20, e21, e22, e23, -⟩ := idx_facts3 t
  unfold iblk3
  rw [View.read_apply]
  show V c main_v12 _ = V c main_v12 _
  congr 1
  funext a
  apply Fin.ext
  match a with
  | ⟨0, _⟩ => show win3_2.index t (0 : Fin 4) * 1 + 1 * 0 = b.val; omega
  | ⟨1, _⟩ => show win3_2.index t (1 : Fin 4) * 2048 + 1 * kk.val = kk.val; omega
  | ⟨2, _⟩ => show win3_2.index t (2 : Fin 4) * 16 + 1 * h.val = h.val; omega
  | ⟨3, _⟩ => show win3_2.index t (3 : Fin 4) * 64 + 1 * d.val = d.val; omega

/-- The output block's place in the array at point `t`. -/
theorem oblk3_emb (t : Fin cfg3.N) (b : Fin 2) (qi : Fin 32)
    (hb : win3_3.index t (0 : Fin 4) = b.val) (hq : win3_3.index t (1 : Fin 4) = qi.val)
    (r : Fin 64) (h : Fin 16) (d : Fin 64) :
    ((cfg3.win 3).blk t).view.emb (ix4 (0 : Fin 1) r h d)
      = ix4 b (⟨qi.val * 64 + r.val, by omega⟩ : Fin 2048) h d := by
  obtain ⟨-, -, -, -, -, -, -, -, -, -, -, -, e32, e33, -⟩ := idx_facts3 t
  funext a
  apply Fin.ext
  match a with
  | ⟨0, _⟩ => show win3_3.index t (0 : Fin 4) * 1 + 1 * 0 = b.val; omega
  | ⟨1, _⟩ => show win3_3.index t (1 : Fin 4) * 64 + 1 * r.val = qi.val * 64 + r.val; omega
  | ⟨2, _⟩ => show win3_3.index t (2 : Fin 4) * 16 + 1 * h.val = h.val; omega
  | ⟨3, _⟩ => show win3_3.index t (3 : Fin 4) * 64 + 1 * d.val = d.val; omega

/-- The block's function on blocks that are parts of three arrays is attention of the arrays there: row r of the query
    block being position s of batch b, and the key and value blocks being batch b. -/
theorem blkAttn_eq_attn (x0 : Vec Ideal S1x64x16x64 .bf16) (x1 x2 : Vec Ideal S1x2048x16x64 .bf16)
    (Q K W : Cert.KVal.Heads) (b : Fin 2) (s : Fin 2048) (r : Fin 64) (h : Fin 16) (d : Fin 64)
    (hq : ∀ dd : Fin 64, x0 (ix4 (0 : Fin 1) r h dd) = Q (ix4 b s h dd))
    (hk : ∀ (kk : Fin 2048) (dd : Fin 64), x1 (ix4 (0 : Fin 1) kk h dd) = K (ix4 b kk h dd))
    (hv : ∀ kk : Fin 2048, x2 (ix4 (0 : Fin 1) kk h d) = W (ix4 b kk h d)) :
    blkAttn x0 x1 x2 (ix4 (0 : Fin 1) r h d) = Cert.KVal.attn Q K W (ix4 b s h d) := by
  show (∑ kk : Fin 2048,
      Cert.Spec.weightK (fun kk' : Fin 2048 =>
        (∑ dd : Fin 64, (x0 (ix4 (0 : Fin 1) r h dd) : EReal) * (x1 (ix4 (0 : Fin 1) kk' h dd) : EReal))
          * Ideal.ofBits .f32 0x3D000000#32) kk
        * (x2 (ix4 (0 : Fin 1) kk h d) : EReal))
    = ∑ kk : Fin 2048,
      Cert.Spec.weightK (fun kk' : Fin 2048 =>
        (∑ dd : Fin 64, Q (ix4 b s h dd) * K (ix4 b kk' h dd)) * Ideal.ofBits .f32 0x3D000000#32) kk
        * W (ix4 b kk h d)
  refine Finset.sum_congr rfl fun kk _ => ?_
  refine congrArg₂ (fun a b : EReal => a * b) ?_ (hv kk)
  refine congrArg (fun s => Cert.Spec.weightK s kk) (funext fun kk' => ?_)
  refine congrArg (fun a : EReal => a * Ideal.ofBits .f32 0x3D000000#32) (Finset.sum_congr rfl fun dd _ => ?_)
  exact congrArg₂ (fun a b : EReal => a * b) (hq dd) (hk kk' dd)

/-- What the write-back moves of a block's contents, at (0, r, h, d), is the contents there. -/
theorem cut3_apply (t : Fin cfg3.N) (X : S1x64x16x64.Idx → EReal) (r : Fin 64) (h : Fin 16) (d : Fin 64) :
    (cfg3.win 3).cut (grid3.coords t) X (ix4 (0 : Fin 1) r h d) = X (ix4 (0 : Fin 1) r h d) := rfl

/-- An array read through point `t`'s output block, at (0, r, h, d), is the array at (b, 64·qi + r, h, d). -/
theorem read_oblk3 (c : Dev nD) (G : Buf (Elt Ideal) ((cfg3.win 3).arr.view.loc (c.tc : Thread nD τ))) (t : Fin cfg3.N)
    (b : Fin 2) (qi : Fin 32)
    (hb : win3_3.index t (0 : Fin 4) = b.val) (hq : win3_3.index t (1 : Fin 4) = qi.val)
    (r : Fin 64) (h : Fin 16) (d : Fin 64) :
    ((cfg3.win 3).blk t).view.read (Elt Ideal) G (ix4 (0 : Fin 1) r h d)
      = (G : S2x2048x16x64.Idx → EReal) (ix4 b (⟨qi.val * 64 + r.val, by omega⟩ : Fin 2048) h d) := by
  rw [View.read_apply]
  show (G : S2x2048x16x64.Idx → EReal) _ = (G : S2x2048x16x64.Idx → EReal) _
  exact congrArg _ (oblk3_emb t b qi hb hq r h d)

/-- WHAT POINT `t` WRITES BACK is block `t` of attention of the three arrays as the region finds them. -/
theorem flushed3_eq (c : Dev nD) (t : Fin cfg3.N) :
    (dat3 (F := Ideal) V c).flushed 3 t
      = ((cfg3.win 3).blk t).view.read (Elt Ideal) (Cert.KVal.attn (V c main_v10) (V c main_v11) (V c main_v12)) := by
  show (cfg3.win 3).cut (grid3.coords t) ((dat3 V c).after 3 t) = _
  rw [after3_3, out3_3_eq]
  obtain ⟨-, -, -, -, -, -, -, -, -, -, -, -, -, -, hb1, hq31⟩ := idx_facts3 t
  obtain ⟨b, hb⟩ : ∃ b : Fin 2, win3_3.index t (0 : Fin 4) = b.val := ⟨⟨win3_3.index t (0 : Fin 4), by omega⟩, rfl⟩
  obtain ⟨qi, hq⟩ : ∃ qi : Fin 32, win3_3.index t (1 : Fin 4) = qi.val := ⟨⟨win3_3.index t (1 : Fin 4), by omega⟩, rfl⟩
  funext j
  obtain ⟨u, r, h, d, rfl⟩ : ∃ (u : Fin 1) (r : Fin 64) (h : Fin 16) (d : Fin 64), j = ix4 u r h d :=
    ⟨j 0, j 1, j 2, j 3, eq_ix4 (n0 := 1) (n1 := 64) (n2 := 16) (n3 := 64) j⟩
  obtain rfl : u = 0 := Subsingleton.elim _ _
  refine (cut3_apply t _ r h d).trans ?_
  refine Eq.trans ?_ (read_oblk3 c _ t b qi hb hq r h d).symm
  exact blkAttn_eq_attn _ _ _ _ _ _ b _ r h d (fun dd => iblk3_q V c t b qi hb hq r h dd)
    (fun kk dd => iblk3_k V c t b hb kk h dd) (fun kk => iblk3_v V c t b hb kk h d)

/-- An index of the array is in point `t`'s output block iff each coordinate is in the block's range on its axis. -/
theorem mem_oblk3 (t : Fin cfg3.N) (i : S2x2048x16x64.Idx) :
    i ∈ ((cfg3.win 3).blk t).view.set
      ↔ ∀ a : Fin 4, win3_3.index t a * S1x64x16x64.size a ≤ (i a).val
          ∧ (i a).val < win3_3.index t a * S1x64x16x64.size a + S1x64x16x64.size a := by
  show i ∈ ((View.whole main_v13).slice (win3_3.rect t)).set ↔ _
  rw [View.set_slice_whole, Rect.mem_set_unit]
  exact Iff.rfl

/-- Every index of the array is in some point's output block: position s of batch b in the block (b, s / 64). -/
theorem cover3 (i : S2x2048x16x64.Idx) :
    ∃ t : Fin cfg3.N, (cfg3.win 3).flush t = true ∧ i ∈ ((cfg3.win 3).blk t).view.set := by
  have hi0 : (i 0).val < 2 := (i 0).isLt
  have hi1 : (i 1).val < 2048 := (i 1).isLt
  have hi2 : (i 2).val < 16 := (i 2).isLt
  have hi3 : (i 3).val < 64 := (i 3).isLt
  obtain ⟨t, ht⟩ := idx_onto3 ⟨(i 0).val, hi0⟩ ⟨(i 1).val / 64, by omega⟩
  have q0 : win3_3.index t (0 : Fin 4) = (i 0).val := congrFun ht 0
  have q1 : win3_3.index t (1 : Fin 4) = (i 1).val / 64 := congrFun ht 1
  have q2 : win3_3.index t (2 : Fin 4) = 0 := congrFun ht 2
  have q3 : win3_3.index t (3 : Fin 4) = 0 := congrFun ht 3
  refine ⟨t, flush3_3 t, ?_⟩
  rw [mem_oblk3]
  intro a
  match a with
  | ⟨0, _⟩ => show win3_3.index t (0 : Fin 4) * 1 ≤ (i 0).val ∧ (i 0).val < win3_3.index t (0 : Fin 4) * 1 + 1; omega
  | ⟨1, _⟩ => show win3_3.index t (1 : Fin 4) * 64 ≤ (i 1).val ∧ (i 1).val < win3_3.index t (1 : Fin 4) * 64 + 64; omega
  | ⟨2, _⟩ => show win3_3.index t (2 : Fin 4) * 16 ≤ (i 2).val ∧ (i 2).val < win3_3.index t (2 : Fin 4) * 16 + 16; omega
  | ⟨3, _⟩ => show win3_3.index t (3 : Fin 4) * 64 ≤ (i 3).val ∧ (i 3).val < win3_3.index t (3 : Fin 4) * 64 + 64; omega

/-- THE ARRAY after the region's run: attention, on the head layout, of the three arrays as the region finds them. -/
theorem val_attn (c : Dev nD) :
    (dat3 (F := Ideal) V c).arrAt 3 cfg3.N = Cert.KVal.attn (V c main_v10) (V c main_v11) (V c main_v12) :=
  (dat3 (F := Ideal) V c).arrAt_eq_of_cover 3 (Cert.KVal.attn (V c main_v10) (V c main_v11) (V c main_v12))
    (fun t _ => flushed3_eq V c t) cover3

end Cert.KernelIdeal.Hand

end
-- ==== Proof.Val.Chain.lean ====
/-
  The kernel program's buffers, boundary by boundary, on the extended reals: the activations read as rows, the three
  projections, their reading as heads, attention, its reading back as rows, the output projection with the bias row,
  and the result read back as [2, 2048, 1024]. Each boundary's contents at the buffer the next item reads is the
  previous item's function of what it read; a buffer an item does not write is carried across it unchanged. At the
  return the result buffer holds the dataflow of the eight argument arrays.
-/
import proofs.«119720_j50723563765938_2_alg».proof.Proof.KI.Run
import proofs.«119720_j50723563765938_2_alg».proof.Proof.Val.Compose
import proofs.«119720_j50723563765938_2_alg».proof.Proof.Val.ValLin0
import proofs.«119720_j50723563765938_2_alg».proof.Proof.Val.ValLin1
import proofs.«119720_j50723563765938_2_alg».proof.Proof.Val.ValLin2
import proofs.«119720_j50723563765938_2_alg».proof.Proof.Val.ValLinB
import proofs.«119720_j50723563765938_2_alg».proof.Proof.Val.ValAttn

set_option maxRecDepth 16384

noncomputable section

namespace Cert.KernelIdeal.Hand

open Cert.KernelIdeal Cert.KernelIdeal.Gen
open Idealize.ShloMosaic Idealize.ShloMosaic.TcCoe Idealize.SL.Sem

/-! ## The host stretches, from any contents -/

section Host
variable (X : Valuation τ sig (Elt Ideal))

/-- The first stretch reads the query activations as rows. -/
theorem host0_v0 : StableHlo.after hostOps0 X (Proc.devRef .tc main_v0)
    = shapeCast (⟨2, ![4096, 1024]⟩ : Shape) (X (Proc.devRef .tc main_arg0)) shapeCasts_S2x2048x1024_S4096x1024 := by
  after_results; rfl
/-- … the key activations … -/
theorem host0_v1 : StableHlo.after hostOps0 X (Proc.devRef .tc main_v1)
    = shapeCast (⟨2, ![4096, 1024]⟩ : Shape) (X (Proc.devRef .tc main_arg1)) shapeCasts_S2x2048x1024_S4096x1024 := by
  after_results; rfl
/-- … and the value activations. -/
theorem host0_v2 : StableHlo.after hostOps0 X (Proc.devRef .tc main_v2)
    = shapeCast (⟨2, ![4096, 1024]⟩ : Shape) (X (Proc.devRef .tc main_arg2)) shapeCasts_S2x2048x1024_S4096x1024 := by
  after_results; rfl
/-- A weight's change of format is the identity on the extended reals. -/
theorem host0_v3 : StableHlo.after hostOps0 X (Proc.devRef .tc main_v3) = X (Proc.devRef .tc main_arg3) := by
  after_results; rfl
theorem host0_v4 : StableHlo.after hostOps0 X (Proc.devRef .tc main_v4) = X (Proc.devRef .tc main_arg4) := by
  after_results; rfl
theorem host0_v5 : StableHlo.after hostOps0 X (Proc.devRef .tc main_v5) = X (Proc.devRef .tc main_arg5) := by
  after_results; rfl
theorem host0_v6 : StableHlo.after hostOps0 X (Proc.devRef .tc main_v6) = X (Proc.devRef .tc main_arg6) := by
  after_results; rfl

/-- The second stretch reads each projection as heads. -/
theorem host3_v10 : StableHlo.after hostOps3 X (Proc.devRef .tc main_v10)
    = shapeCast (⟨4, ![2, 2048, 16, 64]⟩ : Shape) (X (Proc.devRef .tc main_v7)) shapeCasts_S4096x1024_S2x2048x16x64 := by
  after_results; rfl
theorem host3_v11 : StableHlo.after hostOps3 X (Proc.devRef .tc main_v11)
    = shapeCast (⟨4, ![2, 2048, 16, 64]⟩ : Shape) (X (Proc.devRef .tc main_v8)) shapeCasts_S4096x1024_S2x2048x16x64 := by
  after_results; rfl
theorem host3_v12 : StableHlo.after hostOps3 X (Proc.devRef .tc main_v12)
    = shapeCast (⟨4, ![2, 2048, 16, 64]⟩ : Shape) (X (Proc.devRef .tc main_v9)) shapeCasts_S4096x1024_S2x2048x16x64 := by
  after_results; rfl

/-- The third stretch reads the context back as rows and the bias as a row. -/
theorem host4_v14 : StableHlo.after hostOps4 X (Proc.devRef .tc main_v14)
    = shapeCast (⟨2, ![4096, 1024]⟩ : Shape) (X (Proc.devRef .tc main_v13)) shapeCasts_S2x2048x16x64_S4096x1024 := by
  after_results; rfl
theorem host4_v15 : StableHlo.after hostOps4 X (Proc.devRef .tc main_v15)
    = shapeCast (⟨2, ![1, 1024]⟩ : Shape) (X (Proc.devRef .tc main_arg7)) shapeCasts_S1024_S1x1024 := by
  after_results; rfl

/-- The last stretch reads the output rows back as [2, 2048, 1024]. -/
theorem host5_v17 : StableHlo.after hostOps5 X (Proc.devRef .tc main_v17)
    = shapeCast (⟨3, ![2, 2048, 1024]⟩ : Shape) (X (Proc.devRef .tc main_v16)) shapeCasts_S4096x1024_S2x2048x1024 := by
  after_results; rfl

end Host

/-! ## Congruences for the array functions -/

theorem attn_congr {q q' k k' v v' : Cert.KVal.Heads} (hq : q = q') (hk : k = k') (hv : v = v') :
    Cert.KVal.attn q k v = Cert.KVal.attn q' k' v' := by subst hq hk hv; rfl
theorem linb_congr {x x' : Cert.KVal.Rows} {w w' : Cert.Spec.Wt} {b b' : Cert.KVal.BiasRow} (hx : x = x') (hw : w = w')
    (hb : b = b') : Cert.KVal.linb x w b = Cert.KVal.linb x' w' b' := by subst hx hw hb; rfl

/-! ## The boundaries, from the launch memory -/

section Chain
variable (m : (ℓ : Loc nD τ sig) → Buf (Elt Ideal) ℓ) (ρ : Dev nD → PrngReg) (c : Dev nD)

/-- After the first stretch: the three activations as rows, the four weights as launched. -/
theorem W1_v0 : W1 (F := Ideal) m ρ c (Proc.devRef .tc main_v0) = (shapeCast (⟨2, ![4096, 1024]⟩ : Shape) (m ((c : Thread nD τ).loc main_arg0)) shapeCasts_S2x2048x1024_S4096x1024) := host0_v0 (W0 m ρ c)
theorem W1_v1 : W1 (F := Ideal) m ρ c (Proc.devRef .tc main_v1) = (shapeCast (⟨2, ![4096, 1024]⟩ : Shape) (m ((c : Thread nD τ).loc main_arg1)) shapeCasts_S2x2048x1024_S4096x1024) := host0_v1 (W0 m ρ c)
theorem W1_v2 : W1 (F := Ideal) m ρ c (Proc.devRef .tc main_v2) = (shapeCast (⟨2, ![4096, 1024]⟩ : Shape) (m ((c : Thread nD τ).loc main_arg2)) shapeCasts_S2x2048x1024_S4096x1024) := host0_v2 (W0 m ρ c)
theorem W1_v3 : W1 (F := Ideal) m ρ c (Proc.devRef .tc main_v3) = (m ((c : Thread nD τ).loc main_arg3)) := host0_v3 (W0 m ρ c)
theorem W1_v4 : W1 (F := Ideal) m ρ c (Proc.devRef .tc main_v4) = (m ((c : Thread nD τ).loc main_arg4)) := host0_v4 (W0 m ρ c)
theorem W1_v5 : W1 (F := Ideal) m ρ c (Proc.devRef .tc main_v5) = (m ((c : Thread nD τ).loc main_arg5)) := host0_v5 (W0 m ρ c)
theorem W1_v6 : W1 (F := Ideal) m ρ c (Proc.devRef .tc main_v6) = (m ((c : Thread nD τ).loc main_arg6)) := host0_v6 (W0 m ρ c)

/-- The query projection. -/
theorem W2_v7 : W2 (F := Ideal) m ρ c (Proc.devRef .tc main_v7) = (Cert.KVal.lin (shapeCast (⟨2, ![4096, 1024]⟩ : Shape) (m ((c : Thread nD τ).loc main_arg0)) shapeCasts_S2x2048x1024_S4096x1024) (m ((c : Thread nD τ).loc main_arg3))) :=
  (W2_arr (F := Ideal) m ρ c 2).trans ((val_lin0 (Vw1 m ρ) c).trans (congrArg₂ Cert.KVal.lin (W1_v0 m ρ c) (W1_v3 m ρ c)))
theorem W2_v1 : W2 (F := Ideal) m ρ c (Proc.devRef .tc main_v1) = (shapeCast (⟨2, ![4096, 1024]⟩ : Shape) (m ((c : Thread nD τ).loc main_arg1)) shapeCasts_S2x2048x1024_S4096x1024) := (W2_of_ne (F := Ideal) m ρ c main_v1 (by decide)).trans (W1_v1 m ρ c)
theorem W2_v4 : W2 (F := Ideal) m ρ c (Proc.devRef .tc main_v4) = (m ((c : Thread nD τ).loc main_arg4)) := (W2_of_ne (F := Ideal) m ρ c main_v4 (by decide)).trans (W1_v4 m ρ c)
theorem W2_v2 : W2 (F := Ideal) m ρ c (Proc.devRef .tc main_v2) = (shapeCast (⟨2, ![4096, 1024]⟩ : Shape) (m ((c : Thread nD τ).loc main_arg2)) shapeCasts_S2x2048x1024_S4096x1024) := (W2_of_ne (F := Ideal) m ρ c main_v2 (by decide)).trans (W1_v2 m ρ c)
theorem W2_v5 : W2 (F := Ideal) m ρ c (Proc.devRef .tc main_v5) = (m ((c : Thread nD τ).loc main_arg5)) := (W2_of_ne (F := Ideal) m ρ c main_v5 (by decide)).trans (W1_v5 m ρ c)
theorem W2_v6 : W2 (F := Ideal) m ρ c (Proc.devRef .tc main_v6) = (m ((c : Thread nD τ).loc main_arg6)) := (W2_of_ne (F := Ideal) m ρ c main_v6 (by decide)).trans (W1_v6 m ρ c)
theorem W2_arg7 : W2 (F := Ideal) m ρ c (Proc.devRef .tc main_arg7) = (m ((c : Thread nD τ).loc main_arg7)) :=
  (W2_of_ne (F := Ideal) m ρ c main_arg7 (by decide)).trans ((StableHlo.after_of_writes_sub hostOps0 _ hostOps0_writes (by decide : main_arg7 ∉ hostOps0_W)).trans rfl)

/-- The key projection. -/
theorem W3_v8 : W3 (F := Ideal) m ρ c (Proc.devRef .tc main_v8) = (Cert.KVal.lin (shapeCast (⟨2, ![4096, 1024]⟩ : Shape) (m ((c : Thread nD τ).loc main_arg1)) shapeCasts_S2x2048x1024_S4096x1024) (m ((c : Thread nD τ).loc main_arg4))) :=
  (W3_arr (F := Ideal) m ρ c 2).trans ((val_lin1 (Vw2 m ρ) c).trans (congrArg₂ Cert.KVal.lin (W2_v1 m ρ c) (W2_v4 m ρ c)))
theorem W3_v7 : W3 (F := Ideal) m ρ c (Proc.devRef .tc main_v7) = (Cert.KVal.lin (shapeCast (⟨2, ![4096, 1024]⟩ : Shape) (m ((c : Thread nD τ).loc main_arg0)) shapeCasts_S2x2048x1024_S4096x1024) (m ((c : Thread nD τ).loc main_arg3))) := (W3_of_ne (F := Ideal) m ρ c main_v7 (by decide)).trans (W2_v7 m ρ c)
theorem W3_v2 : W3 (F := Ideal) m ρ c (Proc.devRef .tc main_v2) = (shapeCast (⟨2, ![4096, 1024]⟩ : Shape) (m ((c : Thread nD τ).loc main_arg2)) shapeCasts_S2x2048x1024_S4096x1024) := (W3_of_ne (F := Ideal) m ρ c main_v2 (by decide)).trans (W2_v2 m ρ c)
theorem W3_v5 : W3 (F := Ideal) m ρ c (Proc.devRef .tc main_v5) = (m ((c : Thread nD τ).loc main_arg5)) := (W3_of_ne (F := Ideal) m ρ c main_v5 (by decide)).trans (W2_v5 m ρ c)
theorem W3_v6 : W3 (F := Ideal) m ρ c (Proc.devRef .tc main_v6) = (m ((c : Thread nD τ).loc main_arg6)) := (W3_of_ne (F := Ideal) m ρ c main_v6 (by decide)).trans (W2_v6 m ρ c)
theorem W3_arg7 : W3 (F := Ideal) m ρ c (Proc.devRef .tc main_arg7) = (m ((c : Thread nD τ).loc main_arg7)) := (W3_of_ne (F := Ideal) m ρ c main_arg7 (by decide)).trans (W2_arg7 m ρ c)

/-- The value projection. -/
theorem W4_v9 : W4 (F := Ideal) m ρ c (Proc.devRef .tc main_v9) = (Cert.KVal.lin (shapeCast (⟨2, ![4096, 1024]⟩ : Shape) (m ((c : Thread nD τ).loc main_arg2)) shapeCasts_S2x2048x1024_S4096x1024) (m ((c : Thread nD τ).loc main_arg5))) :=
  (W4_arr (F := Ideal) m ρ c 2).trans ((val_lin2 (Vw3 m ρ) c).trans (congrArg₂ Cert.KVal.lin (W3_v2 m ρ c) (W3_v5 m ρ c)))
theorem W4_v7 : W4 (F := Ideal) m ρ c (Proc.devRef .tc main_v7) = (Cert.KVal.lin (shapeCast (⟨2, ![4096, 1024]⟩ : Shape) (m ((c : Thread nD τ).loc main_arg0)) shapeCasts_S2x2048x1024_S4096x1024) (m ((c : Thread nD τ).loc main_arg3))) := (W4_of_ne (F := Ideal) m ρ c main_v7 (by decide)).trans (W3_v7 m ρ c)
theorem W4_v8 : W4 (F := Ideal) m ρ c (Proc.devRef .tc main_v8) = (Cert.KVal.lin (shapeCast (⟨2, ![4096, 1024]⟩ : Shape) (m ((c : Thread nD τ).loc main_arg1)) shapeCasts_S2x2048x1024_S4096x1024) (m ((c : Thread nD τ).loc main_arg4))) := (W4_of_ne (F := Ideal) m ρ c main_v8 (by decide)).trans (W3_v8 m ρ c)
theorem W4_v6 : W4 (F := Ideal) m ρ c (Proc.devRef .tc main_v6) = (m ((c : Thread nD τ).loc main_arg6)) := (W4_of_ne (F := Ideal) m ρ c main_v6 (by decide)).trans (W3_v6 m ρ c)
theorem W4_arg7 : W4 (F := Ideal) m ρ c (Proc.devRef .tc main_arg7) = (m ((c : Thread nD τ).loc main_arg7)) := (W4_of_ne (F := Ideal) m ρ c main_arg7 (by decide)).trans (W3_arg7 m ρ c)

/-- The projections as heads. -/
theorem W5_v10 : W5 (F := Ideal) m ρ c (Proc.devRef .tc main_v10) = (shapeCast (⟨4, ![2, 2048, 16, 64]⟩ : Shape) (Cert.KVal.lin (shapeCast (⟨2, ![4096, 1024]⟩ : Shape) (m ((c : Thread nD τ).loc main_arg0)) shapeCasts_S2x2048x1024_S4096x1024) (m ((c : Thread nD τ).loc main_arg3))) shapeCasts_S4096x1024_S2x2048x16x64) :=
  (host3_v10 (W4 m ρ c)).trans (congrArg (fun z : Cert.KVal.Rows => shapeCast (⟨4, ![2, 2048, 16, 64]⟩ : Shape) z shapeCasts_S4096x1024_S2x2048x16x64) (W4_v7 m ρ c))
theorem W5_v11 : W5 (F := Ideal) m ρ c (Proc.devRef .tc main_v11) = (shapeCast (⟨4, ![2, 2048, 16, 64]⟩ : Shape) (Cert.KVal.lin (shapeCast (⟨2, ![4096, 1024]⟩ : Shape) (m ((c : Thread nD τ).loc main_arg1)) shapeCasts_S2x2048x1024_S4096x1024) (m ((c : Thread nD τ).loc main_arg4))) shapeCasts_S4096x1024_S2x2048x16x64) :=
  (host3_v11 (W4 m ρ c)).trans (congrArg (fun z : Cert.KVal.Rows => shapeCast (⟨4, ![2, 2048, 16, 64]⟩ : Shape) z shapeCasts_S4096x1024_S2x2048x16x64) (W4_v8 m ρ c))
theorem W5_v12 : W5 (F := Ideal) m ρ c (Proc.devRef .tc main_v12) = (shapeCast (⟨4, ![2, 2048, 16, 64]⟩ : Shape) (Cert.KVal.lin (shapeCast (⟨2, ![4096, 1024]⟩ : Shape) (m ((c : Thread nD τ).loc main_arg2)) shapeCasts_S2x2048x1024_S4096x1024) (m ((c : Thread nD τ).loc main_arg5))) shapeCasts_S4096x1024_S2x2048x16x64) :=
  (host3_v12 (W4 m ρ c)).trans (congrArg (fun z : Cert.KVal.Rows => shapeCast (⟨4, ![2, 2048, 16, 64]⟩ : Shape) z shapeCasts_S4096x1024_S2x2048x16x64) (W4_v9 m ρ c))
theorem W5_v6 : W5 (F := Ideal) m ρ c (Proc.devRef .tc main_v6) = (m ((c : Thread nD τ).loc main_arg6)) := (StableHlo.after_of_writes_sub hostOps3 _ hostOps3_writes (by decide : main_v6 ∉ hostOps3_W)).trans (W4_v6 m ρ c)
theorem W5_arg7 : W5 (F := Ideal) m ρ c (Proc.devRef .tc main_arg7) = (m ((c : Thread nD τ).loc main_arg7)) := (StableHlo.after_of_writes_sub hostOps3 _ hostOps3_writes (by decide : main_arg7 ∉ hostOps3_W)).trans (W4_arg7 m ρ c)

/-- Attention. -/
theorem W6_v13 : W6 (F := Ideal) m ρ c (Proc.devRef .tc main_v13) = (Cert.KVal.attn (shapeCast (⟨4, ![2, 2048, 16, 64]⟩ : Shape) (Cert.KVal.lin (shapeCast (⟨2, ![4096, 1024]⟩ : Shape) (m ((c : Thread nD τ).loc main_arg0)) shapeCasts_S2x2048x1024_S4096x1024) (m ((c : Thread nD τ).loc main_arg3))) shapeCasts_S4096x1024_S2x2048x16x64) (shapeCast (⟨4, ![2, 2048, 16, 64]⟩ : Shape) (Cert.KVal.lin (shapeCast (⟨2, ![4096, 1024]⟩ : Shape) (m ((c : Thread nD τ).loc main_arg1)) shapeCasts_S2x2048x1024_S4096x1024) (m ((c : Thread nD τ).loc main_arg4))) shapeCasts_S4096x1024_S2x2048x16x64) (shapeCast (⟨4, ![2, 2048, 16, 64]⟩ : Shape) (Cert.KVal.lin (shapeCast (⟨2, ![4096, 1024]⟩ : Shape) (m ((c : Thread nD τ).loc main_arg2)) shapeCasts_S2x2048x1024_S4096x1024) (m ((c : Thread nD τ).loc main_arg5))) shapeCasts_S4096x1024_S2x2048x16x64)) :=
  (W6_arr (F := Ideal) m ρ c 3).trans ((val_attn (Vw5 m ρ) c).trans (attn_congr (W5_v10 m ρ c) (W5_v11 m ρ c) (W5_v12 m ρ c)))
theorem W6_v6 : W6 (F := Ideal) m ρ c (Proc.devRef .tc main_v6) = (m ((c : Thread nD τ).loc main_arg6)) := (W6_of_ne (F := Ideal) m ρ c main_v6 (by decide)).trans (W5_v6 m ρ c)
theorem W6_arg7 : W6 (F := Ideal) m ρ c (Proc.devRef .tc main_arg7) = (m ((c : Thread nD τ).loc main_arg7)) := (W6_of_ne (F := Ideal) m ρ c main_arg7 (by decide)).trans (W5_arg7 m ρ c)

/-- The context as rows, the bias as a row, the output weight as launched. -/
theorem W7_v14 : W7 (F := Ideal) m ρ c (Proc.devRef .tc main_v14) = (shapeCast (⟨2, ![4096, 1024]⟩ : Shape) (Cert.KVal.attn (shapeCast (⟨4, ![2, 2048, 16, 64]⟩ : Shape) (Cert.KVal.lin (shapeCast (⟨2, ![4096, 1024]⟩ : Shape) (m ((c : Thread nD τ).loc main_arg0)) shapeCasts_S2x2048x1024_S4096x1024) (m ((c : Thread nD τ).loc main_arg3))) shapeCasts_S4096x1024_S2x2048x16x64) (shapeCast (⟨4, ![2, 2048, 16, 64]⟩ : Shape) (Cert.KVal.lin (shapeCast (⟨2, ![4096, 1024]⟩ : Shape) (m ((c : Thread nD τ).loc main_arg1)) shapeCasts_S2x2048x1024_S4096x1024) (m ((c : Thread nD τ).loc main_arg4))) shapeCasts_S4096x1024_S2x2048x16x64) (shapeCast (⟨4, ![2, 2048, 16, 64]⟩ : Shape) (Cert.KVal.lin (shapeCast (⟨2, ![4096, 1024]⟩ : Shape) (m ((c : Thread nD τ).loc main_arg2)) shapeCasts_S2x2048x1024_S4096x1024) (m ((c : Thread nD τ).loc main_arg5))) shapeCasts_S4096x1024_S2x2048x16x64)) shapeCasts_S2x2048x16x64_S4096x1024) :=
  (host4_v14 (W6 m ρ c)).trans (congrArg (fun z : Cert.KVal.Heads => shapeCast (⟨2, ![4096, 1024]⟩ : Shape) z shapeCasts_S2x2048x16x64_S4096x1024) (W6_v13 m ρ c))
theorem W7_v15 : W7 (F := Ideal) m ρ c (Proc.devRef .tc main_v15) = (shapeCast (⟨2, ![1, 1024]⟩ : Shape) (m ((c : Thread nD τ).loc main_arg7)) shapeCasts_S1024_S1x1024) :=
  (host4_v15 (W6 m ρ c)).trans (congrArg (fun z : Cert.Spec.Bias => shapeCast (⟨2, ![1, 1024]⟩ : Shape) z shapeCasts_S1024_S1x1024) (W6_arg7 m ρ c))
theorem W7_v6 : W7 (F := Ideal) m ρ c (Proc.devRef .tc main_v6) = (m ((c : Thread nD τ).loc main_arg6)) := (StableHlo.after_of_writes_sub hostOps4 _ hostOps4_writes (by decide : main_v6 ∉ hostOps4_W)).trans (W6_v6 m ρ c)

/-- The output projection with its bias. -/
theorem W8_v16 : W8 (F := Ideal) m ρ c (Proc.devRef .tc main_v16) = (Cert.KVal.linb (shapeCast (⟨2, ![4096, 1024]⟩ : Shape) (Cert.KVal.attn (shapeCast (⟨4, ![2, 2048, 16, 64]⟩ : Shape) (Cert.KVal.lin (shapeCast (⟨2, ![4096, 1024]⟩ : Shape) (m ((c : Thread nD τ).loc main_arg0)) shapeCasts_S2x2048x1024_S4096x1024) (m ((c : Thread nD τ).loc main_arg3))) shapeCasts_S4096x1024_S2x2048x16x64) (shapeCast (⟨4, ![2, 2048, 16, 64]⟩ : Shape) (Cert.KVal.lin (shapeCast (⟨2, ![4096, 1024]⟩ : Shape) (m ((c : Thread nD τ).loc main_arg1)) shapeCasts_S2x2048x1024_S4096x1024) (m ((c : Thread nD τ).loc main_arg4))) shapeCasts_S4096x1024_S2x2048x16x64) (shapeCast (⟨4, ![2, 2048, 16, 64]⟩ : Shape) (Cert.KVal.lin (shapeCast (⟨2, ![4096, 1024]⟩ : Shape) (m ((c : Thread nD τ).loc main_arg2)) shapeCasts_S2x2048x1024_S4096x1024) (m ((c : Thread nD τ).loc main_arg5))) shapeCasts_S4096x1024_S2x2048x16x64)) shapeCasts_S2x2048x16x64_S4096x1024) (m ((c : Thread nD τ).loc main_arg6)) (shapeCast (⟨2, ![1, 1024]⟩ : Shape) (m ((c : Thread nD τ).loc main_arg7)) shapeCasts_S1024_S1x1024)) :=
  (W8_arr (F := Ideal) m ρ c 3).trans ((val_linb (Vw7 m ρ) c).trans (linb_congr (W7_v14 m ρ c) (W7_v6 m ρ c) (W7_v15 m ρ c)))

/-- At the return the result buffer holds the dataflow of the argument arrays. -/
theorem W9_v17 : W9 (F := Ideal) m ρ c (Proc.devRef .tc main_v17) = (shapeCast (⟨3, ![2, 2048, 1024]⟩ : Shape) (Cert.KVal.linb (shapeCast (⟨2, ![4096, 1024]⟩ : Shape) (Cert.KVal.attn (shapeCast (⟨4, ![2, 2048, 16, 64]⟩ : Shape) (Cert.KVal.lin (shapeCast (⟨2, ![4096, 1024]⟩ : Shape) (m ((c : Thread nD τ).loc main_arg0)) shapeCasts_S2x2048x1024_S4096x1024) (m ((c : Thread nD τ).loc main_arg3))) shapeCasts_S4096x1024_S2x2048x16x64) (shapeCast (⟨4, ![2, 2048, 16, 64]⟩ : Shape) (Cert.KVal.lin (shapeCast (⟨2, ![4096, 1024]⟩ : Shape) (m ((c : Thread nD τ).loc main_arg1)) shapeCasts_S2x2048x1024_S4096x1024) (m ((c : Thread nD τ).loc main_arg4))) shapeCasts_S4096x1024_S2x2048x16x64) (shapeCast (⟨4, ![2, 2048, 16, 64]⟩ : Shape) (Cert.KVal.lin (shapeCast (⟨2, ![4096, 1024]⟩ : Shape) (m ((c : Thread nD τ).loc main_arg2)) shapeCasts_S2x2048x1024_S4096x1024) (m ((c : Thread nD τ).loc main_arg5))) shapeCasts_S4096x1024_S2x2048x16x64)) shapeCasts_S2x2048x16x64_S4096x1024) (m ((c : Thread nD τ).loc main_arg6)) (shapeCast (⟨2, ![1, 1024]⟩ : Shape) (m ((c : Thread nD τ).loc main_arg7)) shapeCasts_S1024_S1x1024)) shapeCasts_S4096x1024_S2x2048x1024) :=
  (host5_v17 (W8 m ρ c)).trans (congrArg (fun z : Cert.KVal.Rows => shapeCast (⟨3, ![2, 2048, 1024]⟩ : Shape) z shapeCasts_S4096x1024_S2x2048x1024) (W8_v16 m ρ c))

end Chain

/-- THE KERNEL'S RESULT: at the return the result buffer holds the dataflow of the eight argument arrays. -/
theorem W9_out (m : (ℓ : Loc nD τ sig) → Buf (Elt Ideal) ℓ) (ρ : Dev nD → PrngReg) (c : Dev nD) :
    W9 (F := Ideal) m ρ c (Proc.devRef .tc main_v17)
      = Cert.KVal.flow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
          shapeCasts_S2x2048x1024_S4096x1024 shapeCasts_S4096x1024_S2x2048x16x64 shapeCasts_S2x2048x16x64_S4096x1024 shapeCasts_S1024_S1x1024 shapeCasts_S4096x1024_S2x2048x1024 :=
  W9_v17 m ρ c

end Cert.KernelIdeal.Hand

end
-- ==== Proof.SpecAlg.lean ====
/-
  The two statements of the softmax weight in the specification agree on real-valued queries, keys and
  their two weight matrices: there every score is a real number, the row maximum is attained and real, every
  exponential is a positive real, the row sum is a positive real, and division by a nonzero real is the
  product with its reciprocal.
-/
import proofs.«119720_j50723563765938_2_alg».proof.Proof.Spec
import Mathlib.Data.Finset.Fold
import Mathlib.Algebra.Order.BigOperators.Group.Finset

noncomputable section

namespace Cert.Spec

open Idealize.ShloMosaic

/-! ### Real values among the extended reals -/

/-- A product of two reals is a real. -/
theorem real_mul {x y : EReal} (hx : ∃ a : ℝ, x = (a : EReal)) (hy : ∃ b : ℝ, y = (b : EReal)) :
    ∃ c : ℝ, x * y = (c : EReal) := by
  obtain ⟨a, rfl⟩ := hx
  obtain ⟨b, rfl⟩ := hy
  exact ⟨a * b, (EReal.coe_mul a b).symm⟩

/-- A finite sum of reals, taken among the extended reals, is the real sum. -/
theorem coe_sum {ι : Type} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- A finite sum of reals is a real. -/
theorem real_sum {ι : Type} (s : Finset ι) (f : ι → EReal) (hf : ∀ i, ∃ a : ℝ, f i = (a : EReal)) :
    ∃ c : ℝ, ∑ i ∈ s, f i = (c : EReal) := by
  choose g hg using hf
  exact ⟨∑ i ∈ s, g i, by rw [← coe_sum]; exact Finset.sum_congr rfl fun i _ => hg i⟩

/-! ### The three constants -/

/-- The word 0x3F800000 is the number one: 2²³ · 2⁻²³. -/
theorem ofBits_one_f32 : Ideal.ofBits .f32 0x3F800000#32 = 1 := by
  simp [Ideal.ofBits, Ideal.ieee]
  rw [← EReal.coe_mul]
  norm_num

/-- The word 0xFF800000 is −∞. -/
theorem ofBits_neg_inf_f32 : Ideal.ofBits .f32 0xFF800000#32 = ⊥ := by
  simp [Ideal.ofBits, Ideal.ieee]

/-- The scale 2⁻⁵, the word 0x3D000000, is a real: its exponent field is neither all ones nor zero. -/
theorem ofBits_scale_real : ∃ c : ℝ, Ideal.ofBits .f32 0x3D000000#32 = (c : EReal) := by
  show ∃ c : ℝ, Ideal.ieee 8 23 (0x3D000000#32 : BitVec 32) = (c : EReal)
  unfold Ideal.ieee
  dsimp only
  rw [if_neg (by decide), if_neg (by decide)]
  exact ⟨_, rfl⟩

/-! ### Projections and scores of real inputs are real -/

/-- A projection of a real activation by a real weight matrix is real. -/
theorem proj_real (x : Act) (w : Wt) (hx : ∀ i, ∃ a : ℝ, x i = (a : EReal)) (hw : ∀ i, ∃ a : ℝ, w i = (a : EReal))
    (b : Fin 2) (s : Fin 2048) (e : Fin 1024) : ∃ a : ℝ, proj x w b s e = (a : EReal) := by
  unfold proj
  exact real_sum _ _ fun d => real_mul (hx _) (hw _)

/-- A score of real projections is real. -/
theorem score_real (Q K : Proj) (hQ : ∀ b s e, ∃ a : ℝ, Q b s e = (a : EReal))
    (hK : ∀ b s e, ∃ a : ℝ, K b s e = (a : EReal)) (b : Fin 2) (h : Fin 16) (q k : Fin 2048) :
    ∃ a : ℝ, score Q K b h q k = (a : EReal) := by
  unfold score
  exact real_mul (real_sum _ _ fun d => real_mul (hQ _ _ _) (hK _ _ _)) ofBits_scale_real

/-! ### The softmax of a row of reals -/

/-- The row maximum is attained: it is the value at some position, and that value bounds every other. -/
theorem rowMax_attained (r : Fin 2048 → EReal) : ∃ k₀, rowMax r = r k₀ ∧ ∀ k, r k ≤ r k₀ := by
  obtain ⟨k₀, -, hk₀⟩ :=
    Finset.exists_max_image (Finset.univ : Finset (Fin 2048)) r ⟨0, Finset.mem_univ _⟩
  refine ⟨k₀, le_antisymm ?_ ?_, fun k => hk₀ k (Finset.mem_univ k)⟩
  · unfold rowMax
    rw [ofBits_neg_inf_f32]
    exact (Finset.fold_max_le _).mpr ⟨bot_le, fun x hx => hk₀ x hx⟩
  · unfold rowMax
    exact (Finset.le_fold_max _).mpr (Or.inr ⟨k₀, Finset.mem_univ _, le_rfl⟩)

/-- On a row of reals every exponential is a positive real: the exponential of a difference of two reals. -/
theorem expo_real (r : Fin 2048 → EReal) (hr : ∀ k, ∃ x : ℝ, r k = (x : EReal)) (k : Fin 2048) :
    ∃ y : ℝ, 0 < y ∧ expo r k = (y : EReal) := by
  obtain ⟨k₀, hmax, -⟩ := rowMax_attained r
  obtain ⟨m, hm⟩ := hr k₀
  obtain ⟨x, hx⟩ := hr k
  refine ⟨Real.exp (x - m), Real.exp_pos _, ?_⟩
  unfold expo
  rw [hmax, hm, hx, ← EReal.coe_sub]
  exact Ideal.exp_coe _

/-- On a row of reals the row sum of the exponentials is a positive real. -/
theorem denom_real (r : Fin 2048 → EReal) (hr : ∀ k, ∃ x : ℝ, r k = (x : EReal)) :
    ∃ D : ℝ, 0 < D ∧ denom r = (D : EReal) := by
  choose y hy using expo_real r hr
  refine ⟨∑ k, y k, Finset.sum_pos (fun k _ => (hy k).1) ⟨0, Finset.mem_univ _⟩, ?_⟩
  unfold denom
  rw [← coe_sum]
  exact Finset.sum_congr rfl fun k _ => (hy k).2

/-- On a row of reals the two forms of the softmax weight agree: the row sum is a nonzero real, and dividing by a
    nonzero real is multiplying by its reciprocal. -/
theorem weightK_eq_weight (r : Fin 2048 → EReal) (hr : ∀ k, ∃ x : ℝ, r k = (x : EReal)) (k : Fin 2048) :
    weightK r k = weight r k := by
  obtain ⟨D, hD, hden⟩ := denom_real r hr
  unfold weightK weight
  rw [hden, ofBits_one_f32, Ideal.div_coe hD.ne', Ideal.div_coe hD.ne', one_mul]

/-! ### The whole attention -/

/-- The contexts of real queries and keys agree for the two forms of the weight. -/
theorem ctx_weightK_eq (Q K V : Proj) (hQ : ∀ b s e, ∃ a : ℝ, Q b s e = (a : EReal))
    (hK : ∀ b s e, ∃ a : ℝ, K b s e = (a : EReal)) : ctx weightK Q K V = ctx weight Q K V := by
  funext b q e
  unfold ctx
  refine Finset.sum_congr rfl fun k _ => ?_
  rw [weightK_eq_weight _ (fun k' => score_real Q K hQ hK b (headOf e) q k') k]

/-- Multi-head attention with the weight as a product with the reciprocal of the row sum is multi-head attention
    with the weight as a quotient, on real queries, keys and their two weight matrices. -/
theorem mha_weightK_eq (query key value : Act) (Wq Wk Wv Wo : Wt) (bo : Bias)
    (hq : ∀ i, ∃ r : ℝ, query i = (r : EReal)) (hk : ∀ i, ∃ r : ℝ, key i = (r : EReal))
    (hWq : ∀ i, ∃ r : ℝ, Wq i = (r : EReal)) (hWk : ∀ i, ∃ r : ℝ, Wk i = (r : EReal)) :
    mha weightK query key value Wq Wk Wv Wo bo = mha weight query key value Wq Wk Wv Wo bo := by
  unfold mha
  rw [ctx_weightK_eq _ _ _ (proj_real query Wq hq hWq) (proj_real key Wk hk hWk)]

end Cert.Spec

end
-- ==== Proof.Ref.Proj.lean ====
/-
  The reference's three input projections read at an index: each is the sum over the model axis of the input
  row against the weight row, and its split into 16 heads of width 64 followed by the exchange of the head and
  position axes reads the projection at model column 64h + d.
-/
import proofs.«119720_j50723563765938_2_alg».proof.Proof.Gen.ReferenceIdeal.Read
import proofs.«119720_j50723563765938_2_alg».proof.Proof.Spec

noncomputable section

namespace Cert.ReferenceIdeal.RefValue

open Cert.ReferenceIdeal Cert.ReferenceIdeal.Read Idealize.ShloMosaic Idealize.ShloMosaic.ValueIdx

/-- The contents of a [2, 2048, 1024] buffer on the extended reals. -/
abbrev ActC : Type := (⟨S2x2048x1024, .f32⟩ : BufTy).Contents (Elt Ideal)
/-- The contents of a [1024, 1024] buffer. -/
abbrev WtC : Type := (⟨S1024x1024, .f32⟩ : BufTy).Contents (Elt Ideal)
/-- The contents of a [1024] buffer. -/
abbrev BiasC : Type := (⟨S1024, .f32⟩ : BufTy).Contents (Elt Ideal)

/-- The query projection at (b, s, e) is the row of the input against row e of the weight. -/
theorem v0_at (x : ActC) (w : WtC) (b : Fin 2) (s : Fin 2048) (e : Fin 1024) :
    val_main_v0 (F := Ideal) x w (ix3 b s e) = Cert.Spec.proj x w b s e := by
  rw [val_main_v0_apply]
  unfold Cert.Spec.proj
  refine Finset.sum_congr rfl fun k _ => ?_
  have el : lidx_main_v0 (ix3 b s e) k = ix3 b s k :=
    funext fun a => Fin.ext (by match a with | ⟨0, _⟩ => rfl | ⟨1, _⟩ => rfl | ⟨2, _⟩ => rfl)
  have er : ridx_main_v0 (ix3 b s e) k = ix2 e k :=
    funext fun a => Fin.ext (by match a with | ⟨0, _⟩ => rfl | ⟨1, _⟩ => rfl)
  rw [el, er]

/-- The key projection at (b, s, e) is the row of the input against row e of the weight. -/
theorem v1_at (x : ActC) (w : WtC) (b : Fin 2) (s : Fin 2048) (e : Fin 1024) :
    val_main_v1 (F := Ideal) x w (ix3 b s e) = Cert.Spec.proj x w b s e := by
  rw [val_main_v1_apply]
  unfold Cert.Spec.proj
  refine Finset.sum_congr rfl fun k _ => ?_
  have el : lidx_main_v1 (ix3 b s e) k = ix3 b s k :=
    funext fun a => Fin.ext (by match a with | ⟨0, _⟩ => rfl | ⟨1, _⟩ => rfl | ⟨2, _⟩ => rfl)
  have er : ridx_main_v1 (ix3 b s e) k = ix2 e k :=
    funext fun a => Fin.ext (by match a with | ⟨0, _⟩ => rfl | ⟨1, _⟩ => rfl)
  rw [el, er]

/-- The value projection at (b, s, e) is the row of the input against row e of the weight. -/
theorem v2_at (x : ActC) (w : WtC) (b : Fin 2) (s : Fin 2048) (e : Fin 1024) :
    val_main_v2 (F := Ideal) x w (ix3 b s e) = Cert.Spec.proj x w b s e := by
  rw [val_main_v2_apply]
  unfold Cert.Spec.proj
  refine Finset.sum_congr rfl fun k _ => ?_
  have el : lidx_main_v2 (ix3 b s e) k = ix3 b s k :=
    funext fun a => Fin.ext (by match a with | ⟨0, _⟩ => rfl | ⟨1, _⟩ => rfl | ⟨2, _⟩ => rfl)
  have er : ridx_main_v2 (ix3 b s e) k = ix2 e k :=
    funext fun a => Fin.ext (by match a with | ⟨0, _⟩ => rfl | ⟨1, _⟩ => rfl)
  rw [el, er]

/-- Split into heads and transposed: the entry (b, h, s, d) is the projection at (b, s, 64h + d). -/
theorem v4_at (x : ActC) (w : WtC) (b : Fin 2) (h : Fin 16) (s : Fin 2048) (d : Fin 64) :
    val_main_v4 (F := Ideal) x w (ix4 b h s d) = Cert.Spec.proj x w b s (Cert.Spec.col h d) := by
  rw [val_main_v4_apply, val_main_v3_apply]
  have e : idx_main_v3 (idx_main_v4 (ix4 b h s d)) = ix3 b s (Cert.Spec.col h d) := funext fun a => Fin.ext (by
    have hb := b.isLt; have hh := h.isLt; have hs := s.isLt; have hd := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => show (((b.val * 2048 + s.val) * 16 + h.val) * 64 + d.val) % 1024 = 64 * h.val + d.val; omega)
  rw [e, v0_at]

/-- Split into heads and transposed: the entry (b, h, s, d) is the projection at (b, s, 64h + d). -/
theorem v6_at (x : ActC) (w : WtC) (b : Fin 2) (h : Fin 16) (s : Fin 2048) (d : Fin 64) :
    val_main_v6 (F := Ideal) x w (ix4 b h s d) = Cert.Spec.proj x w b s (Cert.Spec.col h d) := by
  rw [val_main_v6_apply, val_main_v5_apply]
  have e : idx_main_v5 (idx_main_v6 (ix4 b h s d)) = ix3 b s (Cert.Spec.col h d) := funext fun a => Fin.ext (by
    have hb := b.isLt; have hh := h.isLt; have hs := s.isLt; have hd := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => show (((b.val * 2048 + s.val) * 16 + h.val) * 64 + d.val) % 1024 = 64 * h.val + d.val; omega)
  rw [e, v1_at]

/-- Split into heads and transposed: the entry (b, h, s, d) is the projection at (b, s, 64h + d). -/
theorem v8_at (x : ActC) (w : WtC) (b : Fin 2) (h : Fin 16) (s : Fin 2048) (d : Fin 64) :
    val_main_v8 (F := Ideal) x w (ix4 b h s d) = Cert.Spec.proj x w b s (Cert.Spec.col h d) := by
  rw [val_main_v8_apply, val_main_v7_apply]
  have e : idx_main_v7 (idx_main_v8 (ix4 b h s d)) = ix3 b s (Cert.Spec.col h d) := funext fun a => Fin.ext (by
    have hb := b.isLt; have hh := h.isLt; have hs := s.isLt; have hd := d.isLt
    match a with
    | ⟨0, _⟩ => show (((b.val * 2048 + s.val) * 16 + h.val) * 64 + d.val) / 2097152 = b.val; omega
    | ⟨1, _⟩ => show (((b.val * 2048 + s.val) * 16 + h.val) * 64 + d.val) / 1024 % 2048 = s.val; omega
    | ⟨2, _⟩ => show (((b.val * 2048 + s.val) * 16 + h.val) * 64 + d.val) % 1024 = 64 * h.val + d.val; omega)
  rw [e, v2_at]

end Cert.ReferenceIdeal.RefValue

end
-- ==== Proof.Ref.Scores.lean ====
/-
  The reference's scaled scores read at an index: the entry (b, h, q, k) is the sum over the head's 64 columns of
  the query projection at position q against the key projection at position k, times 2⁻⁵.
-/
import proofs.«119720_j50723563765938_2_alg».proof.Proof.Ref.Proj

noncomputable section

namespace Cert.ReferenceIdeal.RefValue

open Cert.ReferenceIdeal Cert.ReferenceIdeal.Read Idealize.ShloMosaic Idealize.ShloMosaic.ValueIdx

/-- The scaled score at (b, h, q, k). -/
theorem v11_at (x0 x1 : ActC) (x3 x4 : WtC) (b : Fin 2) (h : Fin 16) (q k : Fin 2048) :
    val_main_v11 (F := Ideal) x0 x1 x3 x4 (ix4 b h q k)
      = Cert.Spec.score (Cert.Spec.proj x0 x3) (Cert.Spec.proj x1 x4) b h q k := by
  rw [val_main_v11_apply, val_main_v9_apply, val_main_v10_apply, val_main_cst_apply]
  unfold Cert.Spec.score
  simp only [Ideal.mulf_def, Ideal.ofBits_def]
  refine congrArg₂ (· * ·) (Finset.sum_congr rfl fun d _ => ?_) rfl
  have el : lidx_main_v9 (ix4 b h q k) d = ix4 b h q d := funext fun a => Fin.ext (by match a with | ⟨0, _⟩ => rfl | ⟨1, _⟩ => rfl | ⟨2, _⟩ => rfl | ⟨3, _⟩ => rfl)
  have er : ridx_main_v9 (ix4 b h q k) d = ix4 b h k d := funext fun a => Fin.ext (by match a with | ⟨0, _⟩ => rfl | ⟨1, _⟩ => rfl | ⟨2, _⟩ => rfl | ⟨3, _⟩ => rfl)
  rw [el, er, v4_at, v6_at]

end Cert.ReferenceIdeal.RefValue

end
-- ==== Proof.Ref.Softmax.lean ====
/-
  The reference's softmax row read at an index. The maximum over the key axis, folded from −∞ and joined once more
  with −∞, is the row maximum; the exponentials of the differences, their sum from 0, and the quotient are the
  softmax weight of the row of scaled scores.
-/
import proofs.«119720_j50723563765938_2_alg».proof.Proof.Ref.Scores

noncomputable section

namespace Cert.ReferenceIdeal.RefValue

open Cert.ReferenceIdeal Cert.ReferenceIdeal.Read Idealize.ShloMosaic Idealize.ShloMosaic.ValueIdx

/-- The key axis of the [2, 16, 2048, 2048] scores reduces to [2, 16, 2048]. -/
theorem hRed : S2x16x2048x2048.Reduces [3] S2x16x2048 := by decide

/-- The row index (b, h, q) with key position k put back is (b, h, q, k). -/
theorem lift_at (b : Fin 2) (h : Fin 16) (q : Fin 2048) (k : Fin 2048) :
    hRed.lift (ix3 b h q) k = ix4 b h q k := by
  funext c; apply Fin.ext
  match c with
  | ⟨0, _⟩ => rfl
  | ⟨1, _⟩ => rfl
  | ⟨2, _⟩ => rfl
  | ⟨3, _⟩ => rfl

/-- −∞ as an f32 word. -/
theorem ofBits_neg_inf : Ideal.ofBits .f32 0xFF800000#32 = (⊥ : EReal) := by
  simp [Ideal.ofBits, Ideal.ieee]

/-- The max-reduction over the key axis is the row maximum of the scaled scores. -/
theorem v12_at (x0 x1 : ActC) (x3 x4 : WtC) (b : Fin 2) (h : Fin 16) (q : Fin 2048) :
    val_main_v12 (F := Ideal) x0 x1 x3 x4 (ix3 b h q) = Cert.Spec.rowMax (Cert.Spec.score (Cert.Spec.proj x0 x3) (Cert.Spec.proj x1 x4) b h q) := by
  unfold val_main_v12
  rw [Host.reduce_eq_fold_single FloatOps.maximumf _ _ Gen.reducesTo_S2x16x2048x2048_S2x16x2048_d3 hRed Gen.h_S_]
  unfold Cert.Spec.rowMax
  show (Finset.univ : Finset (Fin 2048)).fold max (Ideal.ofBits .f32 0xFF800000#32)
      (fun k => val_main_v11 (F := Ideal) x0 x1 x3 x4 (hRed.lift (ix3 b h q) k)) = _
  refine congrArg (fun f => Finset.fold max (Ideal.ofBits .f32 0xFF800000#32) f (Finset.univ : Finset (Fin 2048))) (funext fun k => ?_)
  exact (congrArg (val_main_v11 (F := Ideal) x0 x1 x3 x4) (lift_at b h q k)).trans (v11_at x0 x1 x3 x4 b h q k)

/-- Joined once more with −∞ it is still the row maximum. -/
theorem v14_at (x0 x1 : ActC) (x3 x4 : WtC) (b : Fin 2) (h : Fin 16) (q : Fin 2048) :
    val_main_v14 (F := Ideal) x0 x1 x3 x4 (ix3 b h q) = Cert.Spec.rowMax (Cert.Spec.score (Cert.Spec.proj x0 x3) (Cert.Spec.proj x1 x4) b h q) := by
  rw [val_main_v14_apply, val_main_v13_apply, val_main_cst_1_apply, v12_at]
  simp only [Ideal.maximumf_def, Ideal.ofBits_def]
  rw [ofBits_neg_inf]
  exact max_eq_right bot_le

/-- The row maximum broadcast along the key axis. -/
theorem v16_at (x0 x1 : ActC) (x3 x4 : WtC) (b : Fin 2) (h : Fin 16) (q : Fin 2048) (k : Fin 2048) :
    val_main_v16 (F := Ideal) x0 x1 x3 x4 (ix4 b h q k) = Cert.Spec.rowMax (Cert.Spec.score (Cert.Spec.proj x0 x3) (Cert.Spec.proj x1 x4) b h q) := by
  rw [val_main_v16_apply, val_main_v15_apply]
  have e : idx_main_v15 (idx_main_v16 (ix4 b h q k)) = ix3 b h q := funext fun a => Fin.ext (by match a with | ⟨0, _⟩ => rfl | ⟨1, _⟩ => rfl | ⟨2, _⟩ => rfl)
  rw [e, v14_at]

/-- The exponential of the score less the row maximum. -/
theorem v18_at (x0 x1 : ActC) (x3 x4 : WtC) (b : Fin 2) (h : Fin 16) (q : Fin 2048) (k : Fin 2048) :
    val_main_v18 (F := Ideal) x0 x1 x3 x4 (ix4 b h q k) = Cert.Spec.expo (Cert.Spec.score (Cert.Spec.proj x0 x3) (Cert.Spec.proj x1 x4) b h q) k := by
  rw [val_main_v18_apply, val_main_v17_apply, v11_at, v16_at]
  simp only [Ideal.hostUnary_exp_def, Ideal.subf_def]
  rfl

/-- The row sum of the exponentials, from 0. -/
theorem v19_at (x0 x1 : ActC) (x3 x4 : WtC) (b : Fin 2) (h : Fin 16) (q : Fin 2048) :
    val_main_v19 (F := Ideal) x0 x1 x3 x4 (ix3 b h q) = Cert.Spec.denom (Cert.Spec.score (Cert.Spec.proj x0 x3) (Cert.Spec.proj x1 x4) b h q) := by
  rw [val_main_v19_apply, val_main_cst_2_apply]
  simp only [Ideal.ofBits_def, Ideal.ofBits_zero_f32, zero_add]
  unfold Cert.Spec.denom
  refine Finset.sum_congr rfl fun k _ => ?_
  have e : idx_main_v19 (ix3 b h q) k = ix4 b h q k := funext fun a => Fin.ext (by match a with | ⟨0, _⟩ => rfl | ⟨1, _⟩ => rfl | ⟨2, _⟩ => rfl | ⟨3, _⟩ => rfl)
  rw [e, v18_at]

/-- The softmax weight: the exponential over the row sum. -/
theorem v22_at (x0 x1 : ActC) (x3 x4 : WtC) (b : Fin 2) (h : Fin 16) (q : Fin 2048) (k : Fin 2048) :
    val_main_v22 (F := Ideal) x0 x1 x3 x4 (ix4 b h q k) = Cert.Spec.weight (Cert.Spec.score (Cert.Spec.proj x0 x3) (Cert.Spec.proj x1 x4) b h q) k := by
  rw [val_main_v22_apply, val_main_v21_apply, val_main_v20_apply]
  have e : idx_main_v20 (idx_main_v21 (ix4 b h q k)) = ix3 b h q := funext fun a => Fin.ext (by match a with | ⟨0, _⟩ => rfl | ⟨1, _⟩ => rfl | ⟨2, _⟩ => rfl)
  rw [e, v19_at, v18_at]
  simp only [Ideal.hostDivf_def]
  rfl

end Cert.ReferenceIdeal.RefValue

end
-- ==== Proof.Ref.Ctx.lean ====
/-
  The reference's context and output read at an index. The weighted sum over key positions of the value
  projection, taken per head, transposed back and merged into the model axis, is the context at model column e
  (head e / 64, column e mod 64 within it); the output is its product with the output weight plus the bias.
-/
import proofs.«119720_j50723563765938_2_alg».proof.Proof.Ref.Softmax

noncomputable section

namespace Cert.ReferenceIdeal.RefValue

open Cert.ReferenceIdeal Cert.ReferenceIdeal.Read Idealize.ShloMosaic Idealize.ShloMosaic.ValueIdx

/-- The per-head context at (b, h, q, d): the softmax weights against the value projection's column 64h + d. -/
theorem v23_at (x0 x1 x2 : ActC) (x3 x4 x5 : WtC) (b : Fin 2) (h : Fin 16) (q : Fin 2048) (d : Fin 64) :
    val_main_v23 (F := Ideal) x0 x1 x2 x3 x4 x5 (ix4 b h q d)
      = ∑ k : Fin 2048, Cert.Spec.weight (Cert.Spec.score (Cert.Spec.proj x0 x3) (Cert.Spec.proj x1 x4) b h q) k
          * Cert.Spec.proj x2 x5 b k (Cert.Spec.col h d) := by
  rw [val_main_v23_apply]
  refine Finset.sum_congr rfl fun k _ => ?_
  have el : lidx_main_v23 (ix4 b h q d) k = ix4 b h q k := funext fun a => Fin.ext (by match a with | ⟨0, _⟩ => rfl | ⟨1, _⟩ => rfl | ⟨2, _⟩ => rfl | ⟨3, _⟩ => rfl)
  have er : ridx_main_v23 (ix4 b h q d) k = ix4 b h k d := funext fun a => Fin.ext (by match a with | ⟨0, _⟩ => rfl | ⟨1, _⟩ => rfl | ⟨2, _⟩ => rfl | ⟨3, _⟩ => rfl)
  rw [el, er, v22_at, v8_at]

/-- A model column is column e mod 64 of head e / 64. -/
theorem col_headOf (e : Fin 1024) : Cert.Spec.col (Cert.Spec.headOf e) ⟨e.val % 64, Nat.mod_lt _ (by decide)⟩ = e := by
  apply Fin.ext
  show 64 * (e.val / 64) + e.val % 64 = e.val
  omega

/-- Transposed back and merged into the model axis: the context at (b, s, e). -/
theorem v25_at (x0 x1 x2 : ActC) (x3 x4 x5 : WtC) (b : Fin 2) (s : Fin 2048) (e : Fin 1024) :
    val_main_v25 (F := Ideal) x0 x1 x2 x3 x4 x5 (ix3 b s e) = Cert.Spec.ctx Cert.Spec.weight (Cert.Spec.proj x0 x3) (Cert.Spec.proj x1 x4) (Cert.Spec.proj x2 x5) b s e := by
  rw [val_main_v25_apply, val_main_v24_apply]
  have ei : idx_main_v24 (idx_main_v25 (ix3 b s e))
      = ix4 b (Cert.Spec.headOf e) s (⟨e.val % 64, Nat.mod_lt _ (by decide)⟩ : Fin 64) := funext fun a => Fin.ext (by
    have hb := b.isLt; have hs := s.isLt; have he := e.isLt
    match a with
    | ⟨0, _⟩ => show ((b.val * 2048 + s.val) * 1024 + e.val) / 2097152 = b.val; omega
    | ⟨1, _⟩ => show ((b.val * 2048 + s.val) * 1024 + e.val) / 64 % 16 = e.val / 64; omega
    | ⟨2, _⟩ => show ((b.val * 2048 + s.val) * 1024 + e.val) / 1024 % 2048 = s.val; omega
    | ⟨3, _⟩ => show ((b.val * 2048 + s.val) * 1024 + e.val) % 64 = e.val % 64; omega)
  rw [ei, v23_at, col_headOf]
  rfl

/-- The reference's result is multi-head attention with the softmax weight as a quotient. -/
theorem v29_eq (x0 x1 x2 : ActC) (x3 x4 x5 x6 : WtC) (x7 : BiasC) :
    val_main_v29 (F := Ideal) x0 x1 x2 x3 x4 x5 x6 x7 = Cert.Spec.mha Cert.Spec.weight x0 x1 x2 x3 x4 x5 x6 x7 := by
  funext i
  obtain ⟨b, s, e, rfl⟩ : ∃ (b : Fin 2) (s : Fin 2048) (e : Fin 1024), i = ix3 b s e := ⟨i 0, i 1, i 2, eq_ix3 i⟩
  rw [val_main_v29_apply, val_main_v26_apply, val_main_v28_apply, val_main_v27_apply]
  simp only [Ideal.addf_def]
  show _ = (∑ e' : Fin 1024, Cert.Spec.ctx Cert.Spec.weight (Cert.Spec.proj x0 x3) (Cert.Spec.proj x1 x4) (Cert.Spec.proj x2 x5) b s e' * x6 (ix2 e e')) + x7 (ix1 e)
  refine congrArg₂ (· + ·) (Finset.sum_congr rfl fun e' _ => ?_) (congrArg x7 ?_)
  · have el : lidx_main_v26 (ix3 b s e) e' = ix3 b s e' := funext fun a => Fin.ext (by match a with | ⟨0, _⟩ => rfl | ⟨1, _⟩ => rfl | ⟨2, _⟩ => rfl)
    have er : ridx_main_v26 (ix3 b s e) e' = ix2 e e' :=
      funext fun a => Fin.ext (by match a with | ⟨0, _⟩ => rfl | ⟨1, _⟩ => rfl)
    rw [el, er, v25_at]
  · exact funext fun a => Fin.ext (by match a with | ⟨0, _⟩ => rfl)

end Cert.ReferenceIdeal.RefValue

end
-- ==== Proof.Ref.RefClaims.lean ====
/-
  The reference program's two claims: it runs (terminates, nothing faulting) with its arguments unchanged, and its
  result buffer ends at multi-head attention of the argument arrays, the softmax weight taken as a quotient.
-/
import proofs.«119720_j50723563765938_2_alg».proof.Defs
import proofs.«119720_j50723563765938_2_alg».proof.Proof.Gen.ReferenceIdeal.Run
import proofs.«119720_j50723563765938_2_alg».proof.Proof.Gen.ReferenceIdeal.Read
import proofs.«119720_j50723563765938_2_alg».proof.Proof.Gen.Pre_finite_inputs
import proofs.«119720_j50723563765938_2_alg».proof.Proof.Ref.Ctx

noncomputable section

namespace Cert.ReferenceIdeal.RefValue

open Idealize.ShloMosaic Idealize.ShloMosaic.TcCoe Idealize.SL.Sem

/-- The reference's frame: its run with the result dropped. -/
theorem frame_ri : Cert.frame_ReferenceIdeal :=
  fun m ρ _ => (θ_run Cert.ReferenceIdeal.defs _ _).mono (fun _ h c => (h c).2)
    (Cert.ReferenceIdeal.Value.run (F := Ideal) m ρ)

/-- The reference's run: the result is multi-head attention of the arguments, which end unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v29) = Cert.Spec.mha Cert.Spec.weight (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)) :=
  (θ_run Cert.ReferenceIdeal.defs _ _).mono
    (fun _ h c => ⟨by rw [(h c).1, Cert.ReferenceIdeal.Read.val_main_v29_eq, v29_eq], (h c).2⟩)
    (Cert.ReferenceIdeal.Value.run (F := Ideal) m' ρ')

end Cert.ReferenceIdeal.RefValue

end
-- ==== Proof.Ref.Finite.lean ====
/-
  Finiteness of the inputs: when the printed predicate "every entry of every argument has absolute value
  below +∞" evaluates to true on the extended reals, every entry of every argument array is a real number.
-/
import proofs.«119720_j50723563765938_2_alg».proof.Pre_finite_inputs
import Idealize.ShloMosaic.Lib.ReduceAll
import Idealize.ShloMosaic.Lib.ValueIdx
import Idealize.ShloMosaic.PureOps.Ideal

noncomputable section

namespace Cert.ReferenceIdeal.RefValue

open Idealize.ShloMosaic

/-- The f32 word 0x7F800000 denotes +∞. -/
theorem ofBits_inf : Ideal.ofBits .f32 0x7F800000#32 = (⊤ : EReal) := by
  simp [Ideal.ofBits, Ideal.ieee]

/-- An extended real whose absolute value max x (−x) lies strictly below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

instance : Subsingleton (⟨0, ![]⟩ : Shape).Idx := ⟨fun a b => funext fun d => d.elim0⟩

/-- One argument: if the and-reduction over every axis of the entrywise test |x| < +∞ is true, every entry is real. -/
theorem real_of_all {s : Shape} {axes : List (Fin s.rank)} (dims : Fin 0 → Fin s.rank)
    (hb : (⟨0, ![]⟩ : Shape).BroadcastsInDim s dims) (hr : s.ReducesTo axes (⟨0, ![]⟩ : Shape))
    (hu : 0 < (⟨0, ![]⟩ : Shape).numel) (x : FVec Ideal s .f32)
    (e : Host.reduce IntOp.andi (cmpf .olt (Host.absf x) (broadcastInDim s dims hb (constant (F := Ideal) (⟨0, ![]⟩ : Shape) .f32 0x7F800000#32)))
        (constantI (⟨0, ![]⟩ : Shape) 1 1#1) hr hu ValueIdx.ix0 = 1#1) :
    ∀ i, ∃ r : ℝ, x i = (r : EReal) := fun i =>
  real_of_abs_lt_inf (x i) (Host.reduce_andi_all _ _ hr hu ValueIdx.ix0 e i)

open Cert.Pre_finite_inputs in
/-- The precondition read back: where the printed predicate holds, every entry of each of the eight argument
    arrays (the three activations, the four weight matrices, the bias) is a real number. -/
theorem real_of_pre [hF : Cert.Pre_finite_inputs.Facts]
    (a0 a1 a2 : FVec Ideal S2x2048x1024 .f32) (a3 a4 a5 a6 : FVec Ideal S1024x1024 .f32) (a7 : FVec Ideal S1024 .f32)
    (h : Cert.Pre_finite_inputs.fn (F := Ideal) a0 a1 a2 a3 a4 a5 a6 a7 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) := by
  have h0 := congrFun h ValueIdx.ix0
  dsimp only [Cert.Pre_finite_inputs.fn, Cert.Pre_finite_inputs.fn_part1, Cert.Pre_finite_inputs.fn_part2] at h0
  simp only [Idealize.ShloMosaic.andi, IntOp.andi_eq_one] at h0
  obtain ⟨⟨⟨⟨⟨⟨⟨e0, e1⟩, e2⟩, e3⟩, e4⟩, e5⟩, e6⟩, e7⟩ := h0
  exact ⟨real_of_all _ _ _ _ a0 e0, real_of_all _ _ _ _ a1 e1, real_of_all _ _ _ _ a2 e2, real_of_all _ _ _ _ a3 e3,
    real_of_all _ _ _ _ a4 e4, real_of_all _ _ _ _ a5 e5, real_of_all _ _ _ _ a6 e6, real_of_all _ _ _ _ a7 e7⟩

end Cert.ReferenceIdeal.RefValue

end
-- ==== Proof.lean ====
/-
  The certificate of a multi-head attention kernel against its jnp reference.

  The kernel is five regions among host reshapes: three projections x · Wᵀ of the [2, 2048, 1024] activations read as
  [4096, 1024] rows, attention on the [2, 2048, 16, 64] head layout (per batch and 64-row query tile every head's
  scores Q Kᵀ · 2⁻⁵, the row softmax as exp(s − max s) · (1 / Σ exp(s − max s)), and the weighted sum of the values),
  and the output projection with its bias. The reference computes the same with einsums, transposes and the
  softmax as a quotient.

  Frames: each region's body run on its staging buffers, the launch of the five pipelines over the buffers' contents
  folded through @main; no item writes an argument. The reference's frame is its run.
  Values: at the extended reals a change of float format is the identity and every sum is exact, so each region's
  output array is one function of its input arrays; reading the reshapes at an index (row 2048·b + s, column 64·h + d)
  turns the kernel's dataflow into the specification with the softmax weight as a product with the reciprocal of the
  row sum. Under the precondition every input is real, so every score is real, the row maximum is attained, the row
  sum is a real at least 1, and the product with its reciprocal is the quotient: the reference's form.
-/
import proofs.«119720_j50723563765938_2_alg».proof.Defs
import proofs.«119720_j50723563765938_2_alg».proof.Proof.Gen.Kernel
import proofs.«119720_j50723563765938_2_alg».proof.Proof.Gen.KernelIdeal
import proofs.«119720_j50723563765938_2_alg».proof.Proof.Gen.ReferenceIdeal
import proofs.«119720_j50723563765938_2_alg».proof.Proof.Gen.Pre_finite_inputs
import proofs.«119720_j50723563765938_2_alg».proof.Proof.K.Run
import proofs.«119720_j50723563765938_2_alg».proof.Proof.KI.Run
import proofs.«119720_j50723563765938_2_alg».proof.Proof.Val.Chain
import proofs.«119720_j50723563765938_2_alg».proof.Proof.Val.Compose
import proofs.«119720_j50723563765938_2_alg».proof.Proof.SpecAlg
import proofs.«119720_j50723563765938_2_alg».proof.Proof.Ref.RefClaims
import proofs.«119720_j50723563765938_2_alg».proof.Proof.Ref.Finite
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Hand.frameH m ρ

/-- The idealized kernel runs and leaves its arguments unchanged. -/
theorem frame_ki : Cert.frame_KernelIdeal := fun m ρ _ => Cert.KernelIdeal.Hand.frameH m ρ

/-- At the extended reals, from memories agreeing on the arguments, both programs end with the specification's
    multi-head attention of the arguments: the kernel by its dataflow and the law between the two forms of the
    softmax weight (which is where the inputs' finiteness is used), the reference by its run. -/
theorem algebraic : Cert.algebraic_KernelIdeal_ReferenceIdeal := by
  intro m ρ m' ρ' hpre hagree
  refine ⟨fun c => Cert.Spec.mha Cert.Spec.weight (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run (Cert.KernelIdeal.defs (F := Ideal)) _ _).mono (fun r h c => ?_) (Cert.KernelIdeal.Hand.run_all (F := Ideal) m ρ)
    obtain ⟨hq, hk, -, hWq, hWk, -, -, -⟩ := Cert.ReferenceIdeal.RefValue.real_of_pre _ _ _ _ _ _ _ _ (hpre c)
    refine ⟨?_, Cert.KernelIdeal.Hand.args_kept m ρ r.2 h c⟩
    refine (h c _ (Cert.KernelIdeal.Hand.mem_ucH Cert.KernelIdeal.main_v17 (by decide))).trans ?_
    refine (Cert.KernelIdeal.Hand.W9_out m ρ c).trans ?_
    refine (Cert.KVal.flow_eq_mha _ _ _ _ _ _ _ _ _ _ _ _ _).trans ?_
    exact Cert.Spec.mha_weightK_eq _ _ _ _ _ _ _ _ hq hk hWq hWk
  · refine (θ_run (Cert.ReferenceIdeal.defs (F := Ideal)) _ _).mono (fun r h c => ?_) (Cert.ReferenceIdeal.RefValue.ref_run m' ρ')
    obtain ⟨hv, ha⟩ := h c
    obtain ⟨e0, e1, e2, e3, e4, e5, e6, e7⟩ := hagree c
    refine ⟨?_, ha⟩
    rw [hv, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
